-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S100000x128 : Shape := ⟨2, ![100000, 128]⟩
abbrev S400000x8 : Shape := ⟨2, ![400000, 8]⟩
abbrev S2x400000 : Shape := ⟨2, ![2, 400000]⟩
abbrev S264x128 : Shape := ⟨2, ![264, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S400000x8 : S_.BroadcastsInDim S400000x8 (![] : Fin 0 → Fin S400000x8.rank)
  reducesTo_S400000x8_S_d0_1 : S400000x8.ReducesTo [0, 1] S_
  bcast_S_S264x128 : S_.BroadcastsInDim S264x128 (![] : Fin 0 → Fin S264x128.rank)
  reducesTo_S264x128_S_d0_1 : S264x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S264x128 1) : IVec S_ 1 :=
  let main_c_5 : IVec S_ 1 := constantI S_ 1 1#1
  let main_v17 : IVec S_ 1 := (fun x v => Host.reduce IntOp.andi x v reducesTo_S264x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S400000x128 .f32) (main_arg1 : FVec F S100000x128 .f32) (main_arg2 : FVec F S400000x8 .f32) (main_arg3 : IVec S2x400000 32) (main_arg4 : FVec F S264x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S400000x8 .f32 := Host.absf main_arg2
  let main_cst_2 : FVec F S_ .f32 := constant S_ .f32 0x7F800000#32
  let main_v10 : FVec F S400000x8 .f32 := broadcastInDim S400000x8 ![] bcast_S_S400000x8 main_cst_2
  let main_v11 : IVec S400000x8 1 := cmpf .olt main_v9 main_v10
  let main_c_3 : IVec S_ 1 := constantI S_ 1 1#1
  let main_v12 : IVec S_ 1 := (fun x v => Host.reduce IntOp.andi x v reducesTo_S400000x8_S_d0_1 h_S_) main_v11 main_c_3
  let main_v13 : IVec S_ 1 := andi main_v8 main_v12
  let main_v14 : FVec F S264x128 .f32 := Host.absf main_arg4
  let main_cst_4 : FVec F S_ .f32 := constant S_ .f32 0x7F800000#32
  let main_v15 : FVec F S264x128 .f32 := broadcastInDim S264x128 ![] bcast_S_S264x128 main_cst_4
  let main_v16 : IVec S264x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S400000x128 : Shape := ⟨2, ![400000, 128]⟩
abbrev S100000x128 : Shape := ⟨2, ![100000, 128]⟩
abbrev S400000x8 : Shape := ⟨2, ![400000, 8]⟩
abbrev S2x400000 : Shape := ⟨2, ![2, 400000]⟩
abbrev S264x128 : Shape := ⟨2, ![264, 128]⟩
abbrev S128 : Shape := ⟨1, ![128]⟩
abbrev S128x128 : Shape := ⟨2, ![128, 128]⟩
abbrev S256x128 : Shape := ⟨2, ![256, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S8x128 : Shape := ⟨2, ![8, 128]⟩
abbrev S1x128 : Shape := ⟨2, ![1, 128]⟩
abbrev S4000x8 : Shape := ⟨2, ![4000, 8]⟩
abbrev S4000x128 : Shape := ⟨2, ![4000, 128]⟩
abbrev S100000x1 : Shape := ⟨2, ![100000, 1]⟩

abbrev nBuf : Space → Nat
  | .hbm => 66
  | .vmem => 29
  | .smem => 0
  | _ => 0

abbrev bufTy : (tb : Table) → Fin (tcTables nBuf tb) → BufTy
  | .hbm, ⟨0, _⟩ => ⟨S400000x128, .f32⟩
  | .hbm, ⟨1, _⟩ => ⟨S100000x128, .f32⟩
  | .hbm, ⟨2, _⟩ => ⟨S400000x8, .f32⟩
  | .hbm, ⟨3, _⟩ => ⟨S2x400000, .i32⟩
  | .hbm, ⟨4, _⟩ => ⟨S264x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x400000, .i32⟩
  | .hbm, ⟨17, _⟩ => ⟨S400000, .i32⟩
  | .hbm, ⟨18, _⟩ => ⟨S1x400000, .i32⟩
  | .hbm, ⟨19, _⟩ => ⟨S400000, .i32⟩
  | .hbm, ⟨20, _⟩ => ⟨S_, .i32⟩
  | .hbm, ⟨21, _⟩ => ⟨S400000, .i32⟩
  | .hbm, ⟨22, _⟩ => ⟨S400000, .i1⟩
  | .hbm, ⟨23, _⟩ => ⟨S_, .i32⟩
  | .hbm, ⟨24, _⟩ => ⟨S400000, .i32⟩
  | .hbm, ⟨25, _⟩ => ⟨S400000, .i32⟩
  | .hbm, ⟨26, _⟩ => ⟨S400000, .i32⟩
  | .hbm, ⟨27, _⟩ => ⟨S400000x1, .i32⟩
  | .hbm, ⟨28, _⟩ => ⟨S400000x128, .f32⟩
  | .hbm, ⟨29, _⟩ => ⟨S_, .i32⟩
  | .hbm, ⟨30, _⟩ => ⟨S400000, .i32⟩
  | .hbm, ⟨31, _⟩ => ⟨S400000, .i1⟩
  | .hbm, ⟨32, _⟩ => ⟨S_, .i32⟩
  | .hbm, ⟨33, _⟩ => ⟨S400000, .i32⟩
  | .hbm, ⟨34, _⟩ => ⟨S400000, .i32⟩
  | .hbm, ⟨35, _⟩ => ⟨S400000, .i32⟩
  | .hbm, ⟨36, _⟩ => ⟨S400000x1, .i32⟩
  | .hbm, ⟨37, _⟩ => ⟨S400000x128, .f32⟩
  | .hbm, ⟨38, _⟩ => ⟨S8x128, .f32⟩
  | .hbm, ⟨39, _⟩ => ⟨S128x128, .f32⟩
  | .hbm, ⟨40, _⟩ => ⟨S128x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S400000x128, .f32⟩
  | .hbm, ⟨45, _⟩ => ⟨S_, .f32⟩
  | .hbm, ⟨46, _⟩ => ⟨S100000x128, .f32⟩
  | .hbm, ⟨47, _⟩ => ⟨S400000x1, .i32⟩
  | .hbm, ⟨48, _⟩ => ⟨S100000x128, .f32⟩
  | .hbm, ⟨49, _⟩ => ⟨S_, .f32⟩
  | .hbm, ⟨50, _⟩ => ⟨S400000x1, .f32⟩
  | .hbm, ⟨51, _⟩ => ⟨S_, .f32⟩
  | .hbm, ⟨52, _⟩ => ⟨S100000x1, .f32⟩
  | .hbm, ⟨53, _⟩ => ⟨S400000x1, .i32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S100000x128, .f32⟩
  | .local _ .vmem, ⟨0, _⟩ => ⟨S4000x8, .f32⟩
  | .local _ .vmem, ⟨1, _⟩ => ⟨S4000x8, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S8x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S4000x128, .f32⟩
  | .local _ .vmem, ⟨28, _⟩ => ⟨S4000x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  slices_S264x128_S8x128_0_0 : S264x128.Slices ![0, 0] S8x128
  slices_S264x128_S128x128_8_0 : S264x128.Slices ![8, 0] S128x128
  slices_S264x128_S128x128_136_0 : S264x128.Slices ![136, 0] S128x128
  shapeCasts_S128_S1x128 : S128.ShapeCasts S1x128
  inb_S4000x8_S4000x8_0_0 : ∀ a, (![0, 0] : Fin 2 → Nat) a + S4000x8.size a ≤ S4000x8.size a
  h_S4000x8 : 0 < S4000x8.numel
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S100000x128 : S_.BroadcastsInDim S100000x128 (![] : Fin 0 → Fin S100000x128.rank)
  bcast_S_S400000x1 : S_.BroadcastsInDim S400000x1 (![] : Fin 0 → Fin S400000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S256x128_S128x128_0_0 : S256x128.Slices ![0, 0] S128x128
  slices_S256x128_S128x128_128_0 : S256x128.Slices ![128, 0] S128x128
  gather_S400000x128_S400000x1_S400000x128_1_0_n_n_0_1_1128_wf : GatherDims.WF S400000x128 S400000x1 S400000x128 [1] [0] [] [0] [] 1 ![1, 128]
  gather_S100000x128_S400000x1_S400000x128_1_0_n_n_0_1_1128_wf : GatherDims.WF S100000x128 S400000x1 S400000x128 [1] [0] [] [0] [] 1 ![1, 128]
  dot_S4000x8_S8x128_S4000x128_1_0_0_1_n_n_wf : DotDims.WF S4000x8 S8x128 S4000x128 [1] [0] [0] [1] [] []
  dot_S4000x128_S128x128_S4000x128_1_0_0_1_n_n_wf : DotDims.WF S4000x128 S128x128 S4000x128 [1] [0] [0] [1] [] []
  scatter_S100000x128_S400000x1_S400000x128_1_0_0_1_wf : ScatterDims.WF S100000x128 S400000x1 S400000x128 [1] [0] [0] 1
  scatter_S100000x1_S400000x1_S400000x1_1_0_0_1_wf : ScatterDims.WF S100000x1 S400000x1 S400000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x8.size a ≤ S400000x8.size a
  hwx0_0 : ∀ i : grid0.Coords, EltTy.bits .f32 = 32 ∨ (Rect.block (s := S400000x8) S4000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .f32 = 32 ∨ (Rect.block (s := S400000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .f32 = 32 ∨ (Rect.block (s := S400000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S400000x128.size a
  hwx0_11 : ∀ i : grid0.Coords, EltTy.bits .f32 = 32 ∨ (Rect.block (s := S400000x128) S4000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)

variable [Facts₀]

def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf

abbrev win0_0 : Pipeline.Window sig grid0 :=
  Pipeline.Window.ofSpec (Memref.whole main_arg2) S4000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v35) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v40) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v41) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S400000x128 : Shape := ⟨2, ![400000, 128]⟩
abbrev S100000x128 : Shape := ⟨2, ![100000, 128]⟩
abbrev S400000x8 : Shape := ⟨2, ![400000, 8]⟩
abbrev S2x400000 : Shape := ⟨2, ![2, 400000]⟩
abbrev S264x128 : Shape := ⟨2, ![264, 128]⟩
abbrev S128 : Shape := ⟨1, ![128]⟩
abbrev S128x128 : Shape := ⟨2, ![128, 128]⟩
abbrev S256x128 : Shape := ⟨2, ![256, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x264 : Shape := ⟨2, ![400000, 264]⟩
abbrev S1x128 : Shape := ⟨2, ![1, 128]⟩
abbrev S100000x1 : Shape := ⟨2, ![100000, 1]⟩
abbrev S100000x256 : Shape := ⟨2, ![100000, 256]⟩

abbrev nBuf : Space → Nat
  | .hbm => 155
  | .vmem => 0
  | .smem => 0
  | _ => 0

abbrev hbmTy0_0 (i : Nat) : BufTy := match i % 128 with
  | 0 => ⟨S400000x128, .f32⟩
  | 1 => ⟨S100000x128, .f32⟩
  | 2 => ⟨S400000x8, .f32⟩
  | 3 => ⟨S2x400000, .i32⟩
  | 4 => ⟨S264x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S1x400000, .i32⟩
  | 17 => ⟨S400000, .i32⟩
  | 18 => ⟨S1x400000, .i32⟩
  | 19 => ⟨S400000, .i32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x128, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S400000x264, .f32⟩
  | 39 => ⟨S400000x128, .f32⟩
  | 40 => ⟨S1x128, .f32⟩
  | 41 => ⟨S400000x128, .f32⟩
  | 42 => ⟨S400000x128, .f32⟩
  | 43 => ⟨S_, .f32⟩
  | 44 => ⟨S_, .f32⟩
  | 45 => ⟨S400000x128, .f32⟩
  | 46 => ⟨S400000x128, .i1⟩
  | 47 => ⟨S_, .f32⟩
  | 48 => ⟨S400000x128, .f32⟩
  | 49 => ⟨S400000x128, .i1⟩
  | 50 => ⟨S_, .f32⟩
  | 51 => ⟨S_, .f32⟩
  | 52 => ⟨S400000x128, .f32⟩
  | 53 => ⟨S400000x128, .f32⟩
  | 54 => ⟨S400000x128, .f32⟩
  | 55 => ⟨S_, .f32⟩
  | 56 => ⟨S400000x128, .f32⟩
  | 57 => ⟨S400000x128, .f32⟩
  | 58 => ⟨S400000x128, .f32⟩
  | 59 => ⟨S_, .f32⟩
  | 60 => ⟨S400000x128, .f32⟩
  | 61 => ⟨S400000x128, .f32⟩
  | 62 => ⟨S400000x128, .f32⟩
  | 63 => ⟨S1x128, .f32⟩
  | 64 => ⟨S400000x128, .f32⟩
  | 65 => ⟨S400000x128, .f32⟩
  | 66 => ⟨S_, .f32⟩
  | 67 => ⟨S_, .f32⟩
  | 68 => ⟨S400000x128, .f32⟩
  | 69 => ⟨S400000x128, .i1⟩
  | 70 => ⟨S_, .f32⟩
  | 71 => ⟨S400000x128, .f32⟩
  | 72 => ⟨S400000x128, .i1⟩
  | 73 => ⟨S_, .f32⟩
  | 74 => ⟨S_, .f32⟩
  | 75 => ⟨S400000x128, .f32⟩
  | 76 => ⟨S400000x128, .f32⟩
  | 77 => ⟨S400000x128, .f32⟩
  | 78 => ⟨S_, .f32⟩
  | 79 => ⟨S400000x128, .f32⟩
  | 80 => ⟨S400000x128, .f32⟩
  | 81 => ⟨S400000x128, .f32⟩
  | 82 => ⟨S_, .f32⟩
  | 83 => ⟨S400000x128, .f32⟩
  | 84 => ⟨S400000x128, .f32⟩
  | 85 => ⟨S400000x128, .f32⟩
  | 86 => ⟨S1x128, .f32⟩
  | 87 => ⟨S400000x128, .f32⟩
  | 88 => ⟨S400000x128, .f32⟩
  | 89 => ⟨S_, .f32⟩
  | 90 => ⟨S100000x128, .f32⟩
  | 91 => ⟨S400000x1, .i32⟩
  | 92 => ⟨S100000x128, .f32⟩
  | 93 => ⟨S_, .f32⟩
  | 94 => ⟨S400000x1, .f32⟩
  | 95 => ⟨S_, .f32⟩
  | 96 => ⟨S100000x1, .f32⟩
  | 97 => ⟨S400000x1, .i32⟩
  | 98 => ⟨S100000x1, .f32⟩
  | 99 => ⟨S_, .f32⟩
  | 100 => ⟨S100000x1, .f32⟩
  | 101 => ⟨S100000x1, .f32⟩
  | 102 => ⟨S100000x128, .f32⟩
  | 103 => ⟨S100000x128, .f32⟩
  | 104 => ⟨S100000x256, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S_, .f32⟩
  | 111 => ⟨S100000x128, .f32⟩
  | 112 => ⟨S100000x128, .i1⟩
  | 113 => ⟨S_, .f32⟩
  | 114 => ⟨S100000x128, .f32⟩
  | 115 => ⟨S100000x128, .i1⟩
  | 116 => ⟨S_, .f32⟩
  | 117 => ⟨S_, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S400000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S_, .f32⟩
  | 6 => ⟨S100000x128, .f32⟩
  | 7 => ⟨S100000x128, .i1⟩
  | 8 => ⟨S_, .f32⟩
  | 9 => ⟨S100000x128, .f32⟩
  | 10 => ⟨S100000x128, .i1⟩
  | 11 => ⟨S_, .f32⟩
  | 12 => ⟨S_, .f32⟩
  | 13 => ⟨S100000x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | _ => ⟨S400000x128, .f32⟩

abbrev hbmTy (i : Nat) : BufTy := match i / 128 with
  | 0 => hbmTy0_0 i
  | 1 => hbmTy0_1 i
  | _ => ⟨S400000x128, .f32⟩

abbrev bufTy : (tb : Table) → Fin (tcTables nBuf tb) → BufTy
  | .hbm, ⟨i, _⟩ => hbmTy i
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_cst_0 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_cst_1 : Ref sig .tc := ⟨.hbm, 50, rfl⟩
abbrev main_call0_call0_call0_v0 : Ref sig .tc := ⟨.hbm, 51, rfl⟩
abbrev main_call0_call0_call0_v1 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_v0 : Ref sig .tc := ⟨.hbm, 58, rfl⟩
abbrev main_call0_cst_0 : Ref sig .tc := ⟨.hbm, 59, rfl⟩
abbrev main_call0_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_call1_cst : Ref sig .tc := ⟨.hbm, 66, rfl⟩
abbrev main_call1_call0_cst : Ref sig .tc := ⟨.hbm, 67, rfl⟩
abbrev main_call1_call0_v0 : Ref sig .tc := ⟨.hbm, 68, rfl⟩
abbrev main_call1_call0_v1 : Ref sig .tc := ⟨.hbm, 69, rfl⟩
abbrev main_call1_call0_cst_0 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_cst_1 : Ref sig .tc := ⟨.hbm, 73, rfl⟩
abbrev main_call1_call0_call0_v0 : Ref sig .tc := ⟨.hbm, 74, rfl⟩
abbrev main_call1_call0_call0_v1 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_v0 : Ref sig .tc := ⟨.hbm, 81, rfl⟩
abbrev main_call1_cst_0 : Ref sig .tc := ⟨.hbm, 82, rfl⟩
abbrev main_call1_v1 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_cst : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_cst_3 : Ref sig .tc := ⟨.hbm, 93, rfl⟩
abbrev main_v36 : Ref sig .tc := ⟨.hbm, 94, rfl⟩
abbrev main_cst_4 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_5 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_call2_cst : Ref sig .tc := ⟨.hbm, 109, rfl⟩
abbrev main_call2_call0_cst : Ref sig .tc := ⟨.hbm, 110, rfl⟩
abbrev main_call2_call0_v0 : Ref sig .tc := ⟨.hbm, 111, rfl⟩
abbrev main_call2_call0_v1 : Ref sig .tc := ⟨.hbm, 112, rfl⟩
abbrev main_call2_call0_cst_0 : Ref sig .tc := ⟨.hbm, 113, rfl⟩
abbrev main_call2_call0_v2 : Ref sig .tc := ⟨.hbm, 114, rfl⟩
abbrev main_call2_call0_v3 : Ref sig .tc := ⟨.hbm, 115, rfl⟩
abbrev main_call2_call0_cst_1 : Ref sig .tc := ⟨.hbm, 116, rfl⟩
abbrev main_call2_call0_call0_v0 : Ref sig .tc := ⟨.hbm, 117, rfl⟩
abbrev main_call2_call0_call0_v1 : Ref sig .tc := ⟨.hbm, 118, rfl⟩
abbrev main_call2_call0_v4 : Ref sig .tc := ⟨.hbm, 119, rfl⟩
abbrev main_call2_call0_v5 : Ref sig .tc := ⟨.hbm, 120, rfl⟩
abbrev main_call2_call0_v6 : Ref sig .tc := ⟨.hbm, 121, rfl⟩
abbrev main_call2_call0_v7 : Ref sig .tc := ⟨.hbm, 122, rfl⟩
abbrev main_call2_call0_v8 : Ref sig .tc := ⟨.hbm, 123, rfl⟩
abbrev main_call2_v0 : Ref sig .tc := ⟨.hbm, 124, rfl⟩
abbrev main_call2_cst_0 : Ref sig .tc := ⟨.hbm, 125, rfl⟩
abbrev main_call2_v1 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_call3_cst : Ref sig .tc := ⟨.hbm, 132, rfl⟩
abbrev main_call3_call0_cst : Ref sig .tc := ⟨.hbm, 133, rfl⟩
abbrev main_call3_call0_v0 : Ref sig .tc := ⟨.hbm, 134, rfl⟩
abbrev main_call3_call0_v1 : Ref sig .tc := ⟨.hbm, 135, rfl⟩
abbrev main_call3_call0_cst_0 : Ref sig .tc := ⟨.hbm, 136, rfl⟩
abbrev main_call3_call0_v2 : Ref sig .tc := ⟨.hbm, 137, rfl⟩
abbrev main_call3_call0_v3 : Ref sig .tc := ⟨.hbm, 138, rfl⟩
abbrev main_call3_call0_cst_1 : Ref sig .tc := ⟨.hbm, 139, rfl⟩
abbrev main_call3_call0_call0_v0 : Ref sig .tc := ⟨.hbm, 140, rfl⟩
abbrev main_call3_call0_call0_v1 : Ref sig .tc := ⟨.hbm, 141, rfl⟩
abbrev main_call3_call0_v4 : Ref sig .tc := ⟨.hbm, 142, rfl⟩
abbrev main_call3_call0_v5 : Ref sig .tc := ⟨.hbm, 143, rfl⟩
abbrev main_call3_call0_v6 : Ref sig .tc := ⟨.hbm, 144, rfl⟩
abbrev main_call3_call0_v7 : Ref sig .tc := ⟨.hbm, 145, rfl⟩
abbrev main_call3_call0_v8 : Ref sig .tc := ⟨.hbm, 146, rfl⟩
abbrev main_call3_v0 : Ref sig .tc := ⟨.hbm, 147, rfl⟩
abbrev main_call3_cst_0 : Ref sig .tc := ⟨.hbm, 148, rfl⟩
abbrev main_call3_v1 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x8_S400000x128_S400000x128_S400000x264_d1 : Shape.Concatenates [S400000x8, S400000x128, S400000x128] S400000x264 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S100000x128 : S_.BroadcastsInDim S100000x128 (![] : Fin 0 → Fin S100000x128.rank)
  bcast_S_S400000x1 : S_.BroadcastsInDim S400000x1 (![] : Fin 0 → Fin S400000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  gather_S400000x128_S400000x1_S400000x128_1_0_n_n_0_1_1128_wf : GatherDims.WF S400000x128 S400000x1 S400000x128 [1] [0] [] [0] [] 1 ![1, 128]
  gather_S100000x128_S400000x1_S400000x128_1_0_n_n_0_1_1128_wf : GatherDims.WF S100000x128 S400000x1 S400000x128 [1] [0] [] [0] [] 1 ![1, 128]
  dot_S400000x264_S264x128_S400000x128_1_0_0_1_n_n_wf : DotDims.WF S400000x264 S264x128 S400000x128 [1] [0] [0] [1] [] []
  dot_S400000x128_S128x128_S400000x128_1_0_0_1_n_n_wf : DotDims.WF S400000x128 S128x128 S400000x128 [1] [0] [0] [1] [] []
  scatter_S100000x128_S400000x1_S400000x128_1_0_0_1_wf : ScatterDims.WF S100000x128 S400000x1 S400000x128 [1] [0] [0] 1
  scatter_S100000x1_S400000x1_S400000x1_1_0_0_1_wf : ScatterDims.WF S100000x1 S400000x1 S400000x1 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x264_S264x128_S400000x128_1_0_0_1_n_n : DotDims S400000x264 S264x128 S400000x128 where
  lhsContracting := [1]
  rhsContracting := [0]
  lhsNonContracting := [0]
  rhsNonContracting := [1]
  lhsBatch := []
  rhsBatch := []
  wf := dot_S400000x264_S264x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run with its result named: every weakly fair execution of the program ends, nothing
  faulting, with the result array at the contents the last pipeline region's write-backs leave (the fold of the
  two regions and the two stretches of host operations over the launch memory), and the arguments unchanged.
-/
import proofs.«170768_j69415261438105_1_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's four segments (host stretch, region, host stretch, region): the last thread state
    holds every unscoped buffer at the last boundary's contents, read here at the result and at each argument. -/
theorem run_W4 : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.KValue

end
-- ==== Proof.MlpSpec.lean ====
/-
  The mathematics both programs compute, stated once over the extended reals.

  A row of the edge network: from the eight angle features a, the gathered rows u and v (128 entries each),
  the first layer adds three partial products and the bias, (a·Wa + u·Wu + v·Wv) + b0; then SELU, a second
  linear layer, SELU, a third linear layer.  A row of the node network is the same with two partial products
  (the aggregated messages g and the node's own features e).  SELU is scale · (x if x > 0 else alpha · (exp x − 1)),
  with the two constants the binary32 words both programs carry.

  The whole-array functions edgeFn and nodeFn apply a row's network at every row of a 400000-row or a
  100000-row array; the first layer's three (or two) weight blocks are the rows 0–7, 8–135, 136–263 (or
  0–127, 128–255) of one weight matrix.
-/
import Idealize.ShloMosaic.PureOps.Ideal
import Idealize.ShloMosaic.Lib.ValueIdx

noncomputable section

open scoped BigOperators

namespace Cert.MlpSpec

open Idealize.ShloMosaic Idealize.ShloMosaic.ValueIdx

/-- SELU's slope constant, scale, and the literals one and zero, as the binary32 words of both programs. -/
def alpha : EReal := Ideal.ofBits .f32 0x3FD62D7D#32
def scale : EReal := Ideal.ofBits .f32 0x3F867D5F#32
def one : EReal := Ideal.ofBits .f32 0x3F800000#32
def zero : EReal := Ideal.ofBits .f32 0x00000000#32

/-- SELU on the extended reals: scale · (x if x > 0, else alpha · (exp x − 1)). -/
def selu (x : EReal) : EReal :=
  scale * Scalar.select (Ideal.cmp .ogt x zero) x (alpha * (Ideal.exp x - one))

/-- One output entry of a linear layer: the dot product of the row with column q of the weights, plus the bias. -/
def lin {K : ℕ} (x : Fin K → EReal) (W : Fin K → Fin 128 → EReal) (b : Fin 128 → EReal) (q : Fin 128) : EReal :=
  (∑ k, x k * W k q) + b q

/-- The edge network's first layer before its activation: three partial products, then the bias. -/
def edgePre (a : Fin 8 → EReal) (u v : Fin 128 → EReal) (Wa : Fin 8 → Fin 128 → EReal)
    (Wu Wv : Fin 128 → Fin 128 → EReal) (b : Fin 128 → EReal) (i : Fin 128) : EReal :=
  (∑ k, a k * Wa k i) + (∑ k, u k * Wu k i) + (∑ k, v k * Wv k i) + b i

/-- The node network's first layer before its activation: two partial products, then the bias. -/
def nodePre (g e : Fin 128 → EReal) (Wg We : Fin 128 → Fin 128 → EReal) (b : Fin 128 → EReal) (i : Fin 128) : EReal :=
  (∑ k, g k * Wg k i) + (∑ k, e k * We k i) + b i

/-- From a first layer's pre-activation row: SELU, linear, SELU, linear. -/
def tail (h0 : Fin 128 → EReal) (W1 : Fin 128 → Fin 128 → EReal) (b1 : Fin 128 → EReal)
    (W2 : Fin 128 → Fin 128 → EReal) (b2 : Fin 128 → EReal) (q : Fin 128) : EReal :=
  lin (fun j => selu (lin (fun i => selu (h0 i)) W1 b1 j)) W2 b2 q

abbrev SA8 : Shape := ⟨2, ![400000, 8]⟩
abbrev SA128 : Shape := ⟨2, ![400000, 128]⟩
abbrev SE128 : Shape := ⟨2, ![100000, 128]⟩
abbrev SW264 : Shape := ⟨2, ![264, 128]⟩
abbrev SW256 : Shape := ⟨2, ![256, 128]⟩
abbrev SW128 : Shape := ⟨2, ![128, 128]⟩
abbrev SB : Shape := ⟨1, ![128]⟩

/-- Entry (p, q) of the edge network's output. -/
def edgeAt (a12 : SA8.Idx → EReal) (e1g e2g : SA128.Idx → EReal) (aW0 : SW264.Idx → EReal) (ab0 : SB.Idx → EReal)
    (aW1 : SW128.Idx → EReal) (ab1 : SB.Idx → EReal) (aW2 : SW128.Idx → EReal) (ab2 : SB.Idx → EReal)
    (p : Fin 400000) (q : Fin 128) : EReal :=
  tail (edgePre (fun k => a12 (ix2 p k)) (fun k => e1g (ix2 p k)) (fun k => e2g (ix2 p k))
      (fun k j => aW0 (ix2 (⟨k.val, by omega⟩ : Fin 264) j))
      (fun k j => aW0 (ix2 (⟨8 + k.val, by omega⟩ : Fin 264) j))
      (fun k j => aW0 (ix2 (⟨136 + k.val, by omega⟩ : Fin 264) j))
      (fun j => ab0 (ix1 j)))
    (fun k j => aW1 (ix2 k j)) (fun j => ab1 (ix1 j)) (fun k j => aW2 (ix2 k j)) (fun j => ab2 (ix1 j)) q

/-- The edge network at every row. -/
def edgeFn (a12 : SA8.Idx → EReal) (e1g e2g : SA128.Idx → EReal) (aW0 : SW264.Idx → EReal) (ab0 : SB.Idx → EReal)
    (aW1 : SW128.Idx → EReal) (ab1 : SB.Idx → EReal) (aW2 : SW128.Idx → EReal) (ab2 : SB.Idx → EReal) :
    SA128.Idx → EReal :=
  fun i => edgeAt a12 e1g e2g aW0 ab0 aW1 ab1 aW2 ab2 (i 0) (i 1)

/-- Entry (p, q) of the node network's output. -/
def nodeAt (aggr e2 : SE128.Idx → EReal) (eW0 : SW256.Idx → EReal) (eb0 : SB.Idx → EReal)
    (eW1 : SW128.Idx → EReal) (eb1 : SB.Idx → EReal) (eW2 : SW128.Idx → EReal) (eb2 : SB.Idx → EReal)
    (p : Fin 100000) (q : Fin 128) : EReal :=
  tail (nodePre (fun k => aggr (ix2 p k)) (fun k => e2 (ix2 p k))
      (fun k j => eW0 (ix2 (⟨k.val, by omega⟩ : Fin 256) j))
      (fun k j => eW0 (ix2 (⟨128 + k.val, by omega⟩ : Fin 256) j))
      (fun j => eb0 (ix1 j)))
    (fun k j => eW1 (ix2 k j)) (fun j => eb1 (ix1 j)) (fun k j => eW2 (ix2 k j)) (fun j => eb2 (ix1 j)) q

/-- The node network at every row. -/
def nodeFn (aggr e2 : SE128.Idx → EReal) (eW0 : SW256.Idx → EReal) (eb0 : SB.Idx → EReal)
    (eW1 : SW128.Idx → EReal) (eb1 : SB.Idx → EReal) (eW2 : SW128.Idx → EReal) (eb2 : SB.Idx → EReal) :
    SE128.Idx → EReal :=
  fun i => nodeAt aggr e2 eW0 eb0 eW1 eb1 eW2 eb2 (i 0) (i 1)

theorem edgeFn_apply (a12 : SA8.Idx → EReal) (e1g e2g : SA128.Idx → EReal) (aW0 : SW264.Idx → EReal) (ab0 : SB.Idx → EReal)
    (aW1 : SW128.Idx → EReal) (ab1 : SB.Idx → EReal) (aW2 : SW128.Idx → EReal) (ab2 : SB.Idx → EReal)
    (p : Fin 400000) (q : Fin 128) :
    edgeFn a12 e1g e2g aW0 ab0 aW1 ab1 aW2 ab2 (ix2 p q) = edgeAt a12 e1g e2g aW0 ab0 aW1 ab1 aW2 ab2 p q := rfl

theorem nodeFn_apply (aggr e2 : SE128.Idx → EReal) (eW0 : SW256.Idx → EReal) (eb0 : SB.Idx → EReal)
    (eW1 : SW128.Idx → EReal) (eb1 : SB.Idx → EReal) (eW2 : SW128.Idx → EReal) (eb2 : SB.Idx → EReal)
    (p : Fin 100000) (q : Fin 128) :
    nodeFn aggr e2 eW0 eb0 eW1 eb1 eW2 eb2 (ix2 p q) = nodeAt aggr e2 eW0 eb0 eW1 eb1 eW2 eb2 p q := rfl

end Cert.MlpSpec

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.KPay.lean ====
/-
  The arithmetic of the two kernel bodies, read at one entry, on the extended reals.

  Each body applies to a block of 4000 rows a three-layer network: a first layer that adds several partial
  matrix products and a bias row, SELU, a second linear layer, SELU, a third linear layer.  On the extended reals
  the narrowing of a value to 16 bits is the identity, a cast to the same shape is the identity, a matrix product
  into the zero accumulator is the sum over the contracted axis, and the broadcast of the bias row reads the row's
  entry of the same column; so entry (p, q) of what a body stores is the network of the specification applied to
  row p of the loaded blocks.
-/
import proofs.«170768_j69415261438105_1_alg».proof.Proof.Gen.KernelIdeal.Skeleton
import proofs.«170768_j69415261438105_1_alg».proof.Proof.MlpSpec
import proofs.«170768_j69415261438105_1_alg».proof.Proof.LibMatmulPlain
import Idealize.ShloMosaic.Lib.ValueIdx
import Idealize.ShloMosaic.Lib.ValueLayout
import Idealize.ShloMosaic.Lib.Pipeline.Value

noncomputable section

open scoped BigOperators

namespace Cert.KernelIdeal.KValue

open Idealize.ShloMosaic Idealize.ShloMosaic.ValueIdx Cert.KernelIdeal Cert.KernelIdeal.Gen

/-- The printed SELU chain on a block, with the block it is compared against a variable
    (the kernels compare against a broadcast zero). -/
def seluV (x z : FVec Ideal S4000x128 .f32) : FVec Ideal S4000x128 .f32 :=
  mulf (broadcast S4000x128 (Scalar.ofBits (F := Ideal) .f32 0x3F867D5F#32))
    (select (cmpf .ogt x z) x
      (mulf (broadcast S4000x128 (Scalar.ofBits (F := Ideal) .f32 0x3FD62D7D#32))
        (subf (exp x) (broadcast S4000x128 (Scalar.ofBits (F := Ideal) .f32 0x3F800000#32)))))

/-- The SELU chain at an entry is the specification's SELU of the entry. -/
theorem seluV_apply (x : FVec Ideal S4000x128 .f32) (i : S4000x128.Idx) :
    seluV x (broadcast S4000x128 (Scalar.ofBits (F := Ideal) .f32 0x00000000#32)) i = Cert.MlpSpec.selu (x i) := rfl

/-- A linear layer of the kernel: the product of a 4000 x 128 block with a 128 x 128 weight block into the zero
    accumulator, plus the broadcast bias row. -/
def linV (x : FVec Ideal S4000x128 .bf16) (W : Vec Ideal S128x128 .f32) (b : Vec Ideal S1x128 .f32) :
    FVec Ideal S4000x128 .f32 :=
  addf (matmul dot_S4000x128_S128x128_S4000x128_1_0_0_1_n_n none x (truncf .bf16 W bitsLt_bf16_f32)
      (constant (F := Ideal) S4000x128 .f32 0x00000000#32))
    (broadcastTo S4000x128 (shapeCast S1x128 b shapeCasts_S1x128_S1x128) broadcasts_S1x128_S4000x128)

/-- A 128-wide product into the zero accumulator at an entry. -/
theorem mm128_apply (x : FVec Ideal S4000x128 .bf16) (W : FVec Ideal S128x128 .bf16) (p : Fin 4000) (q : Fin 128) :
    matmul dot_S4000x128_S128x128_S4000x128_1_0_0_1_n_n none x W
      (constant (F := Ideal) S4000x128 .f32 0x00000000#32) (ix2 p q) = ∑ k : Fin 128, x (ix2 p k) * W (ix2 k q) :=
  Cert.LibMatmulPlain.matmul_zero_apply dot_S4000x128_S128x128_S4000x128_1_0_0_1_n_n rfl rfl rfl rfl rfl rfl x W p q

/-- An 8-wide product into the zero accumulator at an entry. -/
theorem mm8_apply (x : FVec Ideal S4000x8 .bf16) (W : FVec Ideal S8x128 .bf16) (p : Fin 4000) (q : Fin 128) :
    matmul dot_S4000x8_S8x128_S4000x128_1_0_0_1_n_n none x W
      (constant (F := Ideal) S4000x128 .f32 0x00000000#32) (ix2 p q) = ∑ k : Fin 8, x (ix2 p k) * W (ix2 k q) :=
  Cert.LibMatmulPlain.matmul_zero_apply dot_S4000x8_S8x128_S4000x128_1_0_0_1_n_n rfl rfl rfl rfl rfl rfl x W p q

/-- The broadcast bias row at an entry is the row's entry of that column. -/
theorem bias_apply (b : Vec Ideal S1x128 .f32) (p : Fin 4000) (q : Fin 128) :
    broadcastTo S4000x128 (shapeCast S1x128 b shapeCasts_S1x128_S1x128) broadcasts_S1x128_S4000x128 (ix2 p q)
      = b (ix2 0 q) := by
  refine (broadcastTo_1b_ab_apply _ broadcasts_S1x128_S4000x128 p q).trans ?_
  rw [shapeCast_self]

/-- A linear layer of the kernel at an entry is the specification's linear layer of the row. -/
theorem linV_apply (x : FVec Ideal S4000x128 .bf16) (W : Vec Ideal S128x128 .f32) (b : Vec Ideal S1x128 .f32)
    (p : Fin 4000) (q : Fin 128) :
    linV x W b (ix2 p q)
      = Cert.MlpSpec.lin (fun k => x (ix2 p k)) (fun k j => W (ix2 k j)) (fun j => b (ix2 0 j)) q := by
  unfold linV Cert.MlpSpec.lin
  refine (addf_apply _ _ _).trans ?_
  refine congrArg₂ (· + ·) ?_ (bias_apply b p q)
  exact mm128_apply x _ p q

/-- The broadcast zero both bodies compare against. -/
def zeroV : FVec Ideal S4000x128 .f32 := broadcast S4000x128 (Scalar.ofBits (F := Ideal) .f32 0x00000000#32)

/-- From a first layer's pre-activation block: SELU, linear, SELU, linear, as the bodies print it. -/
def tailV (h : FVec Ideal S4000x128 .f32) (W1 : Vec Ideal S128x128 .f32) (b1 : Vec Ideal S1x128 .f32)
    (W2 : Vec Ideal S128x128 .f32) (b2 : Vec Ideal S1x128 .f32) : FVec Ideal S4000x128 .f32 :=
  linV (truncf .bf16 (seluV (linV (truncf .bf16 (seluV h zeroV) bitsLt_bf16_f32) W1 b1) zeroV) bitsLt_bf16_f32) W2 b2

/-- The printed tail at an entry is the specification's tail of the row. -/
theorem tailV_apply (h : FVec Ideal S4000x128 .f32) (W1 : Vec Ideal S128x128 .f32) (b1 : Vec Ideal S1x128 .f32)
    (W2 : Vec Ideal S128x128 .f32) (b2 : Vec Ideal S1x128 .f32) (p : Fin 4000) (q : Fin 128) :
    tailV h W1 b1 W2 b2 (ix2 p q)
      = Cert.MlpSpec.tail (fun i => h (ix2 p i)) (fun k j => W1 (ix2 k j)) (fun j => b1 (ix2 0 j))
          (fun k j => W2 (ix2 k j)) (fun j => b2 (ix2 0 j)) q := by
  unfold tailV Cert.MlpSpec.tail
  refine (linV_apply _ W2 b2 p q).trans ?_
  refine congrArg (fun f => Cert.MlpSpec.lin f (fun k j => W2 (ix2 k j)) (fun j => b2 (ix2 0 j)) q) (funext fun j => ?_)
  show Cert.MlpSpec.selu (linV _ W1 b1 (ix2 p j)) = _
  refine congrArg Cert.MlpSpec.selu ?_
  exact linV_apply _ W1 b1 p j

/-- The edge body's first layer before its activation: three partial products, then the bias row. -/
def edgePreV (x0 : Vec Ideal S4000x8 .f32) (x1 x2 : Vec Ideal S4000x128 .f32) (x3 : Vec Ideal S8x128 .f32)
    (x4 x5 : Vec Ideal S128x128 .f32) (x6 : Vec Ideal S1x128 .f32) : FVec Ideal S4000x128 .f32 :=
  addf
    (addf
      (addf
        (matmul dot_S4000x8_S8x128_S4000x128_1_0_0_1_n_n none (truncf .bf16 x0 bitsLt_bf16_f32)
          (truncf .bf16 (shapeCast S8x128 x3 shapeCasts_S8x128_S8x128) bitsLt_bf16_f32)
          (constant (F := Ideal) S4000x128 .f32 0x00000000#32))
        (matmul dot_S4000x128_S128x128_S4000x128_1_0_0_1_n_n none
          (truncf .bf16 (shapeCast S4000x128 x1 shapeCasts_S4000x128_S4000x128) bitsLt_bf16_f32)
          (truncf .bf16 (shapeCast S128x128 x4 shapeCasts_S128x128_S128x128) bitsLt_bf16_f32)
          (constant (F := Ideal) S4000x128 .f32 0x00000000#32)))
      (matmul dot_S4000x128_S128x128_S4000x128_1_0_0_1_n_n none
        (truncf .bf16 (shapeCast S4000x128 x2 shapeCasts_S4000x128_S4000x128) bitsLt_bf16_f32)
        (truncf .bf16 (shapeCast S128x128 x5 shapeCasts_S128x128_S128x128) bitsLt_bf16_f32)
        (constant (F := Ideal) S4000x128 .f32 0x00000000#32)))
    (broadcastTo S4000x128 (shapeCast S1x128 x6 shapeCasts_S1x128_S1x128) broadcasts_S1x128_S4000x128)

/-- The edge body's first layer at an entry is the specification's first layer of the row. -/
theorem edgePreV_apply (x0 : Vec Ideal S4000x8 .f32) (x1 x2 : Vec Ideal S4000x128 .f32) (x3 : Vec Ideal S8x128 .f32)
    (x4 x5 : Vec Ideal S128x128 .f32) (x6 : Vec Ideal S1x128 .f32) (p : Fin 4000) (q : Fin 128) :
    edgePreV x0 x1 x2 x3 x4 x5 x6 (ix2 p q)
      = Cert.MlpSpec.edgePre (fun k => x0 (ix2 p k)) (fun k => x1 (ix2 p k)) (fun k => x2 (ix2 p k))
          (fun k j => x3 (ix2 k j)) (fun k j => x4 (ix2 k j)) (fun k j => x5 (ix2 k j)) (fun j => x6 (ix2 0 j)) q := by
  unfold edgePreV Cert.MlpSpec.edgePre
  refine (addf_apply _ _ _).trans ?_
  refine congrArg₂ (· + ·) ?_ (bias_apply x6 p q)
  refine (addf_apply _ _ _).trans ?_
  refine congrArg₂ (· + ·) ?_ ?_
  · refine (addf_apply _ _ _).trans ?_
    refine congrArg₂ (· + ·) ?_ ?_
    · refine (mm8_apply _ _ p q).trans ?_
      rw [shapeCast_self]; rfl
    · refine (mm128_apply _ _ p q).trans ?_
      rw [shapeCast_self, shapeCast_self]; rfl
  · refine (mm128_apply _ _ p q).trans ?_
    rw [shapeCast_self, shapeCast_self]; rfl

/-- The edge body's two payloads compose to the printed tail of its first layer. -/
theorem edge_pay_eq (x0 : Vec Ideal S4000x8 .f32) (x1 x2 : Vec Ideal S4000x128 .f32) (x3 : Vec Ideal S8x128 .f32)
    (x4 x5 : Vec Ideal S128x128 .f32) (x6 : Vec Ideal S1x128 .f32) (x7 : Vec Ideal S128x128 .f32) (x8 : Vec Ideal S1x128 .f32)
    (x9 : Vec Ideal S128x128 .f32) (x10 : Vec Ideal S1x128 .f32) :
    k0_pay1 (F := Ideal) (k0_pay2 (F := Ideal) x0 x1 x2 x3 x4 x5 x6) x7 x8 x9 x10
      = tailV (edgePreV x0 x1 x2 x3 x4 x5 x6) x7 x8 x9 x10 := rfl

/-- Entry (p, q) of what the edge body stores is the specification's network applied to row p of the loaded blocks. -/
theorem edge_pay (x0 : Vec Ideal S4000x8 .f32) (x1 x2 : Vec Ideal S4000x128 .f32) (x3 : Vec Ideal S8x128 .f32)
    (x4 x5 : Vec Ideal S128x128 .f32) (x6 : Vec Ideal S1x128 .f32) (x7 : Vec Ideal S128x128 .f32) (x8 : Vec Ideal S1x128 .f32)
    (x9 : Vec Ideal S128x128 .f32) (x10 : Vec Ideal S1x128 .f32) (p : Fin 4000) (q : Fin 128) :
    k0_pay1 (F := Ideal) (k0_pay2 (F := Ideal) x0 x1 x2 x3 x4 x5 x6) x7 x8 x9 x10 (ix2 p q)
      = Cert.MlpSpec.tail
          (Cert.MlpSpec.edgePre (fun k => x0 (ix2 p k)) (fun k => x1 (ix2 p k)) (fun k => x2 (ix2 p k))
            (fun k j => x3 (ix2 k j)) (fun k j => x4 (ix2 k j)) (fun k j => x5 (ix2 k j)) (fun j => x6 (ix2 0 j)))
          (fun k j => x7 (ix2 k j)) (fun j => x8 (ix2 0 j)) (fun k j => x9 (ix2 k j)) (fun j => x10 (ix2 0 j)) q := by
  refine (congrFun (edge_pay_eq x0 x1 x2 x3 x4 x5 x6 x7 x8 x9 x10) (ix2 p q)).trans ?_
  refine (tailV_apply _ x7 x8 x9 x10 p q).trans ?_
  refine congrArg (fun h => Cert.MlpSpec.tail h (fun k j => x7 (ix2 k j)) (fun j => x8 (ix2 0 j))
    (fun k j => x9 (ix2 k j)) (fun j => x10 (ix2 0 j)) q) (funext fun i => ?_)
  exact edgePreV_apply x0 x1 x2 x3 x4 x5 x6 p i

/-- The node body's first layer before its activation: two partial products, then the bias row. -/
def nodePreV (x0 x1 : Vec Ideal S4000x128 .f32) (x2 x3 : Vec Ideal S128x128 .f32) (x4 : Vec Ideal S1x128 .f32) :
    FVec Ideal S4000x128 .f32 :=
  addf
    (addf
      (matmul dot_S4000x128_S128x128_S4000x128_1_0_0_1_n_n none
        (truncf .bf16 (shapeCast S4000x128 x0 shapeCasts_S4000x128_S4000x128) bitsLt_bf16_f32)
        (truncf .bf16 (shapeCast S128x128 x2 shapeCasts_S128x128_S128x128) bitsLt_bf16_f32)
        (constant (F := Ideal) S4000x128 .f32 0x00000000#32))
      (matmul dot_S4000x128_S128x128_S4000x128_1_0_0_1_n_n none
        (truncf .bf16 x1 bitsLt_bf16_f32)
        (truncf .bf16 (shapeCast S128x128 x3 shapeCasts_S128x128_S128x128) bitsLt_bf16_f32)
        (constant (F := Ideal) S4000x128 .f32 0x00000000#32)))
    (broadcastTo S4000x128 (shapeCast S1x128 x4 shapeCasts_S1x128_S1x128) broadcasts_S1x128_S4000x128)

/-- The node body's first layer at an entry is the specification's first layer of the row. -/
theorem nodePreV_apply (x0 x1 : Vec Ideal S4000x128 .f32) (x2 x3 : Vec Ideal S128x128 .f32) (x4 : Vec Ideal S1x128 .f32)
    (p : Fin 4000) (q : Fin 128) :
    nodePreV x0 x1 x2 x3 x4 (ix2 p q)
      = Cert.MlpSpec.nodePre (fun k => x0 (ix2 p k)) (fun k => x1 (ix2 p k))
          (fun k j => x2 (ix2 k j)) (fun k j => x3 (ix2 k j)) (fun j => x4 (ix2 0 j)) q := by
  unfold nodePreV Cert.MlpSpec.nodePre
  refine (addf_apply _ _ _).trans ?_
  refine congrArg₂ (· + ·) ?_ (bias_apply x4 p q)
  refine (addf_apply _ _ _).trans ?_
  refine congrArg₂ (· + ·) ?_ ?_
  · refine (mm128_apply _ _ p q).trans ?_
    rw [shapeCast_self, shapeCast_self]; rfl
  · refine (mm128_apply _ _ p q).trans ?_
    rw [shapeCast_self]; rfl

/-- The node body's three payloads compose to the printed tail of its first layer. -/
theorem node_pay_eq (x0 x1 : Vec Ideal S4000x128 .f32) (x2 x3 : Vec Ideal S128x128 .f32) (x4 : Vec Ideal S1x128 .f32)
    (x5 : Vec Ideal S128x128 .f32) (x6 : Vec Ideal S1x128 .f32) (x7 : Vec Ideal S128x128 .f32) (x8 : Vec Ideal S1x128 .f32) :
    k1_pay1 (F := Ideal) (k1_pay2 (F := Ideal) x0 x1 x2 x3 x4 x5 x6) (k1_pay3 (F := Ideal)) x7 x8
      = tailV (nodePreV x0 x1 x2 x3 x4) x5 x6 x7 x8 := rfl

/-- Entry (p, q) of what the node body stores is the specification's network applied to row p of the loaded blocks. -/
theorem node_pay (x0 x1 : Vec Ideal S4000x128 .f32) (x2 x3 : Vec Ideal S128x128 .f32) (x4 : Vec Ideal S1x128 .f32)
    (x5 : Vec Ideal S128x128 .f32) (x6 : Vec Ideal S1x128 .f32) (x7 : Vec Ideal S128x128 .f32) (x8 : Vec Ideal S1x128 .f32)
    (p : Fin 4000) (q : Fin 128) :
    k1_pay1 (F := Ideal) (k1_pay2 (F := Ideal) x0 x1 x2 x3 x4 x5 x6) (k1_pay3 (F := Ideal)) x7 x8 (ix2 p q)
      = Cert.MlpSpec.tail
          (Cert.MlpSpec.nodePre (fun k => x0 (ix2 p k)) (fun k => x1 (ix2 p k))
            (fun k j => x2 (ix2 k j)) (fun k j => x3 (ix2 k j)) (fun j => x4 (ix2 0 j)))
          (fun k j => x5 (ix2 k j)) (fun j => x6 (ix2 0 j)) (fun k j => x7 (ix2 k j)) (fun j => x8 (ix2 0 j)) q := by
  refine (congrFun (node_pay_eq x0 x1 x2 x3 x4 x5 x6 x7 x8) (ix2 p q)).trans ?_
  refine (tailV_apply _ x5 x6 x7 x8 p q).trans ?_
  refine congrArg (fun h => Cert.MlpSpec.tail h (fun k j => x5 (ix2 k j)) (fun j => x6 (ix2 0 j))
    (fun k j => x7 (ix2 k j)) (fun j => x8 (ix2 0 j)) q) (funext fun i => ?_)
  exact nodePreV_apply x0 x1 x2 x3 x4 p i

end Cert.KernelIdeal.KValue

end
-- ==== Proof.KNode.lean ====
/-
  The node network's pipeline region, read as one whole-array function.

  The region walks the 100000 rows in 25 blocks of 4000; at a point t the body reads rows 4000 t … 4000 t + 3999 of
  the aggregated messages and of the node features (and the whole weight and bias arrays), and writes the same rows
  of the result.  Entry (i, q) of a written block depends only on row 4000 t + i of the two inputs, so the blocks are
  the restrictions of one function of the arrays as the region finds them, and they cover the result array.
-/
import proofs.«170768_j69415261438105_1_alg».proof.Proof.Gen.KernelIdeal.Frame
import proofs.«170768_j69415261438105_1_alg».proof.Proof.MlpSpec
import proofs.«170768_j69415261438105_1_alg».proof.Proof.KPay
import Idealize.ShloMosaic.Lib.Pipeline.Value
import Idealize.ShloMosaic.Lib.ValueIdx
import Idealize.ShloMosaic.Lib.Tactic

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The node network at every row of the arrays the region finds: aggregated messages x0, node features x1, the
    two halves of the first weight matrix x2 x3, and the remaining weights and biases (biases as 1 x 128 rows). -/
def nodeArr (x0 x1 : S100000x128.Idx → EReal) (x2 x3 : S128x128.Idx → EReal) (x4 : S1x128.Idx → EReal)
    (x5 : S128x128.Idx → EReal) (x6 : S1x128.Idx → EReal) (x7 : S128x128.Idx → EReal) (x8 : S1x128.Idx → EReal) :
    S100000x128.Idx → EReal :=
  fun i => Cert.MlpSpec.tail
    (Cert.MlpSpec.nodePre (fun k => x0 (ix2 (i 0) k)) (fun k => x1 (ix2 (i 0) k))
      (fun k j => x2 (ix2 k j)) (fun k j => x3 (ix2 k j)) (fun j => x4 (ix2 0 j)))
    (fun k j => x5 (ix2 k j)) (fun j => x6 (ix2 0 j)) (fun k j => x7 (ix2 k j)) (fun j => x8 (ix2 0 j)) (i 1)

/-- The printed index maps over the grid: the two row-blocked inputs and the output sit at block (t, 0), every
    weight and bias at block (0, 0). -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

theorem lt_N1 (t : Fin cfg1.N) : t.val < 25 := by
  have h : cfg1.N = 25 := N_1
  have := t.isLt
  omega

/-- Row-blocked input window 0 at point t: entry (p, k) of the block is entry (4000 t + p, k) of the array. -/
theorem iblk1_0_apply (c : Dev nD) (t : Fin cfg1.N) (p : Fin 4000) (k : Fin 128) (r : Fin 100000)
    (hr : r.val = 4000 * t.val + p.val) :
    (iblk1 V c 0 t : Vec Ideal S4000x128 .f32) (ix2 p k) = (V c main_v35 : S100000x128.Idx → EReal) (ix2 r k) := by
  obtain ⟨⟨e0, e1⟩, -⟩ := idx_facts1 t
  unfold iblk1
  rw [View.read_apply]
  show V c main_v35 _ = V c main_v35 _
  congr 1
  funext a
  apply Fin.ext
  match a with
  | ⟨0, _⟩ => show win1_0.index t (0 : Fin 2) * 4000 + 1 * p.val = r.val; omega
  | ⟨1, _⟩ => show win1_0.index t (1 : Fin 2) * 128 + 1 * k.val = k.val; omega

/-- Row-blocked input window 1 (the node features) at point t. -/
theorem iblk1_1_apply (c : Dev nD) (t : Fin cfg1.N) (p : Fin 4000) (k : Fin 128) (r : Fin 100000)
    (hr : r.val = 4000 * t.val + p.val) :
    (iblk1 V c 1 t : Vec Ideal S4000x128 .f32) (ix2 p k) = (V c main_arg1 : S100000x128.Idx → EReal) (ix2 r k) := by
  obtain ⟨-, ⟨e0, e1⟩, -⟩ := idx_facts1 t
  unfold iblk1
  rw [View.read_apply]
  show V c main_arg1 _ = V c main_arg1 _
  congr 1
  funext a
  apply Fin.ext
  match a with
  | ⟨0, _⟩ => show win1_1.index t (0 : Fin 2) * 4000 + 1 * p.val = r.val; omega
  | ⟨1, _⟩ => show win1_1.index t (1 : Fin 2) * 128 + 1 * k.val = k.val; omega

/-- Window 2 holds its whole array at every point. -/
theorem iblk1_2_apply (c : Dev nD) (t : Fin cfg1.N) (k : Fin 128) (j : Fin 128) :
    (iblk1 V c 2 t : Vec Ideal S128x128 .f32) (ix2 k j) = (V c main_v36 : S128x128.Idx → EReal) (ix2 k j) := by
  obtain ⟨-, -, ⟨e0, e1⟩, -⟩ := idx_facts1 t
  unfold iblk1
  rw [View.read_apply]
  show V c main_v36 _ = V c main_v36 _
  congr 1
  funext a
  apply Fin.ext
  match a with
  | ⟨0, _⟩ => show win1_2.index t (0 : Fin 2) * 128 + 1 * k.val = k.val; omega
  | ⟨1, _⟩ => show win1_2.index t (1 : Fin 2) * 128 + 1 * j.val = j.val; omega

/-- Window 3 holds its whole array at every point. -/
theorem iblk1_3_apply (c : Dev nD) (t : Fin cfg1.N) (k : Fin 128) (j : Fin 128) :
    (iblk1 V c 3 t : Vec Ideal S128x128 .f32) (ix2 k j) = (V c main_v37 : S128x128.Idx → EReal) (ix2 k j) := by
  obtain ⟨-, -, -, ⟨e0, e1⟩, -⟩ := idx_facts1 t
  unfold iblk1
  rw [View.read_apply]
  show V c main_v37 _ = V c main_v37 _
  congr 1
  funext a
  apply Fin.ext
  match a with
  | ⟨0, _⟩ => show win1_3.index t (0 : Fin 2) * 128 + 1 * k.val = k.val; omega
  | ⟨1, _⟩ => show win1_3.index t (1 : Fin 2) * 128 + 1 * j.val = j.val; omega

/-- Window 4 holds its whole array at every point. -/
theorem iblk1_4_apply (c : Dev nD) (t : Fin cfg1.N) (k : Fin 1) (j : Fin 128) :
    (iblk1 V c 4 t : Vec Ideal S1x128 .f32) (ix2 k j) = (V c main_v38 : S1x128.Idx → EReal) (ix2 k j) := by
  obtain ⟨-, -, -, -, ⟨e0, e1⟩, -⟩ := idx_facts1 t
  unfold iblk1
  rw [View.read_apply]
  show V c main_v38 _ = V c main_v38 _
  congr 1
  funext a
  apply Fin.ext
  match a with
  | ⟨0, _⟩ => show win1_4.index t (0 : Fin 2) * 1 + 1 * k.val = k.val; omega
  | ⟨1, _⟩ => show win1_4.index t (1 : Fin 2) * 128 + 1 * j.val = j.val; omega

/-- Window 5 holds its whole array at every point. -/
theorem iblk1_5_apply (c : Dev nD) (t : Fin cfg1.N) (k : Fin 128) (j : Fin 128) :
    (iblk1 V c 5 t : Vec Ideal S128x128 .f32) (ix2 k j) = (V c main_arg12 : S128x128.Idx → EReal) (ix2 k j) := by
  obtain ⟨-, -, -, -, -, ⟨e0, e1⟩, -⟩ := idx_facts1 t
  unfold iblk1
  rw [View.read_apply]
  show V c main_arg12 _ = V c main_arg12 _
  congr 1
  funext a
  apply Fin.ext
  match a with
  | ⟨0, _⟩ => show win1_5.index t (0 : Fin 2) * 128 + 1 * k.val = k.val; omega
  | ⟨1, _⟩ => show win1_5.index t (1 : Fin 2) * 128 + 1 * j.val = j.val; omega

/-- Window 6 holds its whole array at every point. -/
theorem iblk1_6_apply (c : Dev nD) (t : Fin cfg1.N) (k : Fin 1) (j : Fin 128) :
    (iblk1 V c 6 t : Vec Ideal S1x128 .f32) (ix2 k j) = (V c main_v39 : S1x128.Idx → EReal) (ix2 k j) := by
  obtain ⟨-, -, -, -, -, -, ⟨e0, e1⟩, -⟩ := idx_facts1 t
  unfold iblk1
  rw [View.read_apply]
  show V c main_v39 _ = V c main_v39 _
  congr 1
  funext a
  apply Fin.ext
  match a with
  | ⟨0, _⟩ => show win1_6.index t (0 : Fin 2) * 1 + 1 * k.val = k.val; omega
  | ⟨1, _⟩ => show win1_6.index t (1 : Fin 2) * 128 + 1 * j.val = j.val; omega

/-- Window 7 holds its whole array at every point. -/
theorem iblk1_7_apply (c : Dev nD) (t : Fin cfg1.N) (k : Fin 128) (j : Fin 128) :
    (iblk1 V c 7 t : Vec Ideal S128x128 .f32) (ix2 k j) = (V c main_arg14 : S128x128.Idx → EReal) (ix2 k j) := by
  obtain ⟨-, -, -, -, -, -, -, ⟨e0, e1⟩, -⟩ := idx_facts1 t
  unfold iblk1
  rw [View.read_apply]
  show V c main_arg14 _ = V c main_arg14 _
  congr 1
  funext a
  apply Fin.ext
  match a with
  | ⟨0, _⟩ => show win1_7.index t (0 : Fin 2) * 128 + 1 * k.val = k.val; omega
  | ⟨1, _⟩ => show win1_7.index t (1 : Fin 2) * 128 + 1 * j.val = j.val; omega

/-- Window 8 holds its whole array at every point. -/
theorem iblk1_8_apply (c : Dev nD) (t : Fin cfg1.N) (k : Fin 1) (j : Fin 128) :
    (iblk1 V c 8 t : Vec Ideal S1x128 .f32) (ix2 k j) = (V c main_v40 : S1x128.Idx → EReal) (ix2 k j) := by
  obtain ⟨-, -, -, -, -, -, -, -, ⟨e0, e1⟩, -⟩ := idx_facts1 t
  unfold iblk1
  rw [View.read_apply]
  show V c main_v40 _ = V c main_v40 _
  congr 1
  funext a
  apply Fin.ext
  match a with
  | ⟨0, _⟩ => show win1_8.index t (0 : Fin 2) * 1 + 1 * k.val = k.val; omega
  | ⟨1, _⟩ => show win1_8.index t (1 : Fin 2) * 128 + 1 * j.val = j.val; omega

/-- An entry of the output block at point t sits in the result array at row 4000 t + p. -/
theorem emb1_9 (t : Fin cfg1.N) (j : ((cfg1.win 9).xblock (cfg1.grid.coords t)).Idx) (r : Fin 100000) (q : Fin 128)
    (hr : r.val = 4000 * t.val + (j 0).val) (hq : q.val = (j 1).val) :
    ((cfg1.win 9).blk t).view.emb j = (ix2 r q : S100000x128.Idx) := by
  obtain ⟨-, -, -, -, -, -, -, -, -, e0, e1⟩ := idx_facts1 t
  funext a
  apply Fin.ext
  match a with
  | ⟨0, _⟩ => show win1_9.index t (0 : Fin 2) * 4000 + 1 * (j 0).val = r.val; omega
  | ⟨1, _⟩ => show win1_9.index t (1 : Fin 2) * 128 + 1 * (j 1).val = q.val; omega

/-- What point t writes back is block t of the node network of the arrays the region finds. -/
theorem flushed1_eq (hpay : ∀ (x0 x1 : Vec Ideal S4000x128 .f32) (x2 x3 : Vec Ideal S128x128 .f32) (x4 : Vec Ideal S1x128 .f32)
      (x5 : Vec Ideal S128x128 .f32) (x6 : Vec Ideal S1x128 .f32) (x7 : Vec Ideal S128x128 .f32) (x8 : Vec Ideal S1x128 .f32)
      (p : Fin 4000) (q : Fin 128),
      k1_pay1 (F := Ideal) (k1_pay2 (F := Ideal) x0 x1 x2 x3 x4 x5 x6) (k1_pay3 (F := Ideal)) x7 x8 (ix2 p q)
        = Cert.MlpSpec.tail
            (Cert.MlpSpec.nodePre (fun k => x0 (ix2 p k)) (fun k => x1 (ix2 p k))
              (fun k j => x2 (ix2 k j)) (fun k j => x3 (ix2 k j)) (fun j => x4 (ix2 0 j)))
            (fun k j => x5 (ix2 k j)) (fun j => x6 (ix2 0 j)) (fun k j => x7 (ix2 k j)) (fun j => x8 (ix2 0 j)) q)
    (c : Dev nD) (t : Fin cfg1.N) :
    (dat1 V c).flushed 9 t = ((cfg1.win 9).blk t).view.read (Elt Ideal)
      (nodeArr (V c main_v35) (V c main_arg1) (V c main_v36) (V c main_v37) (V c main_v38) (V c main_arg12) (V c main_v39) (V c main_arg14) (V c main_v40)) := by
  show (cfg1.win 9).cut (grid1.coords t) ((dat1 V c).after 9 t) = _
  rw [after1_9]
  unfold out1_9
  rw [View.canon_unit_zero hz2]
  simp only [View.ld_unit_zero (S := S4000x128) hz2, View.ld_unit_zero (S := S128x128) hz2, View.ld_unit_zero (S := S1x128) hz2]
  funext j
  have h0 : (j 0).val < 4000 := (j 0).isLt
  have h1 : (j 1).val < 128 := (j 1).isLt
  have ht := lt_N1 t
  rw [View.read_apply, emb1_9 t j ⟨4000 * t.val + (j 0).val, by omega⟩ ⟨(j 1).val, h1⟩ rfl rfl]
  have hj : (cfg1.win 9).xinj (grid1.coords t) j = (ix2 (⟨(j 0).val, h0⟩ : Fin 4000) (⟨(j 1).val, h1⟩ : Fin 128) : S4000x128.Idx) :=
    funext fun a => Fin.ext (by match a with | ⟨0, _⟩ => rfl | ⟨1, _⟩ => rfl)
  show k1_pay1 (F := Ideal) _ _ _ _ ((cfg1.win 9).xinj (grid1.coords t) j) = _
  rw [hj]
  refine (hpay _ _ _ _ _ _ _ _ _ _ _).trans ?_
  show _ = nodeArr (V c main_v35) (V c main_arg1) (V c main_v36) (V c main_v37) (V c main_v38) (V c main_arg12) (V c main_v39) (V c main_arg14) (V c main_v40)
      (ix2 (⟨4000 * t.val + (j 0).val, by omega⟩ : Fin 100000) (⟨(j 1).val, h1⟩ : Fin 128))
  unfold nodeArr
  have e0 : (fun k : Fin 128 => (iblk1 V c 0 t : Vec Ideal S4000x128 .f32) (ix2 (⟨(j 0).val, h0⟩ : Fin 4000) k))
      = fun k => (V c main_v35 : S100000x128.Idx → EReal) (ix2 (⟨4000 * t.val + (j 0).val, by omega⟩ : Fin 100000) k) :=
    funext fun k => iblk1_0_apply V c t _ k _ rfl
  have e1 : (fun k : Fin 128 => (iblk1 V c 1 t : Vec Ideal S4000x128 .f32) (ix2 (⟨(j 0).val, h0⟩ : Fin 4000) k))
      = fun k => (V c main_arg1 : S100000x128.Idx → EReal) (ix2 (⟨4000 * t.val + (j 0).val, by omega⟩ : Fin 100000) k) :=
    funext fun k => iblk1_1_apply V c t _ k _ rfl
  have e2 : (fun (k j : Fin 128) => (iblk1 V c 2 t : Vec Ideal S128x128 .f32) (ix2 k j))
      = fun k j => (V c main_v36 : S128x128.Idx → EReal) (ix2 k j) := funext fun k => funext fun j => iblk1_2_apply V c t k j
  have e3 : (fun (k j : Fin 128) => (iblk1 V c 3 t : Vec Ideal S128x128 .f32) (ix2 k j))
      = fun k j => (V c main_v37 : S128x128.Idx → EReal) (ix2 k j) := funext fun k => funext fun j => iblk1_3_apply V c t k j
  have e4 : (fun (j : Fin 128) => (iblk1 V c 4 t : Vec Ideal S1x128 .f32) (ix2 0 j))
      = fun j => (V c main_v38 : S1x128.Idx → EReal) (ix2 0 j) := funext fun j => iblk1_4_apply V c t 0 j
  have e5 : (fun (k j : Fin 128) => (iblk1 V c 5 t : Vec Ideal S128x128 .f32) (ix2 k j))
      = fun k j => (V c main_arg12 : S128x128.Idx → EReal) (ix2 k j) := funext fun k => funext fun j => iblk1_5_apply V c t k j
  have e6 : (fun (j : Fin 128) => (iblk1 V c 6 t : Vec Ideal S1x128 .f32) (ix2 0 j))
      = fun j => (V c main_v39 : S1x128.Idx → EReal) (ix2 0 j) := funext fun j => iblk1_6_apply V c t 0 j
  have e7 : (fun (k j : Fin 128) => (iblk1 V c 7 t : Vec Ideal S128x128 .f32) (ix2 k j))
      = fun k j => (V c main_arg14 : S128x128.Idx → EReal) (ix2 k j) := funext fun k => funext fun j => iblk1_7_apply V c t k j
  have e8 : (fun (j : Fin 128) => (iblk1 V c 8 t : Vec Ideal S1x128 .f32) (ix2 0 j))
      = fun j => (V c main_v40 : S1x128.Idx → EReal) (ix2 0 j) := funext fun j => iblk1_8_apply V c t 0 j
  rw [e0, e1, e2, e3, e4, e5, e6, e7, e8]

/-- An index of the result array is in point t's block iff each coordinate is in the block's range on its axis. -/
theorem mem_blk1_9 (t : Fin cfg1.N) (i : S100000x128.Idx) :
    i ∈ ((cfg1.win 9).blk t).view.set ↔ ∀ a : Fin 2, win1_9.index t a * S4000x128.size a ≤ (i a).val
      ∧ (i a).val < win1_9.index t a * S4000x128.size a + S4000x128.size a := by
  show i ∈ ((View.whole main_v41).slice (win1_9.rect t)).set ↔ _
  rw [View.set_slice_whole, Rect.mem_set_unit]
  exact Iff.rfl

/-- Every row r of the result array lies in the block of point r / 4000. -/
theorem cover1 (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 25 := N_1
  obtain ⟨-, -, -, -, -, -, -, -, -, e0, e1⟩ := idx_facts1 ⟨(i 0).val / 4000, by rw [hN]; omega⟩
  refine ⟨⟨(i 0).val / 4000, by rw [hN]; omega⟩, flush1_9 _, ?_⟩
  rw [mem_blk1_9]
  intro a
  match a with
  | ⟨0, _⟩ =>
    show win1_9.index ⟨(i 0).val / 4000, _⟩ (0 : Fin 2) * 4000 ≤ (i 0).val
      ∧ (i 0).val < win1_9.index ⟨(i 0).val / 4000, _⟩ (0 : Fin 2) * 4000 + 4000
    rw [e0]
    show (i 0).val / 4000 * 4000 ≤ (i 0).val ∧ (i 0).val < (i 0).val / 4000 * 4000 + 4000
    omega
  | ⟨1, _⟩ =>
    show win1_9.index ⟨(i 0).val / 4000, _⟩ (1 : Fin 2) * 128 ≤ (i 1).val
      ∧ (i 1).val < win1_9.index ⟨(i 0).val / 4000, _⟩ (1 : Fin 2) * 128 + 128
    rw [e1]
    omega

/-- The result array after the region: the node network of the arrays the region finds, at every row. -/
theorem final1 (c : Dev nD) :
    (dat1 V c).arrAt 9 cfg1.N = nodeArr (V c main_v35) (V c main_arg1) (V c main_v36) (V c main_v37) (V c main_v38) (V c main_arg12) (V c main_v39) (V c main_arg14) (V c main_v40) :=
  (dat1 V c).arrAt_eq_of_cover 9 (nodeArr (V c main_v35) (V c main_arg1) (V c main_v36) (V c main_v37) (V c main_v38) (V c main_arg12) (V c main_v39) (V c main_arg14) (V c main_v40))
    (fun t _ => flushed1_eq V node_pay c t) cover1

end Cert.KernelIdeal.KValue

end
-- ==== Proof.KEdge.lean ====
/-
  The edge network's pipeline region, read as one whole-array function.

  The region walks the 400000 rows in 100 blocks of 4000; at a point t the body reads rows 4000 t … 4000 t + 3999 of
  the angle features and of the two gathered arrays (and the whole weight and bias arrays), and writes the same rows
  of the result.  Entry (i, q) of a written block depends only on row 4000 t + i of the three inputs, so the blocks are
  the restrictions of one function of the arrays as the region finds them, and they cover the result array.
-/
import proofs.«170768_j69415261438105_1_alg».proof.Proof.Gen.KernelIdeal.Frame
import proofs.«170768_j69415261438105_1_alg».proof.Proof.MlpSpec
import proofs.«170768_j69415261438105_1_alg».proof.Proof.KPay
import Idealize.ShloMosaic.Lib.Pipeline.Value
import Idealize.ShloMosaic.Lib.ValueIdx
import Idealize.ShloMosaic.Lib.Tactic

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The edge network at every row of the arrays the region finds: angle features x0, the two gathered arrays x1 x2,
    the three row blocks of the first weight matrix x3 x4 x5, and the remaining weights and biases (biases as
    1 x 128 rows). -/
def edgeArr (x0 : S400000x8.Idx → EReal) (x1 x2 : S400000x128.Idx → EReal) (x3 : S8x128.Idx → EReal)
    (x4 x5 : S128x128.Idx → EReal) (x6 : S1x128.Idx → EReal) (x7 : S128x128.Idx → EReal) (x8 : S1x128.Idx → EReal)
    (x9 : S128x128.Idx → EReal) (x10 : S1x128.Idx → EReal) : S400000x128.Idx → EReal :=
  fun i => Cert.MlpSpec.tail
    (Cert.MlpSpec.edgePre (fun k => x0 (ix2 (i 0) k)) (fun k => x1 (ix2 (i 0) k)) (fun k => x2 (ix2 (i 0) k))
      (fun k j => x3 (ix2 k j)) (fun k j => x4 (ix2 k j)) (fun k j => x5 (ix2 k j)) (fun j => x6 (ix2 0 j)))
    (fun k j => x7 (ix2 k j)) (fun j => x8 (ix2 0 j)) (fun k j => x9 (ix2 k j)) (fun j => x10 (ix2 0 j)) (i 1)

/-- The printed index maps over the grid: the three row-blocked inputs and the output sit at block (t, 0), every
    weight and bias at block (0, 0). -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

theorem lt_N0 (t : Fin cfg0.N) : t.val < 100 := by
  have h : cfg0.N = 100 := N_0
  have := t.isLt
  omega

/-- Row-blocked input window 0 (the angle features) at point t: entry (p, k) of the block is entry (4000 t + p, k)
    of the array. -/
theorem iblk0_0_apply (c : Dev nD) (t : Fin cfg0.N) (p : Fin 4000) (k : Fin 8) (r : Fin 400000)
    (hr : r.val = 4000 * t.val + p.val) :
    (iblk0 V c 0 t : Vec Ideal S4000x8 .f32) (ix2 p k) = (V c main_arg2 : S400000x8.Idx → EReal) (ix2 r k) := by
  obtain ⟨⟨e0, e1⟩, -⟩ := idx_facts0 t
  unfold iblk0
  rw [View.read_apply]
  show V c main_arg2 _ = V c main_arg2 _
  congr 1
  funext a
  apply Fin.ext
  match a with
  | ⟨0, _⟩ => show win0_0.index t (0 : Fin 2) * 4000 + 1 * p.val = r.val; omega
  | ⟨1, _⟩ => show win0_0.index t (1 : Fin 2) * 8 + 1 * k.val = k.val; omega

/-- Row-blocked input window 1 (the first gathered array) at point t. -/
theorem iblk0_1_apply (c : Dev nD) (t : Fin cfg0.N) (p : Fin 4000) (k : Fin 128) (r : Fin 400000)
    (hr : r.val = 4000 * t.val + p.val) :
    (iblk0 V c 1 t : Vec Ideal S4000x128 .f32) (ix2 p k) = (V c main_v10 : S400000x128.Idx → EReal) (ix2 r k) := by
  obtain ⟨-, ⟨e0, e1⟩, -⟩ := idx_facts0 t
  unfold iblk0
  rw [View.read_apply]
  show V c main_v10 _ = V c main_v10 _
  congr 1
  funext a
  apply Fin.ext
  match a with
  | ⟨0, _⟩ => show win0_1.index t (0 : Fin 2) * 4000 + 1 * p.val = r.val; omega
  | ⟨1, _⟩ => show win0_1.index t (1 : Fin 2) * 128 + 1 * k.val = k.val; omega

/-- Row-blocked input window 2 (the second gathered array) at point t. -/
theorem iblk0_2_apply (c : Dev nD) (t : Fin cfg0.N) (p : Fin 4000) (k : Fin 128) (r : Fin 400000)
    (hr : r.val = 4000 * t.val + p.val) :
    (iblk0 V c 2 t : Vec Ideal S4000x128 .f32) (ix2 p k) = (V c main_v17 : S400000x128.Idx → EReal) (ix2 r k) := by
  obtain ⟨-, -, ⟨e0, e1⟩, -⟩ := idx_facts0 t
  unfold iblk0
  rw [View.read_apply]
  show V c main_v17 _ = V c main_v17 _
  congr 1
  funext a
  apply Fin.ext
  match a with
  | ⟨0, _⟩ => show win0_2.index t (0 : Fin 2) * 4000 + 1 * p.val = r.val; omega
  | ⟨1, _⟩ => show win0_2.index t (1 : Fin 2) * 128 + 1 * k.val = k.val; omega

/-- Window 3 holds its whole array at every point. -/
theorem iblk0_3_apply (c : Dev nD) (t : Fin cfg0.N) (k : Fin 8) (j : Fin 128) :
    (iblk0 V c 3 t : Vec Ideal S8x128 .f32) (ix2 k j) = (V c main_v18 : S8x128.Idx → EReal) (ix2 k j) := by
  obtain ⟨-, -, -, ⟨e0, e1⟩, -⟩ := idx_facts0 t
  unfold iblk0
  rw [View.read_apply]
  show V c main_v18 _ = V c main_v18 _
  congr 1
  funext a
  apply Fin.ext
  match a with
  | ⟨0, _⟩ => show win0_3.index t (0 : Fin 2) * 8 + 1 * k.val = k.val; omega
  | ⟨1, _⟩ => show win0_3.index t (1 : Fin 2) * 128 + 1 * j.val = j.val; omega

/-- Window 4 holds its whole array at every point. -/
theorem iblk0_4_apply (c : Dev nD) (t : Fin cfg0.N) (k : Fin 128) (j : Fin 128) :
    (iblk0 V c 4 t : Vec Ideal S128x128 .f32) (ix2 k j) = (V c main_v19 : S128x128.Idx → EReal) (ix2 k j) := by
  obtain ⟨-, -, -, -, ⟨e0, e1⟩, -⟩ := idx_facts0 t
  unfold iblk0
  rw [View.read_apply]
  show V c main_v19 _ = V c main_v19 _
  congr 1
  funext a
  apply Fin.ext
  match a with
  | ⟨0, _⟩ => show win0_4.index t (0 : Fin 2) * 128 + 1 * k.val = k.val; omega
  | ⟨1, _⟩ => show win0_4.index t (1 : Fin 2) * 128 + 1 * j.val = j.val; omega

/-- Window 5 holds its whole array at every point. -/
theorem iblk0_5_apply (c : Dev nD) (t : Fin cfg0.N) (k : Fin 128) (j : Fin 128) :
    (iblk0 V c 5 t : Vec Ideal S128x128 .f32) (ix2 k j) = (V c main_v20 : S128x128.Idx → EReal) (ix2 k j) := by
  obtain ⟨-, -, -, -, -, ⟨e0, e1⟩, -⟩ := idx_facts0 t
  unfold iblk0
  rw [View.read_apply]
  show V c main_v20 _ = V c main_v20 _
  congr 1
  funext a
  apply Fin.ext
  match a with
  | ⟨0, _⟩ => show win0_5.index t (0 : Fin 2) * 128 + 1 * k.val = k.val; omega
  | ⟨1, _⟩ => show win0_5.index t (1 : Fin 2) * 128 + 1 * j.val = j.val; omega

/-- Window 6 holds its whole array at every point. -/
theorem iblk0_6_apply (c : Dev nD) (t : Fin cfg0.N) (k : Fin 1) (j : Fin 128) :
    (iblk0 V c 6 t : Vec Ideal S1x128 .f32) (ix2 k j) = (V c main_v21 : S1x128.Idx → EReal) (ix2 k j) := by
  obtain ⟨-, -, -, -, -, -, ⟨e0, e1⟩, -⟩ := idx_facts0 t
  unfold iblk0
  rw [View.read_apply]
  show V c main_v21 _ = V c main_v21 _
  congr 1
  funext a
  apply Fin.ext
  match a with
  | ⟨0, _⟩ => show win0_6.index t (0 : Fin 2) * 1 + 1 * k.val = k.val; omega
  | ⟨1, _⟩ => show win0_6.index t (1 : Fin 2) * 128 + 1 * j.val = j.val; omega

/-- Window 7 holds its whole array at every point. -/
theorem iblk0_7_apply (c : Dev nD) (t : Fin cfg0.N) (k : Fin 128) (j : Fin 128) :
    (iblk0 V c 7 t : Vec Ideal S128x128 .f32) (ix2 k j) = (V c main_arg6 : S128x128.Idx → EReal) (ix2 k j) := by
  obtain ⟨-, -, -, -, -, -, -, ⟨e0, e1⟩, -⟩ := idx_facts0 t
  unfold iblk0
  rw [View.read_apply]
  show V c main_arg6 _ = V c main_arg6 _
  congr 1
  funext a
  apply Fin.ext
  match a with
  | ⟨0, _⟩ => show win0_7.index t (0 : Fin 2) * 128 + 1 * k.val = k.val; omega
  | ⟨1, _⟩ => show win0_7.index t (1 : Fin 2) * 128 + 1 * j.val = j.val; omega

/-- Window 8 holds its whole array at every point. -/
theorem iblk0_8_apply (c : Dev nD) (t : Fin cfg0.N) (k : Fin 1) (j : Fin 128) :
    (iblk0 V c 8 t : Vec Ideal S1x128 .f32) (ix2 k j) = (V c main_v22 : S1x128.Idx → EReal) (ix2 k j) := by
  obtain ⟨-, -, -, -, -, -, -, -, ⟨e0, e1⟩, -⟩ := idx_facts0 t
  unfold iblk0
  rw [View.read_apply]
  show V c main_v22 _ = V c main_v22 _
  congr 1
  funext a
  apply Fin.ext
  match a with
  | ⟨0, _⟩ => show win0_8.index t (0 : Fin 2) * 1 + 1 * k.val = k.val; omega
  | ⟨1, _⟩ => show win0_8.index t (1 : Fin 2) * 128 + 1 * j.val = j.val; omega

/-- Window 9 holds its whole array at every point. -/
theorem iblk0_9_apply (c : Dev nD) (t : Fin cfg0.N) (k : Fin 128) (j : Fin 128) :
    (iblk0 V c 9 t : Vec Ideal S128x128 .f32) (ix2 k j) = (V c main_arg8 : S128x128.Idx → EReal) (ix2 k j) := by
  obtain ⟨-, -, -, -, -, -, -, -, -, ⟨e0, e1⟩, -⟩ := idx_facts0 t
  unfold iblk0
  rw [View.read_apply]
  show V c main_arg8 _ = V c main_arg8 _
  congr 1
  funext a
  apply Fin.ext
  match a with
  | ⟨0, _⟩ => show win0_9.index t (0 : Fin 2) * 128 + 1 * k.val = k.val; omega
  | ⟨1, _⟩ => show win0_9.index t (1 : Fin 2) * 128 + 1 * j.val = j.val; omega

/-- Window 10 holds its whole array at every point. -/
theorem iblk0_10_apply (c : Dev nD) (t : Fin cfg0.N) (k : Fin 1) (j : Fin 128) :
    (iblk0 V c 10 t : Vec Ideal S1x128 .f32) (ix2 k j) = (V c main_v23 : S1x128.Idx → EReal) (ix2 k j) := by
  obtain ⟨-, -, -, -, -, -, -, -, -, -, ⟨e0, e1⟩, -⟩ := idx_facts0 t
  unfold iblk0
  rw [View.read_apply]
  show V c main_v23 _ = V c main_v23 _
  congr 1
  funext a
  apply Fin.ext
  match a with
  | ⟨0, _⟩ => show win0_10.index t (0 : Fin 2) * 1 + 1 * k.val = k.val; omega
  | ⟨1, _⟩ => show win0_10.index t (1 : Fin 2) * 128 + 1 * j.val = j.val; omega

/-- An entry of the output block at point t sits in the result array at row 4000 t + p. -/
theorem emb0_11 (t : Fin cfg0.N) (j : ((cfg0.win 11).xblock (cfg0.grid.coords t)).Idx) (r : Fin 400000) (q : Fin 128)
    (hr : r.val = 4000 * t.val + (j 0).val) (hq : q.val = (j 1).val) :
    ((cfg0.win 11).blk t).view.emb j = (ix2 r q : S400000x128.Idx) := by
  obtain ⟨-, -, -, -, -, -, -, -, -, -, -, e0, e1⟩ := idx_facts0 t
  funext a
  apply Fin.ext
  match a with
  | ⟨0, _⟩ => show win0_11.index t (0 : Fin 2) * 4000 + 1 * (j 0).val = r.val; omega
  | ⟨1, _⟩ => show win0_11.index t (1 : Fin 2) * 128 + 1 * (j 1).val = q.val; omega

/-- What point t writes back is block t of the edge network of the arrays the region finds. -/
theorem flushed0_eq (hpay : ∀ (x0 : Vec Ideal S4000x8 .f32) (x1 x2 : Vec Ideal S4000x128 .f32) (x3 : Vec Ideal S8x128 .f32)
      (x4 x5 : Vec Ideal S128x128 .f32) (x6 : Vec Ideal S1x128 .f32) (x7 : Vec Ideal S128x128 .f32) (x8 : Vec Ideal S1x128 .f32)
      (x9 : Vec Ideal S128x128 .f32) (x10 : Vec Ideal S1x128 .f32) (p : Fin 4000) (q : Fin 128),
      k0_pay1 (F := Ideal) (k0_pay2 (F := Ideal) x0 x1 x2 x3 x4 x5 x6) x7 x8 x9 x10 (ix2 p q)
        = Cert.MlpSpec.tail
            (Cert.MlpSpec.edgePre (fun k => x0 (ix2 p k)) (fun k => x1 (ix2 p k)) (fun k => x2 (ix2 p k))
              (fun k j => x3 (ix2 k j)) (fun k j => x4 (ix2 k j)) (fun k j => x5 (ix2 k j)) (fun j => x6 (ix2 0 j)))
            (fun k j => x7 (ix2 k j)) (fun j => x8 (ix2 0 j)) (fun k j => x9 (ix2 k j)) (fun j => x10 (ix2 0 j)) q)
    (c : Dev nD) (t : Fin cfg0.N) :
    (dat0 V c).flushed 11 t = ((cfg0.win 11).blk t).view.read (Elt Ideal)
      (edgeArr (V c main_arg2) (V c main_v10) (V c main_v17) (V c main_v18) (V c main_v19) (V c main_v20) (V c main_v21) (V c main_arg6) (V c main_v22) (V c main_arg8) (V c main_v23)) := by
  show (cfg0.win 11).cut (grid0.coords t) ((dat0 V c).after 11 t) = _
  rw [after0_11]
  unfold out0_11
  rw [View.canon_unit_zero hz0]
  simp only [View.ld_unit_zero (S := S4000x8) hz0, View.ld_unit_zero (S := S4000x128) hz0, View.ld_unit_zero (S := S8x128) hz0,
    View.ld_unit_zero (S := S128x128) hz0, View.ld_unit_zero (S := S1x128) hz0]
  funext j
  have h0 : (j 0).val < 4000 := (j 0).isLt
  have h1 : (j 1).val < 128 := (j 1).isLt
  have ht := lt_N0 t
  rw [View.read_apply, emb0_11 t j ⟨4000 * t.val + (j 0).val, by omega⟩ ⟨(j 1).val, h1⟩ rfl rfl]
  have hj : (cfg0.win 11).xinj (grid0.coords t) j = (ix2 (⟨(j 0).val, h0⟩ : Fin 4000) (⟨(j 1).val, h1⟩ : Fin 128) : S4000x128.Idx) :=
    funext fun a => Fin.ext (by match a with | ⟨0, _⟩ => rfl | ⟨1, _⟩ => rfl)
  show k0_pay1 (F := Ideal) _ _ _ _ _ ((cfg0.win 11).xinj (grid0.coords t) j) = _
  rw [hj]
  refine (hpay _ _ _ _ _ _ _ _ _ _ _ _ _).trans ?_
  show _ = edgeArr (V c main_arg2) (V c main_v10) (V c main_v17) (V c main_v18) (V c main_v19) (V c main_v20) (V c main_v21) (V c main_arg6) (V c main_v22) (V c main_arg8) (V c main_v23)
      (ix2 (⟨4000 * t.val + (j 0).val, by omega⟩ : Fin 400000) (⟨(j 1).val, h1⟩ : Fin 128))
  unfold edgeArr
  have e0 : (fun k : Fin 8 => (iblk0 V c 0 t : Vec Ideal S4000x8 .f32) (ix2 (⟨(j 0).val, h0⟩ : Fin 4000) k))
      = fun k => (V c main_arg2 : S400000x8.Idx → EReal) (ix2 (⟨4000 * t.val + (j 0).val, by omega⟩ : Fin 400000) k) :=
    funext fun k => iblk0_0_apply V c t _ k _ rfl
  have e1 : (fun k : Fin 128 => (iblk0 V c 1 t : Vec Ideal S4000x128 .f32) (ix2 (⟨(j 0).val, h0⟩ : Fin 4000) k))
      = fun k => (V c main_v10 : S400000x128.Idx → EReal) (ix2 (⟨4000 * t.val + (j 0).val, by omega⟩ : Fin 400000) k) :=
    funext fun k => iblk0_1_apply V c t _ k _ rfl
  have e2 : (fun k : Fin 128 => (iblk0 V c 2 t : Vec Ideal S4000x128 .f32) (ix2 (⟨(j 0).val, h0⟩ : Fin 4000) k))
      = fun k => (V c main_v17 : S400000x128.Idx → EReal) (ix2 (⟨4000 * t.val + (j 0).val, by omega⟩ : Fin 400000) k) :=
    funext fun k => iblk0_2_apply V c t _ k _ rfl
  have e3 : (fun (k : Fin 8) (j : Fin 128) => (iblk0 V c 3 t : Vec Ideal S8x128 .f32) (ix2 k j))
      = fun k j => (V c main_v18 : S8x128.Idx → EReal) (ix2 k j) := funext fun k => funext fun j => iblk0_3_apply V c t k j
  have e4 : (fun (k j : Fin 128) => (iblk0 V c 4 t : Vec Ideal S128x128 .f32) (ix2 k j))
      = fun k j => (V c main_v19 : S128x128.Idx → EReal) (ix2 k j) := funext fun k => funext fun j => iblk0_4_apply V c t k j
  have e5 : (fun (k j : Fin 128) => (iblk0 V c 5 t : Vec Ideal S128x128 .f32) (ix2 k j))
      = fun k j => (V c main_v20 : S128x128.Idx → EReal) (ix2 k j) := funext fun k => funext fun j => iblk0_5_apply V c t k j
  have e6 : (fun (j : Fin 128) => (iblk0 V c 6 t : Vec Ideal S1x128 .f32) (ix2 0 j))
      = fun j => (V c main_v21 : S1x128.Idx → EReal) (ix2 0 j) := funext fun j => iblk0_6_apply V c t 0 j
  have e7 : (fun (k j : Fin 128) => (iblk0 V c 7 t : Vec Ideal S128x128 .f32) (ix2 k j))
      = fun k j => (V c main_arg6 : S128x128.Idx → EReal) (ix2 k j) := funext fun k => funext fun j => iblk0_7_apply V c t k j
  have e8 : (fun (j : Fin 128) => (iblk0 V c 8 t : Vec Ideal S1x128 .f32) (ix2 0 j))
      = fun j => (V c main_v22 : S1x128.Idx → EReal) (ix2 0 j) := funext fun j => iblk0_8_apply V c t 0 j
  have e9 : (fun (k j : Fin 128) => (iblk0 V c 9 t : Vec Ideal S128x128 .f32) (ix2 k j))
      = fun k j => (V c main_arg8 : S128x128.Idx → EReal) (ix2 k j) := funext fun k => funext fun j => iblk0_9_apply V c t k j
  have e10 : (fun (j : Fin 128) => (iblk0 V c 10 t : Vec Ideal S1x128 .f32) (ix2 0 j))
      = fun j => (V c main_v23 : S1x128.Idx → EReal) (ix2 0 j) := funext fun j => iblk0_10_apply V c t 0 j
  rw [e0, e1, e2, e3, e4, e5, e6, e7, e8, e9, e10]

/-- An index of the result array is in point t's block iff each coordinate is in the block's range on its axis. -/
theorem mem_blk0_11 (t : Fin cfg0.N) (i : S400000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v24).slice (win0_11.rect t)).set ↔ _
  rw [View.set_slice_whole, Rect.mem_set_unit]
  exact Iff.rfl

/-- Every row r of the result array lies in the block of point r / 4000. -/
theorem cover0 (i : S400000x128.Idx) :
    ∃ t : Fin cfg0.N, (cfg0.win 11).flush t = true ∧ i ∈ ((cfg0.win 11).blk t).view.set := by
  have hi0 : (i 0).val < 400000 := (i 0).isLt
  have hi1 : (i 1).val < 128 := (i 1).isLt
  have hN : cfg0.N = 100 := N_0
  obtain ⟨-, -, -, -, -, -, -, -, -, -, -, e0, e1⟩ := idx_facts0 ⟨(i 0).val / 4000, by rw [hN]; omega⟩
  refine ⟨⟨(i 0).val / 4000, by rw [hN]; omega⟩, flush0_11 _, ?_⟩
  rw [mem_blk0_11]
  intro a
  match a with
  | ⟨0, _⟩ =>
    show win0_11.index ⟨(i 0).val / 4000, _⟩ (0 : Fin 2) * 4000 ≤ (i 0).val
      ∧ (i 0).val < win0_11.index ⟨(i 0).val / 4000, _⟩ (0 : Fin 2) * 4000 + 4000
    rw [e0]
    show (i 0).val / 4000 * 4000 ≤ (i 0).val ∧ (i 0).val < (i 0).val / 4000 * 4000 + 4000
    omega
  | ⟨1, _⟩ =>
    show win0_11.index ⟨(i 0).val / 4000, _⟩ (1 : Fin 2) * 128 ≤ (i 1).val
      ∧ (i 1).val < win0_11.index ⟨(i 0).val / 4000, _⟩ (1 : Fin 2) * 128 + 128
    rw [e1]
    omega

/-- The result array after the region: the edge network of the arrays the region finds, at every row. -/
theorem final0 (c : Dev nD) :
    (dat0 V c).arrAt 11 cfg0.N = edgeArr (V c main_arg2) (V c main_v10) (V c main_v17) (V c main_v18) (V c main_v19) (V c main_v20) (V c main_v21) (V c main_arg6) (V c main_v22) (V c main_arg8) (V c main_v23) :=
  (dat0 V c).arrAt_eq_of_cover 11 (edgeArr (V c main_arg2) (V c main_v10) (V c main_v17) (V c main_v18) (V c main_v19) (V c main_v20) (V c main_v21) (V c main_arg6) (V c main_v22) (V c main_arg8) (V c main_v23))
    (fun t _ => flushed0_eq V edge_pay c t) cover0

end Cert.KernelIdeal.KValue

end
-- ==== Proof.KStages.lean ====
/-
  The idealized kernel's host operations around its two pipeline regions, read as named stages over the argument
  arrays: the two index vectors (a negative entry wrapped by the axis length), the two gathers, the row blocks
  of the two first-layer weight matrices, the biases as 1 x 128 rows, and the scatter-mean over the column index.
  Each stage is the host operations' own composition; nothing is rearranged here.
-/
import proofs.«170768_j69415261438105_1_alg».proof.KernelIdeal
import proofs.«170768_j69415261438105_1_alg».proof.Proof.Gen.KernelIdeal
import Idealize.ShloMosaic.PureOps.Ideal

noncomputable section

namespace Cert.KernelIdeal.KValue

open Idealize.ShloMosaic Cert.KernelIdeal Cert.KernelIdeal.Gen

/-- Row 0 or 1 of the 2 x 400000 index array as a vector: the slice, then the reshape. -/
def idxRow0 (ai : IVec S2x400000 32) : IVec S400000 32 :=
  shapeCast S400000 (extractStridedSlice S1x400000 ![0, 0] ai slices_S2x400000_S1x400000_0_0) shapeCasts_S1x400000_S400000
def idxRow1 (ai : IVec S2x400000 32) : IVec S400000 32 :=
  shapeCast S400000 (extractStridedSlice S1x400000 ![1, 0] ai slices_S2x400000_S1x400000_1_0) shapeCasts_S1x400000_S400000

/-- An index vector with its negative entries wrapped by the axis length n, as a column of start indices. -/
def wrapIdx (n : BitVec 32) (r : IVec S400000 32) : IVec S400000x1 32 :=
  broadcastInDim S400000x1 ![0] bcast_S400000_S400000x1_0
    (select (cmpi .slt r (broadcastInDim S400000 ![] bcast_S_S400000 (constantI S_ 32 0#32)))
      (addi r (broadcastInDim S400000 ![] bcast_S_S400000 (constantI S_ 32 n))) r)

/-- The index vector as a column of scatter indices (no wrapping). -/
def colIdx (r : IVec S400000 32) : IVec S400000x1 32 :=
  broadcastInDim S400000x1 ![0] bcast_S400000_S400000x1_0 r

/-- The gathered rows of e1 (by index row 0) and of e2 (by index row 1). -/
def e1g (e1 : FVec Ideal S400000x128 .f32) (ai : IVec S2x400000 32) : FVec Ideal S400000x128 .f32 :=
  Host.gather gather_S400000x128_S400000x1_S400000x128_1_0_n_n_0_1_1128 e1 (wrapIdx 400000#32 (idxRow0 ai))
def e2g (e2 : FVec Ideal S100000x128 .f32) (ai : IVec S2x400000 32) : FVec Ideal S400000x128 .f32 :=
  Host.gather gather_S100000x128_S400000x1_S400000x128_1_0_n_n_0_1_1128 e2 (wrapIdx 100000#32 (idxRow1 ai))

/-- Rows 0-7, 8-135, 136-263 of the edge network's first weight matrix. -/
def w0a (aW0 : FVec Ideal S264x128 .f32) : FVec Ideal S8x128 .f32 :=
  extractStridedSlice S8x128 ![0, 0] aW0 slices_S264x128_S8x128_0_0
def w01 (aW0 : FVec Ideal S264x128 .f32) : FVec Ideal S128x128 .f32 :=
  extractStridedSlice S128x128 ![8, 0] aW0 slices_S264x128_S128x128_8_0
def w02 (aW0 : FVec Ideal S264x128 .f32) : FVec Ideal S128x128 .f32 :=
  extractStridedSlice S128x128 ![136, 0] aW0 slices_S264x128_S128x128_136_0

/-- Rows 0-127, 128-255 of the node network's first weight matrix. -/
def v0a (eW0 : FVec Ideal S256x128 .f32) : FVec Ideal S128x128 .f32 :=
  extractStridedSlice S128x128 ![0, 0] eW0 slices_S256x128_S128x128_0_0
def v0b (eW0 : FVec Ideal S256x128 .f32) : FVec Ideal S128x128 .f32 :=
  extractStridedSlice S128x128 ![128, 0] eW0 slices_S256x128_S128x128_128_0

/-- A bias vector as a 1 x 128 row. -/
def brow (b : FVec Ideal S128 .f32) : FVec Ideal S1x128 .f32 :=
  shapeCast S1x128 b shapeCasts_S128_S1x128

/-- The scatter-mean: per node, the sum of the edge outputs whose column index is that node, divided by
    the larger of their count and one. -/
def aggr (r : IVec S400000 32) (x : FVec Ideal S400000x128 .f32) : FVec Ideal S100000x128 .f32 :=
  Host.divf
    (Host.scatterAdd scatter_S100000x128_S400000x1_S400000x128_1_0_0_1
      (broadcastInDim S100000x128 ![] bcast_S_S100000x128 (constant (F := Ideal) S_ .f32 0x00000000#32)) (colIdx r) x)
    (broadcastInDim S100000x128 ![0, 1] bcast_S100000x1_S100000x128_0_1
      (maximumf
        (Host.scatterAdd scatter_S100000x1_S400000x1_S400000x1_1_0_0_1
          (broadcastInDim S100000x1 ![] bcast_S_S100000x1 (constant (F := Ideal) S_ .f32 0x00000000#32)) (colIdx r)
          (broadcastInDim S400000x1 ![] bcast_S_S400000x1 (constant (F := Ideal) S_ .f32 0x3F800000#32)))
        (broadcastInDim S100000x1 ![] bcast_S_S100000x1 (constant (F := Ideal) S_ .f32 0x3F800000#32))))

end Cert.KernelIdeal.KValue

end
-- ==== Proof.KSlices.lean ====
/-
  The two regions' whole-array functions, with the host's row blocks of the first-layer weight matrices and its
  1 x 128 bias rows put in, are the specification's two networks at every row.

  Rows 0-7, 8-135 and 136-263 (or 0-127 and 128-255) of a first-layer weight matrix, cut out by the host, read at
  (k, j) the matrix at (k, j), (8 + k, j), (136 + k, j) (or (k, j), (128 + k, j)); a bias vector viewed as a
  1 x 128 row reads at (0, j) the vector at j.
-/
import proofs.«170768_j69415261438105_1_alg».proof.Proof.KEdge
import proofs.«170768_j69415261438105_1_alg».proof.Proof.KNode
import proofs.«170768_j69415261438105_1_alg».proof.Proof.KStages
import proofs.«170768_j69415261438105_1_alg».proof.Proof.MlpSpec
import Idealize.ShloMosaic.Lib.ValueIdx
import Idealize.ShloMosaic.Lib.ValueLayout

noncomputable section

namespace Cert.KernelIdeal.KValue

open Idealize.ShloMosaic Idealize.ShloMosaic.ValueIdx Cert.KernelIdeal Cert.KernelIdeal.Gen

/-- Rows 0-7 of the edge network's first weight matrix at (k, j). -/
theorem w0a_apply (aW0 : FVec Ideal S264x128 .f32) (k : Fin 8) (j : Fin 128) :
    w0a aW0 (ix2 k j) = aW0 (ix2 (⟨k.val, by omega⟩ : Fin 264) j) :=
  slice2_axis0_apply 0 aW0 slices_S264x128_S8x128_0_0 k j ⟨k.val, by omega⟩ (Nat.zero_add _).symm

/-- Rows 8-135 of the edge network's first weight matrix at (k, j). -/
theorem w01_apply (aW0 : FVec Ideal S264x128 .f32) (k : Fin 128) (j : Fin 128) :
    w01 aW0 (ix2 k j) = aW0 (ix2 (⟨8 + k.val, by omega⟩ : Fin 264) j) :=
  slice2_axis0_apply 8 aW0 slices_S264x128_S128x128_8_0 k j ⟨8 + k.val, by omega⟩ rfl

/-- Rows 136-263 of the edge network's first weight matrix at (k, j). -/
theorem w02_apply (aW0 : FVec Ideal S264x128 .f32) (k : Fin 128) (j : Fin 128) :
    w02 aW0 (ix2 k j) = aW0 (ix2 (⟨136 + k.val, by omega⟩ : Fin 264) j) :=
  slice2_axis0_apply 136 aW0 slices_S264x128_S128x128_136_0 k j ⟨136 + k.val, by omega⟩ rfl

/-- Rows 0-127 of the node network's first weight matrix at (k, j). -/
theorem v0a_apply (eW0 : FVec Ideal S256x128 .f32) (k : Fin 128) (j : Fin 128) :
    v0a eW0 (ix2 k j) = eW0 (ix2 (⟨k.val, by omega⟩ : Fin 256) j) :=
  slice2_axis0_apply 0 eW0 slices_S256x128_S128x128_0_0 k j ⟨k.val, by omega⟩ (Nat.zero_add _).symm

/-- Rows 128-255 of the node network's first weight matrix at (k, j). -/
theorem v0b_apply (eW0 : FVec Ideal S256x128 .f32) (k : Fin 128) (j : Fin 128) :
    v0b eW0 (ix2 k j) = eW0 (ix2 (⟨128 + k.val, by omega⟩ : Fin 256) j) :=
  slice2_axis0_apply 128 eW0 slices_S256x128_S128x128_128_0 k j ⟨128 + k.val, by omega⟩ rfl

/-- A bias vector viewed as a 1 x 128 row, at (0, j). -/
theorem brow_apply (b : FVec Ideal S128 .f32) (j : Fin 128) : brow b (ix2 0 j) = b (ix1 j) :=
  shapeCast_a_1a_apply b shapeCasts_S128_S1x128 0 j

/-- The edge region's whole-array function on the host's stages is the specification's edge network. -/
theorem edgeArr_eq (a12 : FVec Ideal S400000x8 .f32) (u v : FVec Ideal S400000x128 .f32) (aW0 : FVec Ideal S264x128 .f32)
    (ab0 : FVec Ideal S128 .f32) (aW1 : FVec Ideal S128x128 .f32) (ab1 : FVec Ideal S128 .f32)
    (aW2 : FVec Ideal S128x128 .f32) (ab2 : FVec Ideal S128 .f32) :
    edgeArr a12 u v (w0a aW0) (w01 aW0) (w02 aW0) (brow ab0) aW1 (brow ab1) aW2 (brow ab2)
      = Cert.MlpSpec.edgeFn a12 u v aW0 ab0 aW1 ab1 aW2 ab2 := by
  funext i
  have ea : (fun (k : Fin 8) (j : Fin 128) => w0a aW0 (ix2 k j)) = fun k j => aW0 (ix2 (⟨k.val, by omega⟩ : Fin 264) j) :=
    funext fun k => funext fun j => w0a_apply aW0 k j
  have eb : (fun (k j : Fin 128) => w01 aW0 (ix2 k j)) = fun k j => aW0 (ix2 (⟨8 + k.val, by omega⟩ : Fin 264) j) :=
    funext fun k => funext fun j => w01_apply aW0 k j
  have ec : (fun (k j : Fin 128) => w02 aW0 (ix2 k j)) = fun k j => aW0 (ix2 (⟨136 + k.val, by omega⟩ : Fin 264) j) :=
    funext fun k => funext fun j => w02_apply aW0 k j
  have e0 : (fun j : Fin 128 => brow ab0 (ix2 0 j)) = fun j => ab0 (ix1 j) := funext fun j => brow_apply ab0 j
  have e1 : (fun j : Fin 128 => brow ab1 (ix2 0 j)) = fun j => ab1 (ix1 j) := funext fun j => brow_apply ab1 j
  have e2 : (fun j : Fin 128 => brow ab2 (ix2 0 j)) = fun j => ab2 (ix1 j) := funext fun j => brow_apply ab2 j
  show Cert.MlpSpec.tail
      (Cert.MlpSpec.edgePre (fun k => a12 (ix2 (i 0) k)) (fun k => u (ix2 (i 0) k)) (fun k => v (ix2 (i 0) k))
        (fun (k : Fin 8) (j : Fin 128) => w0a aW0 (ix2 k j)) (fun (k j : Fin 128) => w01 aW0 (ix2 k j))
        (fun (k j : Fin 128) => w02 aW0 (ix2 k j)) (fun j : Fin 128 => brow ab0 (ix2 0 j)))
      (fun k j => aW1 (ix2 k j)) (fun j : Fin 128 => brow ab1 (ix2 0 j)) (fun k j => aW2 (ix2 k j))
      (fun j : Fin 128 => brow ab2 (ix2 0 j)) (i 1) = _
  rw [ea, eb, ec, e0, e1, e2]
  rfl

/-- The node region's whole-array function on the host's stages is the specification's node network. -/
theorem nodeArr_eq (g e2 : FVec Ideal S100000x128 .f32) (eW0 : FVec Ideal S256x128 .f32) (eb0 : FVec Ideal S128 .f32)
    (eW1 : FVec Ideal S128x128 .f32) (eb1 : FVec Ideal S128 .f32) (eW2 : FVec Ideal S128x128 .f32) (eb2 : FVec Ideal S128 .f32) :
    nodeArr g e2 (v0a eW0) (v0b eW0) (brow eb0) eW1 (brow eb1) eW2 (brow eb2)
      = Cert.MlpSpec.nodeFn g e2 eW0 eb0 eW1 eb1 eW2 eb2 := by
  funext i
  have ea : (fun (k j : Fin 128) => v0a eW0 (ix2 k j)) = fun k j => eW0 (ix2 (⟨k.val, by omega⟩ : Fin 256) j) :=
    funext fun k => funext fun j => v0a_apply eW0 k j
  have eb : (fun (k j : Fin 128) => v0b eW0 (ix2 k j)) = fun k j => eW0 (ix2 (⟨128 + k.val, by omega⟩ : Fin 256) j) :=
    funext fun k => funext fun j => v0b_apply eW0 k j
  have e0 : (fun j : Fin 128 => brow eb0 (ix2 0 j)) = fun j => eb0 (ix1 j) := funext fun j => brow_apply eb0 j
  have e1 : (fun j : Fin 128 => brow eb1 (ix2 0 j)) = fun j => eb1 (ix1 j) := funext fun j => brow_apply eb1 j
  have e2' : (fun j : Fin 128 => brow eb2 (ix2 0 j)) = fun j => eb2 (ix1 j) := funext fun j => brow_apply eb2 j
  show Cert.MlpSpec.tail
      (Cert.MlpSpec.nodePre (fun k => g (ix2 (i 0) k)) (fun k => e2 (ix2 (i 0) k))
        (fun (k j : Fin 128) => v0a eW0 (ix2 k j)) (fun (k j : Fin 128) => v0b eW0 (ix2 k j))
        (fun j : Fin 128 => brow eb0 (ix2 0 j)))
      (fun k j => eW1 (ix2 k j)) (fun j : Fin 128 => brow eb1 (ix2 0 j)) (fun k j => eW2 (ix2 k j))
      (fun j : Fin 128 => brow eb2 (ix2 0 j)) (i 1) = _
  rw [ea, eb, e0, e1, e2']
  rfl

end Cert.KernelIdeal.KValue

end
-- ==== Proof.KHost.lean ====
/-
  The kernel program's two stretches of host operations, read back over arbitrary buffer contents.

  After the operations before the first region, the buffers the regions read hold the named stages of the contents
  the stretch started from: the gathered rows, the row blocks of the first weight matrix, the biases as rows, and
  row 1 of the index array.  After the operations between the regions, they hold the scatter-mean of the first
  region's output, the row blocks of the node network's first weight matrix and its biases as rows.  A buffer no
  operation writes keeps its contents.  Each statement is the operations' own composition, one result at a time.
-/
import proofs.«170768_j69415261438105_1_alg».proof.Proof.Gen.KernelIdeal.Launch
import proofs.«170768_j69415261438105_1_alg».proof.Proof.KStages
import Idealize.ShloMosaic.Lib.StableHlo.Run

noncomputable section

namespace Cert.KernelIdeal.KValue

open Idealize.ShloMosaic Idealize.ShloMosaic.StableHlo Cert.KernelIdeal Cert.KernelIdeal.Gen

variable (W : Valuation τ sig (Elt Ideal))

/-! ## The operations between the two regions -/

/-- The scatter-mean of the edge outputs over the column index. -/
theorem ops1_v35 : after (hostOps1 (F := Ideal)) W (Proc.devRef .tc main_v35) = aggr (W (Proc.devRef .tc main_v3)) (W (Proc.devRef .tc main_v24)) := by
  after_results_simp; rfl

/-- The two row blocks of the node network's first weight matrix. -/
theorem ops1_v36 : after (hostOps1 (F := Ideal)) W (Proc.devRef .tc main_v36) = v0a (W (Proc.devRef .tc main_arg10)) := by
  after_results_simp; rfl
theorem ops1_v37 : after (hostOps1 (F := Ideal)) W (Proc.devRef .tc main_v37) = v0b (W (Proc.devRef .tc main_arg10)) := by
  after_results_simp; rfl

/-- The node network's three biases as 1 x 128 rows. -/
theorem ops1_v38 : after (hostOps1 (F := Ideal)) W (Proc.devRef .tc main_v38) = brow (W (Proc.devRef .tc main_arg11)) := by
  after_results_simp; rfl
theorem ops1_v39 : after (hostOps1 (F := Ideal)) W (Proc.devRef .tc main_v39) = brow (W (Proc.devRef .tc main_arg13)) := by
  after_results_simp; rfl
theorem ops1_v40 : after (hostOps1 (F := Ideal)) W (Proc.devRef .tc main_v40) = brow (W (Proc.devRef .tc main_arg15)) := by
  after_results_simp; rfl

/-- Buffers no operation of the stretch writes keep their contents. -/
theorem ops1_arg1 : after (hostOps1 (F := Ideal)) W (Proc.devRef .tc main_arg1) = W (Proc.devRef .tc main_arg1) := by
  after_results_simp
theorem ops1_arg12 : after (hostOps1 (F := Ideal)) W (Proc.devRef .tc main_arg12) = W (Proc.devRef .tc main_arg12) := by
  after_results_simp
theorem ops1_arg14 : after (hostOps1 (F := Ideal)) W (Proc.devRef .tc main_arg14) = W (Proc.devRef .tc main_arg14) := by
  after_results_simp

/-! ## The operations before the first region -/

/-- The gathered rows of the two feature arrays. -/
theorem ops0_v10 : after (hostOps0 (F := Ideal)) W (Proc.devRef .tc main_v10) = e1g (W (Proc.devRef .tc main_arg0)) (W (Proc.devRef .tc main_arg3)) := by
  after_results_simp; rfl
theorem ops0_v17 : after (hostOps0 (F := Ideal)) W (Proc.devRef .tc main_v17) = e2g (W (Proc.devRef .tc main_arg1)) (W (Proc.devRef .tc main_arg3)) := by
  after_results_simp; rfl

/-- The three row blocks of the edge network's first weight matrix. -/
theorem ops0_v18 : after (hostOps0 (F := Ideal)) W (Proc.devRef .tc main_v18) = w0a (W (Proc.devRef .tc main_arg4)) := by
  after_results_simp; rfl
theorem ops0_v19 : after (hostOps0 (F := Ideal)) W (Proc.devRef .tc main_v19) = w01 (W (Proc.devRef .tc main_arg4)) := by
  after_results_simp; rfl
theorem ops0_v20 : after (hostOps0 (F := Ideal)) W (Proc.devRef .tc main_v20) = w02 (W (Proc.devRef .tc main_arg4)) := by
  after_results_simp; rfl

/-- The edge network's three biases as 1 x 128 rows. -/
theorem ops0_v21 : after (hostOps0 (F := Ideal)) W (Proc.devRef .tc main_v21) = brow (W (Proc.devRef .tc main_arg5)) := by
  after_results_simp; rfl
theorem ops0_v22 : after (hostOps0 (F := Ideal)) W (Proc.devRef .tc main_v22) = brow (W (Proc.devRef .tc main_arg7)) := by
  after_results_simp; rfl
theorem ops0_v23 : after (hostOps0 (F := Ideal)) W (Proc.devRef .tc main_v23) = brow (W (Proc.devRef .tc main_arg9)) := by
  after_results_simp; rfl

/-- Row 1 of the index array as a vector. -/
theorem ops0_v3 : after (hostOps0 (F := Ideal)) W (Proc.devRef .tc main_v3) = idxRow1 (W (Proc.devRef .tc main_arg3)) := by
  after_results_simp; rfl

/-- Buffers no operation of the stretch writes keep their contents. -/
theorem ops0_arg1 : after (hostOps0 (F := Ideal)) W (Proc.devRef .tc main_arg1) = W (Proc.devRef .tc main_arg1) := by
  after_results_simp
theorem ops0_arg2 : after (hostOps0 (F := Ideal)) W (Proc.devRef .tc main_arg2) = W (Proc.devRef .tc main_arg2) := by
  after_results_simp
theorem ops0_arg6 : after (hostOps0 (F := Ideal)) W (Proc.devRef .tc main_arg6) = W (Proc.devRef .tc main_arg6) := by
  after_results_simp
theorem ops0_arg8 : after (hostOps0 (F := Ideal)) W (Proc.devRef .tc main_arg8) = W (Proc.devRef .tc main_arg8) := by
  after_results_simp
theorem ops0_arg10 : after (hostOps0 (F := Ideal)) W (Proc.devRef .tc main_arg10) = W (Proc.devRef .tc main_arg10) := by
  after_results_simp
theorem ops0_arg11 : after (hostOps0 (F := Ideal)) W (Proc.devRef .tc main_arg11) = W (Proc.devRef .tc main_arg11) := by
  after_results_simp
theorem ops0_arg12 : after (hostOps0 (F := Ideal)) W (Proc.devRef .tc main_arg12) = W (Proc.devRef .tc main_arg12) := by
  after_results_simp
theorem ops0_arg13 : after (hostOps0 (F := Ideal)) W (Proc.devRef .tc main_arg13) = W (Proc.devRef .tc main_arg13) := by
  after_results_simp
theorem ops0_arg14 : after (hostOps0 (F := Ideal)) W (Proc.devRef .tc main_arg14) = W (Proc.devRef .tc main_arg14) := by
  after_results_simp
theorem ops0_arg15 : after (hostOps0 (F := Ideal)) W (Proc.devRef .tc main_arg15) = W (Proc.devRef .tc main_arg15) := by
  after_results_simp

end Cert.KernelIdeal.KValue

end
-- ==== Proof.KOut.lean ====
/-
  The idealized kernel program's result as one function of its sixteen arguments: the node network of the
  scatter-mean (over the column index) of the edge network of the angle features and the gathered rows.
-/
import proofs.«170768_j69415261438105_1_alg».proof.Proof.KStages
import proofs.«170768_j69415261438105_1_alg».proof.Proof.MlpSpec

noncomputable section

namespace Cert.KernelIdeal.KValue

open Idealize.ShloMosaic Cert.KernelIdeal Cert.KernelIdeal.Gen

/-- The kernel program's result: the node network of the scatter-mean of the edge network. -/
def kOut (e1 : FVec Ideal S400000x128 .f32) (e2 : FVec Ideal S100000x128 .f32) (a12 : FVec Ideal S400000x8 .f32)
    (ai : IVec S2x400000 32) (aW0 : FVec Ideal S264x128 .f32) (ab0 : FVec Ideal S128 .f32)
    (aW1 : FVec Ideal S128x128 .f32) (ab1 : FVec Ideal S128 .f32) (aW2 : FVec Ideal S128x128 .f32) (ab2 : FVec Ideal S128 .f32)
    (eW0 : FVec Ideal S256x128 .f32) (eb0 : FVec Ideal S128 .f32) (eW1 : FVec Ideal S128x128 .f32) (eb1 : FVec Ideal S128 .f32)
    (eW2 : FVec Ideal S128x128 .f32) (eb2 : FVec Ideal S128 .f32) : FVec Ideal S100000x128 .f32 :=
  Cert.MlpSpec.nodeFn
    (aggr (idxRow1 ai) (Cert.MlpSpec.edgeFn a12 (e1g e1 ai) (e2g e2 ai) aW0 ab0 aW1 ab1 aW2 ab2))
    e2 eW0 eb0 eW1 eb1 eW2 eb2

end Cert.KernelIdeal.KValue

end
-- ==== Proof.KValueRun.lean ====
/-
  The idealized kernel's result as one function of its sixteen arguments.

  Region 0 leaves the edge network of (a12, gathered e1 rows, gathered e2 rows) in its output array; the host
  operations between the regions take its scatter-mean over the column index; region 1 leaves the node network of
  (that mean, e2).  Each step is read off the fold of the program's four segments over the launch memory.
-/
import proofs.«170768_j69415261438105_1_alg».proof.Proof.KRun
import proofs.«170768_j69415261438105_1_alg».proof.Proof.KNode
import proofs.«170768_j69415261438105_1_alg».proof.Proof.KEdge
import proofs.«170768_j69415261438105_1_alg».proof.Proof.KSlices
import proofs.«170768_j69415261438105_1_alg».proof.Proof.KHost
import proofs.«170768_j69415261438105_1_alg».proof.Proof.KStages
import proofs.«170768_j69415261438105_1_alg».proof.Proof.KOut
import proofs.«170768_j69415261438105_1_alg».proof.Proof.MlpSpec

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## Region 0's entry contents: the first stretch of host operations over the launch memory -/

theorem V1_arg2 (c : Dev nD) : V1 m ρ c main_arg2 = (m ((c.tc : Thread nD τ).loc main_arg2)) := ops0_arg2 (W0 m ρ c)
theorem V1_v10 (c : Dev nD) : V1 m ρ c main_v10 = e1g (m ((c.tc : Thread nD τ).loc main_arg0)) (m ((c.tc : Thread nD τ).loc main_arg3)) := ops0_v10 (W0 m ρ c)
theorem V1_v17 (c : Dev nD) : V1 m ρ c main_v17 = e2g (m ((c.tc : Thread nD τ).loc main_arg1)) (m ((c.tc : Thread nD τ).loc main_arg3)) := ops0_v17 (W0 m ρ c)
theorem V1_v18 (c : Dev nD) : V1 m ρ c main_v18 = w0a (m ((c.tc : Thread nD τ).loc main_arg4)) := ops0_v18 (W0 m ρ c)
theorem V1_v19 (c : Dev nD) : V1 m ρ c main_v19 = w01 (m ((c.tc : Thread nD τ).loc main_arg4)) := ops0_v19 (W0 m ρ c)
theorem V1_v20 (c : Dev nD) : V1 m ρ c main_v20 = w02 (m ((c.tc : Thread nD τ).loc main_arg4)) := ops0_v20 (W0 m ρ c)
theorem V1_v21 (c : Dev nD) : V1 m ρ c main_v21 = brow (m ((c.tc : Thread nD τ).loc main_arg5)) := ops0_v21 (W0 m ρ c)
theorem V1_arg6 (c : Dev nD) : V1 m ρ c main_arg6 = (m ((c.tc : Thread nD τ).loc main_arg6)) := ops0_arg6 (W0 m ρ c)
theorem V1_v22 (c : Dev nD) : V1 m ρ c main_v22 = brow (m ((c.tc : Thread nD τ).loc main_arg7)) := ops0_v22 (W0 m ρ c)
theorem V1_arg8 (c : Dev nD) : V1 m ρ c main_arg8 = (m ((c.tc : Thread nD τ).loc main_arg8)) := ops0_arg8 (W0 m ρ c)
theorem V1_v23 (c : Dev nD) : V1 m ρ c main_v23 = brow (m ((c.tc : Thread nD τ).loc main_arg9)) := ops0_v23 (W0 m ρ c)

/-! ## After region 0 -/

/-- The edge network's output array after region 0. -/
theorem W2_v24 (c : Dev nD) :
    W2 m ρ c (Proc.devRef .tc main_v24) = Cert.MlpSpec.edgeFn (m ((c.tc : Thread nD τ).loc main_arg2)) (e1g (m ((c.tc : Thread nD τ).loc main_arg0)) (m ((c.tc : Thread nD τ).loc main_arg3))) (e2g (m ((c.tc : Thread nD τ).loc main_arg1)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  calc W2 m ρ c (Proc.devRef .tc main_v24)
    _ = (dat0 (V1 m ρ) c).arrAt 11 cfg0.N := W2_arr m ρ c 11
    _ = edgeArr (V1 m ρ c main_arg2) (V1 m ρ c main_v10) (V1 m ρ c main_v17) (V1 m ρ c main_v18) (V1 m ρ c main_v19)
          (V1 m ρ c main_v20) (V1 m ρ c main_v21) (V1 m ρ c main_arg6) (V1 m ρ c main_v22) (V1 m ρ c main_arg8)
          (V1 m ρ c main_v23) := final0 (V1 m ρ) c
    _ = edgeArr (m ((c.tc : Thread nD τ).loc main_arg2)) (e1g (m ((c.tc : Thread nD τ).loc main_arg0)) (m ((c.tc : Thread nD τ).loc main_arg3))) (e2g (m ((c.tc : Thread nD τ).loc main_arg1)) (m ((c.tc : Thread nD τ).loc main_arg3))) (w0a (m ((c.tc : Thread nD τ).loc main_arg4))) (w01 (m ((c.tc : Thread nD τ).loc main_arg4))) (w02 (m ((c.tc : Thread nD τ).loc main_arg4))) (brow (m ((c.tc : Thread nD τ).loc main_arg5))) (m ((c.tc : Thread nD τ).loc main_arg6)) (brow (m ((c.tc : Thread nD τ).loc main_arg7))) (m ((c.tc : Thread nD τ).loc main_arg8)) (brow (m ((c.tc : Thread nD τ).loc main_arg9))) := by
          rw [V1_arg2 m ρ c, V1_v10 m ρ c, V1_v17 m ρ c, V1_v18 m ρ c, V1_v19 m ρ c, V1_v20 m ρ c, V1_v21 m ρ c,
            V1_arg6 m ρ c, V1_v22 m ρ c, V1_arg8 m ρ c, V1_v23 m ρ c]
    _ = _ := edgeArr_eq _ _ _ _ _ _ _ _ _

/-- A buffer that is no array of region 0 passes through it, and through the first stretch if that writes it not. -/
theorem W2_v3 (c : Dev nD) : W2 m ρ c (Proc.devRef .tc main_v3) = idxRow1 (m ((c.tc : Thread nD τ).loc main_arg3)) :=
  (W2_of_ne m ρ c main_v3 (by decide)).trans (ops0_v3 (W0 m ρ c))
theorem W2_arg1 (c : Dev nD) : W2 m ρ c (Proc.devRef .tc main_arg1) = (m ((c.tc : Thread nD τ).loc main_arg1)) :=
  (W2_of_ne m ρ c main_arg1 (by decide)).trans (ops0_arg1 (W0 m ρ c))
theorem W2_arg10 (c : Dev nD) : W2 m ρ c (Proc.devRef .tc main_arg10) = (m ((c.tc : Thread nD τ).loc main_arg10)) :=
  (W2_of_ne m ρ c main_arg10 (by decide)).trans (ops0_arg10 (W0 m ρ c))
theorem W2_arg11 (c : Dev nD) : W2 m ρ c (Proc.devRef .tc main_arg11) = (m ((c.tc : Thread nD τ).loc main_arg11)) :=
  (W2_of_ne m ρ c main_arg11 (by decide)).trans (ops0_arg11 (W0 m ρ c))
theorem W2_arg12 (c : Dev nD) : W2 m ρ c (Proc.devRef .tc main_arg12) = (m ((c.tc : Thread nD τ).loc main_arg12)) :=
  (W2_of_ne m ρ c main_arg12 (by decide)).trans (ops0_arg12 (W0 m ρ c))
theorem W2_arg13 (c : Dev nD) : W2 m ρ c (Proc.devRef .tc main_arg13) = (m ((c.tc : Thread nD τ).loc main_arg13)) :=
  (W2_of_ne m ρ c main_arg13 (by decide)).trans (ops0_arg13 (W0 m ρ c))
theorem W2_arg14 (c : Dev nD) : W2 m ρ c (Proc.devRef .tc main_arg14) = (m ((c.tc : Thread nD τ).loc main_arg14)) :=
  (W2_of_ne m ρ c main_arg14 (by decide)).trans (ops0_arg14 (W0 m ρ c))
theorem W2_arg15 (c : Dev nD) : W2 m ρ c (Proc.devRef .tc main_arg15) = (m ((c.tc : Thread nD τ).loc main_arg15)) :=
  (W2_of_ne m ρ c main_arg15 (by decide)).trans (ops0_arg15 (W0 m ρ c))

/-! ## Region 1's entry contents: the second stretch of host operations over what region 0 leaves -/

theorem V3_v35 (c : Dev nD) :
    V3 m ρ c main_v35 = aggr (idxRow1 (m ((c.tc : Thread nD τ).loc main_arg3)))
      (Cert.MlpSpec.edgeFn (m ((c.tc : Thread nD τ).loc main_arg2)) (e1g (m ((c.tc : Thread nD τ).loc main_arg0)) (m ((c.tc : Thread nD τ).loc main_arg3))) (e2g (m ((c.tc : Thread nD τ).loc main_arg1)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :=
  (ops1_v35 (W2 m ρ c)).trans (by rw [W2_v3 m ρ c, W2_v24 m ρ c])
theorem V3_arg1 (c : Dev nD) : V3 m ρ c main_arg1 = (m ((c.tc : Thread nD τ).loc main_arg1)) := (ops1_arg1 (W2 m ρ c)).trans (W2_arg1 m ρ c)
theorem V3_v36 (c : Dev nD) : V3 m ρ c main_v36 = v0a (m ((c.tc : Thread nD τ).loc main_arg10)) := (ops1_v36 (W2 m ρ c)).trans (by rw [W2_arg10 m ρ c])
theorem V3_v37 (c : Dev nD) : V3 m ρ c main_v37 = v0b (m ((c.tc : Thread nD τ).loc main_arg10)) := (ops1_v37 (W2 m ρ c)).trans (by rw [W2_arg10 m ρ c])
theorem V3_v38 (c : Dev nD) : V3 m ρ c main_v38 = brow (m ((c.tc : Thread nD τ).loc main_arg11)) := (ops1_v38 (W2 m ρ c)).trans (by rw [W2_arg11 m ρ c])
theorem V3_arg12 (c : Dev nD) : V3 m ρ c main_arg12 = (m ((c.tc : Thread nD τ).loc main_arg12)) := (ops1_arg12 (W2 m ρ c)).trans (W2_arg12 m ρ c)
theorem V3_v39 (c : Dev nD) : V3 m ρ c main_v39 = brow (m ((c.tc : Thread nD τ).loc main_arg13)) := (ops1_v39 (W2 m ρ c)).trans (by rw [W2_arg13 m ρ c])
theorem V3_arg14 (c : Dev nD) : V3 m ρ c main_arg14 = (m ((c.tc : Thread nD τ).loc main_arg14)) := (ops1_arg14 (W2 m ρ c)).trans (W2_arg14 m ρ c)
theorem V3_v40 (c : Dev nD) : V3 m ρ c main_v40 = brow (m ((c.tc : Thread nD τ).loc main_arg15)) := (ops1_v40 (W2 m ρ c)).trans (by rw [W2_arg15 m ρ c])

/-! ## After region 1: the result -/

theorem value (c : Dev nD) :
    W4 m ρ c (Proc.devRef .tc main_v41) = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  calc W4 m ρ c (Proc.devRef .tc main_v41)
    _ = (dat1 (V3 m ρ) c).arrAt 9 cfg1.N := W4_arr m ρ c 9
    _ = nodeArr (V3 m ρ c main_v35) (V3 m ρ c main_arg1) (V3 m ρ c main_v36) (V3 m ρ c main_v37) (V3 m ρ c main_v38)
          (V3 m ρ c main_arg12) (V3 m ρ c main_v39) (V3 m ρ c main_arg14) (V3 m ρ c main_v40) := final1 (V3 m ρ) c
    _ = nodeArr (aggr (idxRow1 (m ((c.tc : Thread nD τ).loc main_arg3)))
            (Cert.MlpSpec.edgeFn (m ((c.tc : Thread nD τ).loc main_arg2)) (e1g (m ((c.tc : Thread nD τ).loc main_arg0)) (m ((c.tc : Thread nD τ).loc main_arg3))) (e2g (m ((c.tc : Thread nD τ).loc main_arg1)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))))
          (m ((c.tc : Thread nD τ).loc main_arg1)) (v0a (m ((c.tc : Thread nD τ).loc main_arg10))) (v0b (m ((c.tc : Thread nD τ).loc main_arg10))) (brow (m ((c.tc : Thread nD τ).loc main_arg11))) (m ((c.tc : Thread nD τ).loc main_arg12)) (brow (m ((c.tc : Thread nD τ).loc main_arg13))) (m ((c.tc : Thread nD τ).loc main_arg14)) (brow (m ((c.tc : Thread nD τ).loc main_arg15))) := by
          rw [V3_v35 m ρ c, V3_arg1 m ρ c, V3_v36 m ρ c, V3_v37 m ρ c, V3_v38 m ρ c, V3_arg12 m ρ c, V3_v39 m ρ c,
            V3_arg14 m ρ c, V3_v40 m ρ c]
    _ = _ := nodeArr_eq _ _ _ _ _ _ _ _

/-- The run: the result array ends at kOut of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v41) = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run (defs (F := Ideal)) _ _).mono (fun r h c => ⟨(h c).1.trans (value m ρ c), (h c).2⟩) (run_W4 m ρ)

end Cert.KernelIdeal.KValue

end
-- ==== Proof.RefStages.lean ====
/-
  The reference's host program, read as a composition of named stages over its argument arrays at the
  extended reals: the two index vectors (a negative entry wrapped by the axis length), the two gathers, the
  edge network (concatenate, three linear layers with SELU between), the scatter-mean over the column index,
  and the node network.  Each stage is the host operations' own composition; nothing is rearranged here.
-/
import proofs.«170768_j69415261438105_1_alg».proof.ReferenceIdeal
import proofs.«170768_j69415261438105_1_alg».proof.Proof.Gen.ReferenceIdeal
import Idealize.ShloMosaic.PureOps.Ideal

noncomputable section

namespace Cert.ReferenceIdeal.RefValue

open Idealize.ShloMosaic Cert.ReferenceIdeal Cert.ReferenceIdeal.Gen

/-- Row r (0 or 1) of the 2 x 400000 index array as a vector: the slice, then the reshape. -/
def idxRow0 (ai : IVec S2x400000 32) : IVec S400000 32 :=
  shapeCast S400000 (extractStridedSlice S1x400000 ![0, 0] ai slices_S2x400000_S1x400000_0_0) shapeCasts_S1x400000_S400000
def idxRow1 (ai : IVec S2x400000 32) : IVec S400000 32 :=
  shapeCast S400000 (extractStridedSlice S1x400000 ![1, 0] ai slices_S2x400000_S1x400000_1_0) shapeCasts_S1x400000_S400000

/-- An index vector with its negative entries wrapped by the axis length n, as a column of start indices. -/
def wrapIdx (n : BitVec 32) (r : IVec S400000 32) : IVec S400000x1 32 :=
  broadcastInDim S400000x1 ![0] bcast_S400000_S400000x1_0
    (select (cmpi .slt r (broadcastInDim S400000 ![] bcast_S_S400000 (constantI S_ 32 0#32)))
      (addi r (broadcastInDim S400000 ![] bcast_S_S400000 (constantI S_ 32 n))) r)

/-- The index vector as a column of scatter indices (no wrapping). -/
def colIdx (r : IVec S400000 32) : IVec S400000x1 32 :=
  broadcastInDim S400000x1 ![0] bcast_S400000_S400000x1_0 r

/-- The gathered rows of e1 (by index row 0) and of e2 (by index row 1). -/
def e1g (e1 : FVec Ideal S400000x128 .f32) (ai : IVec S2x400000 32) : FVec Ideal S400000x128 .f32 :=
  Host.gather gather_S400000x128_S400000x1_S400000x128_1_0_n_n_0_1_1128 e1 (wrapIdx 400000#32 (idxRow0 ai))
def e2g (e2 : FVec Ideal S100000x128 .f32) (ai : IVec S2x400000 32) : FVec Ideal S400000x128 .f32 :=
  Host.gather gather_S100000x128_S400000x1_S400000x128_1_0_n_n_0_1_1128 e2 (wrapIdx 100000#32 (idxRow1 ai))

/-- SELU as jax's library spells it on a 400000 x 128 array: scale * where(x > 0, x, alpha * expm1(where(x > 0, 0, x))). -/
def seluA (x : FVec Ideal S400000x128 .f32) : FVec Ideal S400000x128 .f32 :=
  mulf (broadcastInDim S400000x128 ![] bcast_S_S400000x128 (constant (F := Ideal) S_ .f32 0x3F867D5F#32))
    (select (cmpf .ogt x (broadcastInDim S400000x128 ![] bcast_S_S400000x128 (constant (F := Ideal) S_ .f32 0x00000000#32))) x
      (mulf (broadcastInDim S400000x128 ![] bcast_S_S400000x128 (id (constant (F := Ideal) S_ .f32 0x3FD62D7D#32)))
        (Host.expm1
          (select (cmpf .ogt x (broadcastInDim S400000x128 ![] bcast_S_S400000x128 (constant (F := Ideal) S_ .f32 0x00000000#32)))
            (broadcastInDim S400000x128 ![] bcast_S_S400000x128 (id (constant (F := Ideal) S_ .f32 0x00000000#32))) x))))

/-- The same on a 100000 x 128 array. -/
def seluE (x : FVec Ideal S100000x128 .f32) : FVec Ideal S100000x128 .f32 :=
  mulf (broadcastInDim S100000x128 ![] bcast_S_S100000x128 (constant (F := Ideal) S_ .f32 0x3F867D5F#32))
    (select (cmpf .ogt x (broadcastInDim S100000x128 ![] bcast_S_S100000x128 (constant (F := Ideal) S_ .f32 0x00000000#32))) x
      (mulf (broadcastInDim S100000x128 ![] bcast_S_S100000x128 (id (constant (F := Ideal) S_ .f32 0x3FD62D7D#32)))
        (Host.expm1
          (select (cmpf .ogt x (broadcastInDim S100000x128 ![] bcast_S_S100000x128 (constant (F := Ideal) S_ .f32 0x00000000#32)))
            (broadcastInDim S100000x128 ![] bcast_S_S100000x128 (id (constant (F := Ideal) S_ .f32 0x00000000#32))) x))))

/-- A bias vector laid along every row of a 400000 x 128 (or 100000 x 128) array. -/
def biasA (b : FVec Ideal S128 .f32) : FVec Ideal S400000x128 .f32 :=
  broadcastInDim S400000x128 ![0, 1] bcast_S1x128_S400000x128_0_1 (broadcastInDim S1x128 ![1] bcast_S128_S1x128_1 b)
def biasE (b : FVec Ideal S128 .f32) : FVec Ideal S100000x128 .f32 :=
  broadcastInDim S100000x128 ![0, 1] bcast_S1x128_S100000x128_0_1 (broadcastInDim S1x128 ![1] bcast_S128_S1x128_1 b)

/-- The edge network over the concatenated features. -/
def edgeOut (a12 : FVec Ideal S400000x8 .f32) (u v : FVec Ideal S400000x128 .f32) (aW0 : FVec Ideal S264x128 .f32)
    (ab0 : FVec Ideal S128 .f32) (aW1 : FVec Ideal S128x128 .f32) (ab1 : FVec Ideal S128 .f32)
    (aW2 : FVec Ideal S128x128 .f32) (ab2 : FVec Ideal S128 .f32) : FVec Ideal S400000x128 .f32 :=
  addf (Host.dotGeneral dot_S400000x128_S128x128_S400000x128_1_0_0_1_n_n none
    (seluA (addf (Host.dotGeneral dot_S400000x128_S128x128_S400000x128_1_0_0_1_n_n none
      (seluA (addf (Host.dotGeneral dot_S400000x264_S264x128_S400000x128_1_0_0_1_n_n none
        (concatenate S400000x264 1 [⟨S400000x8, a12⟩, ⟨S400000x128, u⟩, ⟨S400000x128, v⟩]
          concatenates_S400000x8_S400000x128_S400000x128_S400000x264_d1) aW0) (biasA ab0)))
      aW1) (biasA ab1))) aW2) (biasA ab2)

/-- The scatter-mean: per node, the sum of the edge outputs whose column index is that node, divided by
    the larger of their count and one. -/
def aggr (r : IVec S400000 32) (x : FVec Ideal S400000x128 .f32) : FVec Ideal S100000x128 .f32 :=
  Host.divf
    (Host.scatterAdd scatter_S100000x128_S400000x1_S400000x128_1_0_0_1
      (broadcastInDim S100000x128 ![] bcast_S_S100000x128 (constant (F := Ideal) S_ .f32 0x00000000#32)) (colIdx r) x)
    (broadcastInDim S100000x128 ![0, 1] bcast_S100000x1_S100000x128_0_1
      (maximumf
        (Host.scatterAdd scatter_S100000x1_S400000x1_S400000x1_1_0_0_1
          (broadcastInDim S100000x1 ![] bcast_S_S100000x1 (constant (F := Ideal) S_ .f32 0x00000000#32)) (colIdx r)
          (broadcastInDim S400000x1 ![] bcast_S_S400000x1 (constant (F := Ideal) S_ .f32 0x3F800000#32)))
        (broadcastInDim S100000x1 ![] bcast_S_S100000x1 (constant (F := Ideal) S_ .f32 0x3F800000#32))))

/-- The node network over the concatenated features. -/
def nodeOut (g e2 : FVec Ideal S100000x128 .f32) (eW0 : FVec Ideal S256x128 .f32)
    (eb0 : FVec Ideal S128 .f32) (eW1 : FVec Ideal S128x128 .f32) (eb1 : FVec Ideal S128 .f32)
    (eW2 : FVec Ideal S128x128 .f32) (eb2 : FVec Ideal S128 .f32) : FVec Ideal S100000x128 .f32 :=
  addf (Host.dotGeneral dot_S100000x128_S128x128_S100000x128_1_0_0_1_n_n none
    (seluE (addf (Host.dotGeneral dot_S100000x128_S128x128_S100000x128_1_0_0_1_n_n none
      (seluE (addf (Host.dotGeneral dot_S100000x256_S256x128_S100000x128_1_0_0_1_n_n none
        (concatenate S100000x256 1 [⟨S100000x128, g⟩, ⟨S100000x128, e2⟩]
          concatenates_S100000x128_S100000x128_S100000x256_d1) eW0) (biasE eb0)))
      eW1) (biasE eb1))) eW2) (biasE eb2)

/-- The reference's result as a function of its sixteen arguments. -/
def refOut (e1 : FVec Ideal S400000x128 .f32) (e2 : FVec Ideal S100000x128 .f32) (a12 : FVec Ideal S400000x8 .f32)
    (ai : IVec S2x400000 32) (aW0 : FVec Ideal S264x128 .f32) (ab0 : FVec Ideal S128 .f32)
    (aW1 : FVec Ideal S128x128 .f32) (ab1 : FVec Ideal S128 .f32) (aW2 : FVec Ideal S128x128 .f32) (ab2 : FVec Ideal S128 .f32)
    (eW0 : FVec Ideal S256x128 .f32) (eb0 : FVec Ideal S128 .f32) (eW1 : FVec Ideal S128x128 .f32) (eb1 : FVec Ideal S128 .f32)
    (eW2 : FVec Ideal S128x128 .f32) (eb2 : FVec Ideal S128 .f32) : FVec Ideal S100000x128 .f32 :=
  nodeOut (aggr (idxRow1 ai) (edgeOut a12 (e1g e1 ai) (e2g e2 ai) aW0 ab0 aW1 ab1 aW2 ab2)) e2 eW0 eb0 eW1 eb1 eW2 eb2

end Cert.ReferenceIdeal.RefValue

end
-- ==== Proof.LibTypedRef.lean ====
/-
  A host operation inside a module-local function is stated at the tensor value's own type and
  carried to and from its buffer's type along the equation between the two.  When one operation's
  result is the next one's operand the two carriers meet, and they cancel: going to the buffer's type
  and back is the identity.  Rewriting with this fact clears a composed host term of every
  intermediate carrier, leaving only those at the program's arguments and at the final result,
  which are identities by computation.
-/
import Idealize.ShloMosaic.Lib.StableHlo

namespace Cert.LibTypedRef

open Idealize.ShloMosaic Idealize.ShloMosaic.StableHlo

/-- Contents carried to a typed reference's buffer type and back are unchanged. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.LibTypedRef
-- ==== Proof.RefRunOps.lean ====
/-
  The reference's host program as a straight line.  Its four calls of SELU are private functions of the module
  (SELU calls ELU, which calls two selects); a call executes the callee's body on the operands, each value of
  the body in a buffer of that call's own.  Unfolding the functions at their call sites leaves 139 host
  operations in program order; they are listed here in eleven consecutive stretches (the gathers, the linear
  layers and the scatter-mean between the four SELUs, and the SELUs), the program is shown equal to their
  sequence, and the run of a straight line then gives every buffer's final contents as the fold of the
  operations' results over the launch contents.
-/
import proofs.«170768_j69415261438105_1_alg».proof.ReferenceIdeal
import proofs.«170768_j69415261438105_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two index rows, their wrapped start indices, and the two gathers: @main's first 22 operations. -/
abbrev opsA : List (HloOp τ sig (Elt F)) :=
  [ StableHlo.unary main_arg3 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg3 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v1 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 400000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v1 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_arg0 main_v9 main_v10 ((fun x i => Host.gather gather_S400000x128_S400000x1_S400000x128_1_0_n_n_0_1_1128 x i) : (⟨S400000x128, .f32⟩ : BufTy).Contents (Elt F) → (⟨S400000x1, .i32⟩ : BufTy).Contents (Elt F) → (⟨S400000x128, .f32⟩ : BufTy).Contents (Elt F)),
    StableHlo.nullary main_c_1 (constantI S_ 32 0#32),
    StableHlo.unary main_c_1 main_v11 (broadcastInDim S400000 ![] bcast_S_S400000 : (⟨S_, .i32⟩ : BufTy).Contents (Elt F) → (⟨S400000, .i32⟩ : BufTy).Contents (Elt F)),
    StableHlo.binary main_v3 main_v11 main_v12 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 100000#32),
    StableHlo.unary main_c_2 main_v13 (broadcastInDim S400000 ![] bcast_S_S400000 : (⟨S_, .i32⟩ : BufTy).Contents (Elt F) → (⟨S400000, .i32⟩ : BufTy).Contents (Elt F)),
    StableHlo.binary main_v3 main_v13 main_v14 (addi : (⟨S400000, .i32⟩ : BufTy).Contents (Elt F) → (⟨S400000, .i32⟩ : BufTy).Contents (Elt F) → (⟨S400000, .i32⟩ : BufTy).Contents (Elt F)),
    StableHlo.ternary main_v12 main_v14 main_v3 main_v15 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v15 main_v16 (broadcastInDim S400000x1 ![0] bcast_S400000_S400000x1_0 : (⟨S400000, .i32⟩ : BufTy).Contents (Elt F) → (⟨S400000x1, .i32⟩ : BufTy).Contents (Elt F)),
    StableHlo.binary main_arg1 main_v16 main_v17 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)) ]

/-- The concatenation of the edge features and the edge network's first linear layer. -/
abbrev opsL : List (HloOp τ sig (Elt F)) :=
  [ StableHlo.nary ![main_arg2, main_v10, main_v17] main_v18 (fun u => concatenate S400000x264 1 [⟨S400000x8, u 0⟩, ⟨S400000x128, u 1⟩, ⟨S400000x128, u 2⟩] concatenates_S400000x8_S400000x128_S400000x128_S400000x264_d1),
    StableHlo.binary main_v18 main_arg4 main_v19 ((fun l r => Host.dotGeneral dot_S400000x264_S264x128_S400000x128_1_0_0_1_n_n none l r) : (⟨S400000x264, .f32⟩ : BufTy).Contents (Elt F) → (⟨S264x128, .f32⟩ : BufTy).Contents (Elt F) → (⟨S400000x128, .f32⟩ : BufTy).Contents (Elt F)),
    StableHlo.unary main_arg5 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S400000x128 ![0, 1] bcast_S1x128_S400000x128_0_1 : (⟨S1x128, .f32⟩ : BufTy).Contents (Elt F) → (⟨S400000x128, .f32⟩ : BufTy).Contents (Elt F)),
    StableHlo.binary main_v19 main_v21 main_v22 (addf : (⟨S400000x128, .f32⟩ : BufTy).Contents (Elt F) → (⟨S400000x128, .f32⟩ : BufTy).Contents (Elt F) → (⟨S400000x128, .f32⟩ : BufTy).Contents (Elt F)) ]

/-- The first SELU of the edge network, its three nested functions unfolded over the call's own buffers. -/
abbrev opsS0 : List (HloOp τ sig (Elt F)) :=
  [ TRef.nullary main_call0.cst (constant S_ .f32 0x3FD62D7D#32),
    TRef.nullary main_call0.call0.cst (constant S_ .f32 0x00000000#32),
    TRef.unary main_call0.call0.cst main_call0.call0.v0 (broadcastInDim S400000x128 ![] bcast_S_S400000x128),
    TRef.binary (.of main_v22 : TRef sig ⟨S400000x128, .f32⟩) main_call0.call0.v0 main_call0.call0.v1 (cmpf .ogt),
    TRef.nullary main_call0.call0.cst_0 (constant S_ .f32 0x00000000#32),
    TRef.unary main_call0.call0.cst_0 main_call0.call0.v2 (broadcastInDim S400000x128 ![] bcast_S_S400000x128),
    TRef.binary (.of main_v22 : TRef sig ⟨S400000x128, .f32⟩) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S400000x128 ![] bcast_S_S400000x128),
    TRef.ternary main_call0.call0.v3 main_call0.call0.call0.v1 (.of main_v22 : TRef sig ⟨S400000x128, .f32⟩) main_call0.call0.call0.v2 select,
    TRef.unary main_call0.call0.call0.v2 main_call0.call0.v5 Host.expm1,
    TRef.unary main_call0.cst main_call0.call0.v6 id,
    TRef.unary main_call0.call0.v6 main_call0.call0.v7 (broadcastInDim S400000x128 ![] bcast_S_S400000x128),
    TRef.binary main_call0.call0.v7 main_call0.call0.v5 main_call0.call0.v8 mulf,
    TRef.ternary main_call0.call0.v1 (.of main_v22 : TRef sig ⟨S400000x128, .f32⟩) main_call0.call0.v8 main_call0.call0.call1.v0 select,
    TRef.nullary main_call0.cst_0 (constant S_ .f32 0x3F867D5F#32),
    TRef.unary main_call0.cst_0 main_call0.v1 (broadcastInDim S400000x128 ![] bcast_S_S400000x128),
    TRef.binary main_call0.v1 main_call0.call0.call1.v0 main_call0.v2 mulf ]

/-- The edge network's second linear layer. -/
abbrev opsB : List (HloOp τ sig (Elt F)) :=
  [ StableHlo.binary main_v23 main_arg6 main_v24 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    StableHlo.unary main_arg7 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S400000x128 ![0, 1] bcast_S1x128_S400000x128_0_1 : (⟨S1x128, .f32⟩ : BufTy).Contents (Elt F) → (⟨S400000x128, .f32⟩ : BufTy).Contents (Elt F)),
    StableHlo.binary main_v24 main_v26 main_v27 (addf : (⟨S400000x128, .f32⟩ : BufTy).Contents (Elt F) → (⟨S400000x128, .f32⟩ : BufTy).Contents (Elt F) → (⟨S400000x128, .f32⟩ : BufTy).Contents (Elt F)) ]

/-- The second SELU of the edge network. -/
abbrev opsS1 : List (HloOp τ sig (Elt F)) :=
  [ TRef.nullary main_call1.cst (constant S_ .f32 0x3FD62D7D#32),
    TRef.nullary main_call1.call0.cst (constant S_ .f32 0x00000000#32),
    TRef.unary main_call1.call0.cst main_call1.call0.v0 (broadcastInDim S400000x128 ![] bcast_S_S400000x128),
    TRef.binary (.of main_v27 : TRef sig ⟨S400000x128, .f32⟩) main_call1.call0.v0 main_call1.call0.v1 (cmpf .ogt),
    TRef.nullary main_call1.call0.cst_0 (constant S_ .f32 0x00000000#32),
    TRef.unary main_call1.call0.cst_0 main_call1.call0.v2 (broadcastInDim S400000x128 ![] bcast_S_S400000x128),
    TRef.binary (.of main_v27 : TRef sig ⟨S400000x128, .f32⟩) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S400000x128 ![] bcast_S_S400000x128),
    TRef.ternary main_call1.call0.v3 main_call1.call0.call0.v1 (.of main_v27 : TRef sig ⟨S400000x128, .f32⟩) main_call1.call0.call0.v2 select,
    TRef.unary main_call1.call0.call0.v2 main_call1.call0.v5 Host.expm1,
    TRef.unary main_call1.cst main_call1.call0.v6 id,
    TRef.unary main_call1.call0.v6 main_call1.call0.v7 (broadcastInDim S400000x128 ![] bcast_S_S400000x128),
    TRef.binary main_call1.call0.v7 main_call1.call0.v5 main_call1.call0.v8 mulf,
    TRef.ternary main_call1.call0.v1 (.of main_v27 : TRef sig ⟨S400000x128, .f32⟩) main_call1.call0.v8 main_call1.call0.call1.v0 select,
    TRef.nullary main_call1.cst_0 (constant S_ .f32 0x3F867D5F#32),
    TRef.unary main_call1.cst_0 main_call1.v1 (broadcastInDim S400000x128 ![] bcast_S_S400000x128),
    TRef.binary main_call1.v1 main_call1.call0.call1.v0 main_call1.v2 mulf ]

/-- The edge network's last linear layer and the scatter-mean of its rows over the column index. -/
abbrev opsC : List (HloOp τ sig (Elt F)) :=
  [ StableHlo.binary main_v28 main_arg8 main_v29 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    StableHlo.unary main_arg9 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S400000x128 ![0, 1] bcast_S1x128_S400000x128_0_1 : (⟨S1x128, .f32⟩ : BufTy).Contents (Elt F) → (⟨S400000x128, .f32⟩ : BufTy).Contents (Elt F)),
    StableHlo.binary main_v29 main_v31 main_v32 (addf : (⟨S400000x128, .f32⟩ : BufTy).Contents (Elt F) → (⟨S400000x128, .f32⟩ : BufTy).Contents (Elt F) → (⟨S400000x128, .f32⟩ : BufTy).Contents (Elt F)),
    StableHlo.nullary main_cst (constant S_ .f32 0x00000000#32),
    StableHlo.unary main_cst main_v33 (broadcastInDim S100000x128 ![] bcast_S_S100000x128 : (⟨S_, .f32⟩ : BufTy).Contents (Elt F) → (⟨S100000x128, .f32⟩ : BufTy).Contents (Elt F)),
    StableHlo.unary main_v3 main_v34 (broadcastInDim S400000x1 ![0] bcast_S400000_S400000x1_0 : (⟨S400000, .i32⟩ : BufTy).Contents (Elt F) → (⟨S400000x1, .i32⟩ : BufTy).Contents (Elt F)),
    StableHlo.ternary main_v33 main_v34 main_v32 main_v35 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_3 (constant S_ .f32 0x3F800000#32),
    StableHlo.unary main_cst_3 main_v36 (broadcastInDim S400000x1 ![] bcast_S_S400000x1 : (⟨S_, .f32⟩ : BufTy).Contents (Elt F) → (⟨S400000x1, .f32⟩ : BufTy).Contents (Elt F)),
    StableHlo.nullary main_cst_4 (constant S_ .f32 0x00000000#32),
    StableHlo.unary main_cst_4 main_v37 (broadcastInDim S100000x1 ![] bcast_S_S100000x1 : (⟨S_, .f32⟩ : BufTy).Contents (Elt F) → (⟨S100000x1, .f32⟩ : BufTy).Contents (Elt F)),
    StableHlo.unary main_v3 main_v38 (broadcastInDim S400000x1 ![0] bcast_S400000_S400000x1_0 : (⟨S400000, .i32⟩ : BufTy).Contents (Elt F) → (⟨S400000x1, .i32⟩ : BufTy).Contents (Elt F)),
    StableHlo.ternary main_v37 main_v38 main_v36 main_v39 ((fun x i u => Host.scatterAdd scatter_S100000x1_S400000x1_S400000x1_1_0_0_1 x i u) : (⟨S100000x1, .f32⟩ : BufTy).Contents (Elt F) → (⟨S400000x1, .i32⟩ : BufTy).Contents (Elt F) → (⟨S400000x1, .f32⟩ : BufTy).Contents (Elt F) → (⟨S100000x1, .f32⟩ : BufTy).Contents (Elt F)),
    StableHlo.nullary main_cst_5 (constant S_ .f32 0x3F800000#32),
    StableHlo.unary main_cst_5 main_v40 (broadcastInDim S100000x1 ![] bcast_S_S100000x1 : (⟨S_, .f32⟩ : BufTy).Contents (Elt F) → (⟨S100000x1, .f32⟩ : BufTy).Contents (Elt F)),
    StableHlo.binary main_v39 main_v40 main_v41 (maximumf : (⟨S100000x1, .f32⟩ : BufTy).Contents (Elt F) → (⟨S100000x1, .f32⟩ : BufTy).Contents (Elt F) → (⟨S100000x1, .f32⟩ : BufTy).Contents (Elt F)),
    StableHlo.unary main_v41 main_v42 (broadcastInDim S100000x128 ![0, 1] bcast_S100000x1_S100000x128_0_1 : (⟨S100000x1, .f32⟩ : BufTy).Contents (Elt F) → (⟨S100000x128, .f32⟩ : BufTy).Contents (Elt F)),
    StableHlo.binary main_v35 main_v42 main_v43 (Host.divf : (⟨S100000x128, .f32⟩ : BufTy).Contents (Elt F) → (⟨S100000x128, .f32⟩ : BufTy).Contents (Elt F) → (⟨S100000x128, .f32⟩ : BufTy).Contents (Elt F)) ]

/-- The concatenation of the mean with the node features and the node network's first linear layer. -/
abbrev opsN : List (HloOp τ sig (Elt F)) :=
  [ StableHlo.binary main_v43 main_arg1 main_v44 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v44 main_arg10 main_v45 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg11 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The first SELU of the node network. -/
abbrev opsS2 : List (HloOp τ sig (Elt F)) :=
  [ TRef.nullary main_call2.cst (constant S_ .f32 0x3FD62D7D#32),
    TRef.nullary main_call2.call0.cst (constant S_ .f32 0x00000000#32),
    TRef.unary main_call2.call0.cst main_call2.call0.v0 (broadcastInDim S100000x128 ![] bcast_S_S100000x128),
    TRef.binary (.of main_v48 : TRef sig ⟨S100000x128, .f32⟩) main_call2.call0.v0 main_call2.call0.v1 (cmpf .ogt),
    TRef.nullary main_call2.call0.cst_0 (constant S_ .f32 0x00000000#32),
    TRef.unary main_call2.call0.cst_0 main_call2.call0.v2 (broadcastInDim S100000x128 ![] bcast_S_S100000x128),
    TRef.binary (.of main_v48 : TRef sig ⟨S100000x128, .f32⟩) main_call2.call0.v2 main_call2.call0.v3 (cmpf .ogt),
    TRef.nullary main_call2.call0.cst_1 (constant S_ .f32 0x00000000#32),
    TRef.unary main_call2.call0.cst_1 main_call2.call0.call0.v0 id,
    TRef.unary main_call2.call0.call0.v0 main_call2.call0.call0.v1 (broadcastInDim S100000x128 ![] bcast_S_S100000x128),
    TRef.ternary main_call2.call0.v3 main_call2.call0.call0.v1 (.of main_v48 : TRef sig ⟨S100000x128, .f32⟩) main_call2.call0.call0.v2 select,
    TRef.unary main_call2.call0.call0.v2 main_call2.call0.v5 Host.expm1,
    TRef.unary main_call2.cst main_call2.call0.v6 id,
    TRef.unary main_call2.call0.v6 main_call2.call0.v7 (broadcastInDim S100000x128 ![] bcast_S_S100000x128),
    TRef.binary main_call2.call0.v7 main_call2.call0.v5 main_call2.call0.v8 mulf,
    TRef.ternary main_call2.call0.v1 (.of main_v48 : TRef sig ⟨S100000x128, .f32⟩) main_call2.call0.v8 main_call2.call0.call1.v0 select,
    TRef.nullary main_call2.cst_0 (constant S_ .f32 0x3F867D5F#32),
    TRef.unary main_call2.cst_0 main_call2.v1 (broadcastInDim S100000x128 ![] bcast_S_S100000x128),
    TRef.binary main_call2.v1 main_call2.call0.call1.v0 main_call2.v2 mulf ]

/-- The node network's second linear layer. -/
abbrev opsD : List (HloOp τ sig (Elt F)) :=
  [ StableHlo.binary main_v49 main_arg12 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v52 main_v53 (addf : (⟨S100000x128, .f32⟩ : BufTy).Contents (Elt F) → (⟨S100000x128, .f32⟩ : BufTy).Contents (Elt F) → (⟨S100000x128, .f32⟩ : BufTy).Contents (Elt F)) ]

/-- The second SELU of the node network. -/
abbrev opsS3 : List (HloOp τ sig (Elt F)) :=
  [ TRef.nullary main_call3.cst (constant S_ .f32 0x3FD62D7D#32),
    TRef.nullary main_call3.call0.cst (constant S_ .f32 0x00000000#32),
    TRef.unary main_call3.call0.cst main_call3.call0.v0 (broadcastInDim S100000x128 ![] bcast_S_S100000x128),
    TRef.binary (.of main_v53 : TRef sig ⟨S100000x128, .f32⟩) main_call3.call0.v0 main_call3.call0.v1 (cmpf .ogt),
    TRef.nullary main_call3.call0.cst_0 (constant S_ .f32 0x00000000#32),
    TRef.unary main_call3.call0.cst_0 main_call3.call0.v2 (broadcastInDim S100000x128 ![] bcast_S_S100000x128),
    TRef.binary (.of main_v53 : TRef sig ⟨S100000x128, .f32⟩) main_call3.call0.v2 main_call3.call0.v3 (cmpf .ogt),
    TRef.nullary main_call3.call0.cst_1 (constant S_ .f32 0x00000000#32),
    TRef.unary main_call3.call0.cst_1 main_call3.call0.call0.v0 id,
    TRef.unary main_call3.call0.call0.v0 main_call3.call0.call0.v1 (broadcastInDim S100000x128 ![] bcast_S_S100000x128),
    TRef.ternary main_call3.call0.v3 main_call3.call0.call0.v1 (.of main_v53 : TRef sig ⟨S100000x128, .f32⟩) main_call3.call0.call0.v2 select,
    TRef.unary main_call3.call0.call0.v2 main_call3.call0.v5 Host.expm1,
    TRef.unary main_call3.cst main_call3.call0.v6 id,
    TRef.unary main_call3.call0.v6 main_call3.call0.v7 (broadcastInDim S100000x128 ![] bcast_S_S100000x128),
    TRef.binary main_call3.call0.v7 main_call3.call0.v5 main_call3.call0.v8 mulf,
    TRef.ternary main_call3.call0.v1 (.of main_v53 : TRef sig ⟨S100000x128, .f32⟩) main_call3.call0.v8 main_call3.call0.call1.v0 select,
    TRef.nullary main_call3.cst_0 (constant S_ .f32 0x3F867D5F#32),
    TRef.unary main_call3.cst_0 main_call3.v1 (broadcastInDim S100000x128 ![] bcast_S_S100000x128),
    TRef.binary main_call3.v1 main_call3.call0.call1.v0 main_call3.v2 mulf ]

/-- The node network's last linear layer: the result. -/
abbrev opsE : List (HloOp τ sig (Elt F)) :=
  [ StableHlo.binary main_v54 main_arg14 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)) ]

/-- The program's 139 operations, in order. -/
abbrev ops : List (HloOp τ sig (Elt F)) :=
  opsA ++ (opsL ++ (opsS0 ++ (opsB ++ (opsS1 ++ (opsC ++ (opsN ++ (opsS2 ++ (opsD ++ (opsS3 ++ (opsE))))))))))

set_option maxRecDepth 8192 in
set_option maxHeartbeats 4000000 in
/-- The program is that straight line: the functions' definitions unfolded at their calls and the call records at
    their fields, both sides are one chain of host steps once sequencing is reassociated. -/
theorem main_eq (c : Dev nD) : main (F := F) c = seq ops := by
  simp only [main, main_part0, main_part1, fn_selu.body, fn_elu.body, fn_where.body, fn_where_0.body,
    fn_selu_1.body, fn_elu_2.body, fn_where_3.body, fn_where_4.body,
    ops, opsA, opsL, opsS0, opsB, opsS1, opsC, opsN, opsS2, opsD, opsS3, opsE, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsL_sub : (opsL : List (HloOp τ sig (Elt F))).Forall fun op => op.bufs ⊆ tcRefs τ sig :=
  ⟨nary_bufs_sub .., binary_bufs_sub .., unary_bufs_sub .., unary_bufs_sub .., binary_bufs_sub ..⟩
theorem opsS0_sub : (opsS0 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩
theorem opsB_sub : (opsB : List (HloOp τ sig (Elt F))).Forall fun op => op.bufs ⊆ tcRefs τ sig :=
  ⟨binary_bufs_sub .., unary_bufs_sub .., unary_bufs_sub .., binary_bufs_sub ..⟩
theorem opsS1_sub : (opsS1 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩
theorem opsC_sub : (opsC : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem opsN_sub : (opsN : List (HloOp τ sig (Elt F))).Forall fun op => op.bufs ⊆ tcRefs τ sig :=
  ⟨binary_bufs_sub .., binary_bufs_sub .., unary_bufs_sub .., unary_bufs_sub .., binary_bufs_sub ..⟩
theorem opsS2_sub : (opsS2 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩
theorem opsD_sub : (opsD : List (HloOp τ sig (Elt F))).Forall fun op => op.bufs ⊆ tcRefs τ sig :=
  ⟨binary_bufs_sub .., unary_bufs_sub .., unary_bufs_sub .., binary_bufs_sub ..⟩
theorem opsS3_sub : (opsS3 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩
theorem opsE_sub : (opsE : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp opsA_sub op h, List.forall_iff_forall_mem.mp opsL_sub op h, List.forall_iff_forall_mem.mp opsS0_sub op h, List.forall_iff_forall_mem.mp opsB_sub op h, List.forall_iff_forall_mem.mp opsS1_sub op h, List.forall_iff_forall_mem.mp opsC_sub op h, List.forall_iff_forall_mem.mp opsN_sub op h, List.forall_iff_forall_mem.mp opsS2_sub op h, List.forall_iff_forall_mem.mp opsD_sub op h, List.forall_iff_forall_mem.mp opsS3_sub op h, List.forall_iff_forall_mem.mp opsE_sub op h]

set_option maxRecDepth 8192 in
set_option maxHeartbeats 4000000 in
/-- From any memory with zero counters, every weakly fair execution of the program terminates, and every final
    state has each buffer at the fold of the operations' results over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRunRead.lean ====
/-
  What each stretch of the reference's straight line computes, from any buffer contents: a buffer the stretch does
  not write keeps its contents, and the stretch's last buffer holds the stage's value of the few buffers the
  stretch reads.  A SELU stretch runs inside typed references; where one operation's result is the next one's
  operand the two carriers cancel, and the composed term is the SELU of the stretch's operand.  A stretch ends
  before each concatenation, whose operands sit in a list of dependent pairs and are read off the contents
  the stretch before it leaves.
-/
import proofs.«170768_j69415261438105_1_alg».proof.Proof.RefRunOps
import proofs.«170768_j69415261438105_1_alg».proof.Proof.RefStages
import proofs.«170768_j69415261438105_1_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The buffers each stretch writes, and those it leaves -/

/-- An operation writes only its result buffer, which is in the stretch's list. -/
local macro "op_writes" : tactic =>
  `(tactic| (simp only [nullary_writes, unary_writes, binary_writes, ternary_writes, quaternary_writes, reshape_writes,
      binaryIndexed_writes, nary_writes, unaryIndexed_writes, Finset.singleton_subset_iff, List.mem_toFinset]
             exact List.mem_map_of_mem (by decide)))

section Keep
variable {F : FTy → Type} [FloatOps F]

/-- The buffers that stretch `opsA` writes. -/
abbrev opsA_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17]
set_option maxRecDepth 8192 in
theorem opsA_writes : (opsA : List (HloOp τ sig (Elt F))).Forall fun op =>
    op.writes ⊆ (opsA_W.map (Proc.devRef (τ := τ) .tc)).toFinset := by
  simp only [List.Forall]; exact ⟨by op_writes, by op_writes, by op_writes, by op_writes, by op_writes, by op_writes, by op_writes, by op_writes, by op_writes, by op_writes, by op_writes, by op_writes, by op_writes, by op_writes, by op_writes, by op_writes, by op_writes, by op_writes, by op_writes, by op_writes, by op_writes, by op_writes⟩
/-- A buffer that stretch `opsA` does not write keeps its contents through it. -/
theorem opsA_keep (W : Valuation τ sig (Elt F)) (r : Ref sig .tc) (h : r ∉ opsA_W) :
    after opsA W (Proc.devRef .tc r) = W (Proc.devRef .tc r) :=
  after_of_writes_sub opsA _ opsA_writes h

/-- The buffers that stretch `opsL` writes. -/
abbrev opsL_W : List (Ref sig .tc) := [main_v18, main_v19, main_v20, main_v21, main_v22]
set_option maxRecDepth 8192 in
theorem opsL_writes : (opsL : List (HloOp τ sig (Elt F))).Forall fun op =>
    op.writes ⊆ (opsL_W.map (Proc.devRef (τ := τ) .tc)).toFinset := by
  simp only [List.Forall]; exact ⟨by op_writes, by op_writes, by op_writes, by op_writes, by op_writes⟩
/-- A buffer that stretch `opsL` does not write keeps its contents through it. -/
theorem opsL_keep (W : Valuation τ sig (Elt F)) (r : Ref sig .tc) (h : r ∉ opsL_W) :
    after opsL W (Proc.devRef .tc r) = W (Proc.devRef .tc r) :=
  after_of_writes_sub opsL _ opsL_writes h

/-- The buffers that stretch `opsS0` writes. -/
abbrev opsS0_W : List (Ref sig .tc) := [main_call0_cst, main_call0_call0_cst, main_call0_call0_v0, main_call0_call0_v1, main_call0_call0_cst_0, main_call0_call0_v2, main_call0_call0_v3, main_call0_call0_cst_1, main_call0_call0_call0_v0, main_call0_call0_call0_v1, main_call0_call0_v4, main_call0_call0_v5, main_call0_call0_v6, main_call0_call0_v7, main_call0_call0_v8, main_call0_v0, main_call0_cst_0, main_call0_v1, main_v23]
set_option maxRecDepth 8192 in
theorem opsS0_writes : (opsS0 : List (HloOp τ sig (Elt F))).Forall fun op =>
    op.writes ⊆ (opsS0_W.map (Proc.devRef (τ := τ) .tc)).toFinset := by
  simp only [List.Forall]; exact ⟨by op_writes, by op_writes, by op_writes, by op_writes, by op_writes, by op_writes, by op_writes, by op_writes, by op_writes, by op_writes, by op_writes, by op_writes, by op_writes, by op_writes, by op_writes, by op_writes, by op_writes, by op_writes, by op_writes⟩
/-- A buffer that stretch `opsS0` does not write keeps its contents through it. -/
theorem opsS0_keep (W : Valuation τ sig (Elt F)) (r : Ref sig .tc) (h : r ∉ opsS0_W) :
    after opsS0 W (Proc.devRef .tc r) = W (Proc.devRef .tc r) :=
  after_of_writes_sub opsS0 _ opsS0_writes h

/-- The buffers that stretch `opsB` writes. -/
abbrev opsB_W : List (Ref sig .tc) := [main_v24, main_v25, main_v26, main_v27]
set_option maxRecDepth 8192 in
theorem opsB_writes : (opsB : List (HloOp τ sig (Elt F))).Forall fun op =>
    op.writes ⊆ (opsB_W.map (Proc.devRef (τ := τ) .tc)).toFinset := by
  simp only [List.Forall]; exact ⟨by op_writes, by op_writes, by op_writes, by op_writes⟩
/-- A buffer that stretch `opsB` does not write keeps its contents through it. -/
theorem opsB_keep (W : Valuation τ sig (Elt F)) (r : Ref sig .tc) (h : r ∉ opsB_W) :
    after opsB W (Proc.devRef .tc r) = W (Proc.devRef .tc r) :=
  after_of_writes_sub opsB _ opsB_writes h

/-- The buffers that stretch `opsS1` writes. -/
abbrev opsS1_W : List (Ref sig .tc) := [main_call1_cst, main_call1_call0_cst, main_call1_call0_v0, main_call1_call0_v1, main_call1_call0_cst_0, main_call1_call0_v2, main_call1_call0_v3, main_call1_call0_cst_1, main_call1_call0_call0_v0, main_call1_call0_call0_v1, main_call1_call0_v4, main_call1_call0_v5, main_call1_call0_v6, main_call1_call0_v7, main_call1_call0_v8, main_call1_v0, main_call1_cst_0, main_call1_v1, main_v28]
set_option maxRecDepth 8192 in
theorem opsS1_writes : (opsS1 : List (HloOp τ sig (Elt F))).Forall fun op =>
    op.writes ⊆ (opsS1_W.map (Proc.devRef (τ := τ) .tc)).toFinset := by
  simp only [List.Forall]; exact ⟨by op_writes, by op_writes, by op_writes, by op_writes, by op_writes, by op_writes, by op_writes, by op_writes, by op_writes, by op_writes, by op_writes, by op_writes, by op_writes, by op_writes, by op_writes, by op_writes, by op_writes, by op_writes, by op_writes⟩
/-- A buffer that stretch `opsS1` does not write keeps its contents through it. -/
theorem opsS1_keep (W : Valuation τ sig (Elt F)) (r : Ref sig .tc) (h : r ∉ opsS1_W) :
    after opsS1 W (Proc.devRef .tc r) = W (Proc.devRef .tc r) :=
  after_of_writes_sub opsS1 _ opsS1_writes h

/-- The buffers that stretch `opsC` writes. -/
abbrev opsC_W : List (Ref sig .tc) := [main_v29, main_v30, main_v31, main_v32, main_cst, main_v33, main_v34, main_v35, main_cst_3, main_v36, main_cst_4, main_v37, main_v38, main_v39, main_cst_5, main_v40, main_v41, main_v42, main_v43]
set_option maxRecDepth 8192 in
theorem opsC_writes : (opsC : List (HloOp τ sig (Elt F))).Forall fun op =>
    op.writes ⊆ (opsC_W.map (Proc.devRef (τ := τ) .tc)).toFinset := by
  simp only [List.Forall]; exact ⟨by op_writes, by op_writes, by op_writes, by op_writes, by op_writes, by op_writes, by op_writes, by op_writes, by op_writes, by op_writes, by op_writes, by op_writes, by op_writes, by op_writes, by op_writes, by op_writes, by op_writes, by op_writes, by op_writes⟩
/-- A buffer that stretch `opsC` does not write keeps its contents through it. -/
theorem opsC_keep (W : Valuation τ sig (Elt F)) (r : Ref sig .tc) (h : r ∉ opsC_W) :
    after opsC W (Proc.devRef .tc r) = W (Proc.devRef .tc r) :=
  after_of_writes_sub opsC _ opsC_writes h

/-- The buffers that stretch `opsN` writes. -/
abbrev opsN_W : List (Ref sig .tc) := [main_v44, main_v45, main_v46, main_v47, main_v48]
set_option maxRecDepth 8192 in
theorem opsN_writes : (opsN : List (HloOp τ sig (Elt F))).Forall fun op =>
    op.writes ⊆ (opsN_W.map (Proc.devRef (τ := τ) .tc)).toFinset := by
  simp only [List.Forall]; exact ⟨by op_writes, by op_writes, by op_writes, by op_writes, by op_writes⟩
/-- A buffer that stretch `opsN` does not write keeps its contents through it. -/
theorem opsN_keep (W : Valuation τ sig (Elt F)) (r : Ref sig .tc) (h : r ∉ opsN_W) :
    after opsN W (Proc.devRef .tc r) = W (Proc.devRef .tc r) :=
  after_of_writes_sub opsN _ opsN_writes h

/-- The buffers that stretch `opsS2` writes. -/
abbrev opsS2_W : List (Ref sig .tc) := [main_call2_cst, main_call2_call0_cst, main_call2_call0_v0, main_call2_call0_v1, main_call2_call0_cst_0, main_call2_call0_v2, main_call2_call0_v3, main_call2_call0_cst_1, main_call2_call0_call0_v0, main_call2_call0_call0_v1, main_call2_call0_v4, main_call2_call0_v5, main_call2_call0_v6, main_call2_call0_v7, main_call2_call0_v8, main_call2_v0, main_call2_cst_0, main_call2_v1, main_v49]
set_option maxRecDepth 8192 in
theorem opsS2_writes : (opsS2 : List (HloOp τ sig (Elt F))).Forall fun op =>
    op.writes ⊆ (opsS2_W.map (Proc.devRef (τ := τ) .tc)).toFinset := by
  simp only [List.Forall]; exact ⟨by op_writes, by op_writes, by op_writes, by op_writes, by op_writes, by op_writes, by op_writes, by op_writes, by op_writes, by op_writes, by op_writes, by op_writes, by op_writes, by op_writes, by op_writes, by op_writes, by op_writes, by op_writes, by op_writes⟩
/-- A buffer that stretch `opsS2` does not write keeps its contents through it. -/
theorem opsS2_keep (W : Valuation τ sig (Elt F)) (r : Ref sig .tc) (h : r ∉ opsS2_W) :
    after opsS2 W (Proc.devRef .tc r) = W (Proc.devRef .tc r) :=
  after_of_writes_sub opsS2 _ opsS2_writes h

/-- The buffers that stretch `opsD` writes. -/
abbrev opsD_W : List (Ref sig .tc) := [main_v50, main_v51, main_v52, main_v53]
set_option maxRecDepth 8192 in
theorem opsD_writes : (opsD : List (HloOp τ sig (Elt F))).Forall fun op =>
    op.writes ⊆ (opsD_W.map (Proc.devRef (τ := τ) .tc)).toFinset := by
  simp only [List.Forall]; exact ⟨by op_writes, by op_writes, by op_writes, by op_writes⟩
/-- A buffer that stretch `opsD` does not write keeps its contents through it. -/
theorem opsD_keep (W : Valuation τ sig (Elt F)) (r : Ref sig .tc) (h : r ∉ opsD_W) :
    after opsD W (Proc.devRef .tc r) = W (Proc.devRef .tc r) :=
  after_of_writes_sub opsD _ opsD_writes h

/-- The buffers that stretch `opsS3` writes. -/
abbrev opsS3_W : List (Ref sig .tc) := [main_call3_cst, main_call3_call0_cst, main_call3_call0_v0, main_call3_call0_v1, main_call3_call0_cst_0, main_call3_call0_v2, main_call3_call0_v3, main_call3_call0_cst_1, main_call3_call0_call0_v0, main_call3_call0_call0_v1, main_call3_call0_v4, main_call3_call0_v5, main_call3_call0_v6, main_call3_call0_v7, main_call3_call0_v8, main_call3_v0, main_call3_cst_0, main_call3_v1, main_v54]
set_option maxRecDepth 8192 in
theorem opsS3_writes : (opsS3 : List (HloOp τ sig (Elt F))).Forall fun op =>
    op.writes ⊆ (opsS3_W.map (Proc.devRef (τ := τ) .tc)).toFinset := by
  simp only [List.Forall]; exact ⟨by op_writes, by op_writes, by op_writes, by op_writes, by op_writes, by op_writes, by op_writes, by op_writes, by op_writes, by op_writes, by op_writes, by op_writes, by op_writes, by op_writes, by op_writes, by op_writes, by op_writes, by op_writes, by op_writes⟩
/-- A buffer that stretch `opsS3` does not write keeps its contents through it. -/
theorem opsS3_keep (W : Valuation τ sig (Elt F)) (r : Ref sig .tc) (h : r ∉ opsS3_W) :
    after opsS3 W (Proc.devRef .tc r) = W (Proc.devRef .tc r) :=
  after_of_writes_sub opsS3 _ opsS3_writes h

/-- The buffers that stretch `opsE` writes. -/
abbrev opsE_W : List (Ref sig .tc) := [main_v55, main_v56, main_v57, main_v58]
set_option maxRecDepth 8192 in
theorem opsE_writes : (opsE : List (HloOp τ sig (Elt F))).Forall fun op =>
    op.writes ⊆ (opsE_W.map (Proc.devRef (τ := τ) .tc)).toFinset := by
  simp only [List.Forall]; exact ⟨by op_writes, by op_writes, by op_writes, by op_writes⟩
/-- A buffer that stretch `opsE` does not write keeps its contents through it. -/
theorem opsE_keep (W : Valuation τ sig (Elt F)) (r : Ref sig .tc) (h : r ∉ opsE_W) :
    after opsE W (Proc.devRef .tc r) = W (Proc.devRef .tc r) :=
  after_of_writes_sub opsE _ opsE_writes h

end Keep

/-! ## What each stretch computes -/

attribute [local irreducible] Host.gather Host.scatterAdd concatenate

set_option maxRecDepth 8192 in
set_option maxHeartbeats 2000000 in
/-- After the first stretch the column-index row is the second row of the index array. -/
theorem opsA_v3 (W : Valuation τ sig (Elt Ideal)) {ai : IVec S2x400000 32}
    (h0 : (W (main_arg3 : DevRef τ sig) : IVec S2x400000 32) = ai) :
    after (opsA (F := Ideal)) W (main_v3 : DevRef τ sig)
      = RefValue.idxRow1 ai := by
  subst h0
  after_results_simp
  unfold RefValue.idxRow1
  rfl

set_option maxRecDepth 8192 in
set_option maxHeartbeats 2000000 in
/-- After the first stretch: the rows of the first node array gathered by the wrapped first index row. -/
theorem opsA_v10 (W : Valuation τ sig (Elt Ideal)) {e1 : FVec Ideal S400000x128 .f32} {ai : IVec S2x400000 32}
    (h0 : (W (main_arg0 : DevRef τ sig) : FVec Ideal S400000x128 .f32) = e1) (h1 : (W (main_arg3 : DevRef τ sig) : IVec S2x400000 32) = ai) :
    after (opsA (F := Ideal)) W (main_v10 : DevRef τ sig)
      = RefValue.e1g e1 ai := by
  subst h0 h1
  after_results_simp
  unfold RefValue.e1g RefValue.wrapIdx RefValue.idxRow0
  rfl

set_option maxRecDepth 8192 in
set_option maxHeartbeats 2000000 in
/-- After the first stretch: the rows of the second node array gathered by the wrapped second index row. -/
theorem opsA_v17 (W : Valuation τ sig (Elt Ideal)) {e2 : FVec Ideal S100000x128 .f32} {ai : IVec S2x400000 32}
    (h0 : (W (main_arg1 : DevRef τ sig) : FVec Ideal S100000x128 .f32) = e2) (h1 : (W (main_arg3 : DevRef τ sig) : IVec S2x400000 32) = ai) :
    after (opsA (F := Ideal)) W (main_v17 : DevRef τ sig)
      = RefValue.e2g e2 ai := by
  subst h0 h1
  after_results_simp
  unfold RefValue.e2g RefValue.wrapIdx RefValue.idxRow1
  rfl

set_option maxRecDepth 8192 in
/-- The edge network's first pre-activation: the three edge-feature arrays joined along the columns, times the first weight, plus the bias. -/
theorem opsL_v22 (W : Valuation τ sig (Elt Ideal)) {a12 : FVec Ideal S400000x8 .f32} {u : FVec Ideal S400000x128 .f32} {v : FVec Ideal S400000x128 .f32} {w : FVec Ideal S264x128 .f32} {b : FVec Ideal S128 .f32}
    (h0 : (W (main_arg2 : DevRef τ sig) : FVec Ideal S400000x8 .f32) = a12) (h1 : (W (main_v10 : DevRef τ sig) : FVec Ideal S400000x128 .f32) = u) (h2 : (W (main_v17 : DevRef τ sig) : FVec Ideal S400000x128 .f32) = v) (h3 : (W (main_arg4 : DevRef τ sig) : FVec Ideal S264x128 .f32) = w) (h4 : (W (main_arg5 : DevRef τ sig) : FVec Ideal S128 .f32) = b) :
    after (opsL (F := Ideal)) W (main_v22 : DevRef τ sig)
      = addf (Host.dotGeneral (φ₁ := .f32) (φ₂ := .f32) dot_S400000x264_S264x128_S400000x128_1_0_0_1_n_n none (concatenate S400000x264 1 [⟨S400000x8, a12⟩, ⟨S400000x128, u⟩, ⟨S400000x128, v⟩] concatenates_S400000x8_S400000x128_S400000x128_S400000x264_d1) w) (RefValue.biasA b) := by
  subst h0 h1 h2 h3 h4
  after_results_simp
  unfold RefValue.biasA
  rfl

set_option maxRecDepth 8192 in
set_option maxHeartbeats 2000000 in
/-- The first SELU stretch: its result buffer holds the SELU of its operand buffer. -/
theorem opsS0_v23 (W : Valuation τ sig (Elt Ideal)) {x : FVec Ideal S400000x128 .f32}
    (h0 : (W (main_v22 : DevRef τ sig) : FVec Ideal S400000x128 .f32) = x) :
    after (opsS0 (F := Ideal)) W (main_v23 : DevRef τ sig)
      = RefValue.seluA x := by
  subst h0
  after_results_simp
  simp only [Cert.LibTypedRef.ofBuf_toBuf]
  unfold RefValue.seluA
  rfl

set_option maxRecDepth 8192 in
/-- The edge network's second linear layer. -/
theorem opsB_v27 (W : Valuation τ sig (Elt Ideal)) {x : FVec Ideal S400000x128 .f32} {w : FVec Ideal S128x128 .f32} {b : FVec Ideal S128 .f32}
    (h0 : (W (main_v23 : DevRef τ sig) : FVec Ideal S400000x128 .f32) = x) (h1 : (W (main_arg6 : DevRef τ sig) : FVec Ideal S128x128 .f32) = w) (h2 : (W (main_arg7 : DevRef τ sig) : FVec Ideal S128 .f32) = b) :
    after (opsB (F := Ideal)) W (main_v27 : DevRef τ sig)
      = addf (Host.dotGeneral (φ₁ := .f32) (φ₂ := .f32) dot_S400000x128_S128x128_S400000x128_1_0_0_1_n_n none x w) (RefValue.biasA b) := by
  subst h0 h1 h2
  after_results_simp
  unfold RefValue.biasA
  rfl

set_option maxRecDepth 8192 in
set_option maxHeartbeats 2000000 in
/-- The second SELU stretch. -/
theorem opsS1_v28 (W : Valuation τ sig (Elt Ideal)) {x : FVec Ideal S400000x128 .f32}
    (h0 : (W (main_v27 : DevRef τ sig) : FVec Ideal S400000x128 .f32) = x) :
    after (opsS1 (F := Ideal)) W (main_v28 : DevRef τ sig)
      = RefValue.seluA x := by
  subst h0
  after_results_simp
  simp only [Cert.LibTypedRef.ofBuf_toBuf]
  unfold RefValue.seluA
  rfl

set_option maxRecDepth 8192 in
set_option maxHeartbeats 4000000 in
/-- The edge network's last linear layer and the scatter-mean of its rows over the column index. -/
theorem opsC_v43 (W : Valuation τ sig (Elt Ideal)) {r : IVec S400000 32} {x : FVec Ideal S400000x128 .f32} {w : FVec Ideal S128x128 .f32} {b : FVec Ideal S128 .f32}
    (h0 : (W (main_v3 : DevRef τ sig) : IVec S400000 32) = r) (h1 : (W (main_v28 : DevRef τ sig) : FVec Ideal S400000x128 .f32) = x) (h2 : (W (main_arg8 : DevRef τ sig) : FVec Ideal S128x128 .f32) = w) (h3 : (W (main_arg9 : DevRef τ sig) : FVec Ideal S128 .f32) = b) :
    after (opsC (F := Ideal)) W (main_v43 : DevRef τ sig)
      = RefValue.aggr r (addf (Host.dotGeneral (φ₁ := .f32) (φ₂ := .f32) dot_S400000x128_S128x128_S400000x128_1_0_0_1_n_n none x w) (RefValue.biasA b)) := by
  subst h0 h1 h2 h3
  after_results_simp
  unfold RefValue.aggr RefValue.colIdx RefValue.biasA
  rfl

set_option maxRecDepth 8192 in
/-- The node network's first pre-activation: the mean joined with the node features along the columns, times the first weight, plus the bias. -/
theorem opsN_v48 (W : Valuation τ sig (Elt Ideal)) {g : FVec Ideal S100000x128 .f32} {e2 : FVec Ideal S100000x128 .f32} {w : FVec Ideal S256x128 .f32} {b : FVec Ideal S128 .f32}
    (h0 : (W (main_v43 : DevRef τ sig) : FVec Ideal S100000x128 .f32) = g) (h1 : (W (main_arg1 : DevRef τ sig) : FVec Ideal S100000x128 .f32) = e2) (h2 : (W (main_arg10 : DevRef τ sig) : FVec Ideal S256x128 .f32) = w) (h3 : (W (main_arg11 : DevRef τ sig) : FVec Ideal S128 .f32) = b) :
    after (opsN (F := Ideal)) W (main_v48 : DevRef τ sig)
      = addf (Host.dotGeneral (φ₁ := .f32) (φ₂ := .f32) dot_S100000x256_S256x128_S100000x128_1_0_0_1_n_n none (concatenate S100000x256 1 [⟨S100000x128, g⟩, ⟨S100000x128, e2⟩] concatenates_S100000x128_S100000x128_S100000x256_d1) w) (RefValue.biasE b) := by
  subst h0 h1 h2 h3
  after_results_simp
  unfold RefValue.biasE
  rfl

set_option maxRecDepth 8192 in
set_option maxHeartbeats 2000000 in
/-- The third SELU stretch. -/
theorem opsS2_v49 (W : Valuation τ sig (Elt Ideal)) {x : FVec Ideal S100000x128 .f32}
    (h0 : (W (main_v48 : DevRef τ sig) : FVec Ideal S100000x128 .f32) = x) :
    after (opsS2 (F := Ideal)) W (main_v49 : DevRef τ sig)
      = RefValue.seluE x := by
  subst h0
  after_results_simp
  simp only [Cert.LibTypedRef.ofBuf_toBuf]
  unfold RefValue.seluE
  rfl

set_option maxRecDepth 8192 in
/-- The node network's second linear layer. -/
theorem opsD_v53 (W : Valuation τ sig (Elt Ideal)) {x : FVec Ideal S100000x128 .f32} {w : FVec Ideal S128x128 .f32} {b : FVec Ideal S128 .f32}
    (h0 : (W (main_v49 : DevRef τ sig) : FVec Ideal S100000x128 .f32) = x) (h1 : (W (main_arg12 : DevRef τ sig) : FVec Ideal S128x128 .f32) = w) (h2 : (W (main_arg13 : DevRef τ sig) : FVec Ideal S128 .f32) = b) :
    after (opsD (F := Ideal)) W (main_v53 : DevRef τ sig)
      = addf (Host.dotGeneral (φ₁ := .f32) (φ₂ := .f32) dot_S100000x128_S128x128_S100000x128_1_0_0_1_n_n none x w) (RefValue.biasE b) := by
  subst h0 h1 h2
  after_results_simp
  unfold RefValue.biasE
  rfl

set_option maxRecDepth 8192 in
set_option maxHeartbeats 2000000 in
/-- The fourth SELU stretch. -/
theorem opsS3_v54 (W : Valuation τ sig (Elt Ideal)) {x : FVec Ideal S100000x128 .f32}
    (h0 : (W (main_v53 : DevRef τ sig) : FVec Ideal S100000x128 .f32) = x) :
    after (opsS3 (F := Ideal)) W (main_v54 : DevRef τ sig)
      = RefValue.seluE x := by
  subst h0
  after_results_simp
  simp only [Cert.LibTypedRef.ofBuf_toBuf]
  unfold RefValue.seluE
  rfl

set_option maxRecDepth 8192 in
/-- The node network's last linear layer. -/
theorem opsE_v58 (W : Valuation τ sig (Elt Ideal)) {x : FVec Ideal S100000x128 .f32} {w : FVec Ideal S128x128 .f32} {b : FVec Ideal S128 .f32}
    (h0 : (W (main_v54 : DevRef τ sig) : FVec Ideal S100000x128 .f32) = x) (h1 : (W (main_arg14 : DevRef τ sig) : FVec Ideal S128x128 .f32) = w) (h2 : (W (main_arg15 : DevRef τ sig) : FVec Ideal S128 .f32) = b) :
    after (opsE (F := Ideal)) W (main_v58 : DevRef τ sig)
      = addf (Host.dotGeneral (φ₁ := .f32) (φ₂ := .f32) dot_S100000x128_S128x128_S100000x128_1_0_0_1_n_n none x w) (RefValue.biasE b) := by
  subst h0 h1 h2
  after_results_simp
  unfold RefValue.biasE
  rfl

end Cert.ReferenceIdeal.RefRun

end
-- ==== Proof.RefRun.lean ====
/-
  The reference's run read back.  The contents after each stretch of the straight line are named in turn; each
  stretch's value lemma, fed the contents the stretches before it leave at the few buffers it reads (an argument
  buffer is written by no stretch and keeps its launch contents), gives the next stage of the reference's value.
  The last stage is the reference's result as a function of its sixteen arguments, and the run of the straight
  line delivers it, with the arguments unchanged, at the end of every weakly fair execution.
-/
import proofs.«170768_j69415261438105_1_alg».proof.ReferenceIdeal
import proofs.«170768_j69415261438105_1_alg».proof.Proof.Gen.ReferenceIdeal
import proofs.«170768_j69415261438105_1_alg».proof.Proof.RefStages
import proofs.«170768_j69415261438105_1_alg».proof.Proof.LibTypedRef
import proofs.«170768_j69415261438105_1_alg».proof.Proof.RefRunOps
import proofs.«170768_j69415261438105_1_alg».proof.Proof.RefRunRead
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The contents after each stretch -/

/-- The buffer contents after the first 1 stretch. -/
def val1 (V : Valuation τ sig (Elt Ideal)) : Valuation τ sig (Elt Ideal) := after opsA (V)
/-- The buffer contents after the first 2 stretches. -/
def val2 (V : Valuation τ sig (Elt Ideal)) : Valuation τ sig (Elt Ideal) := after opsL (val1 V)
/-- The buffer contents after the first 3 stretches. -/
def val3 (V : Valuation τ sig (Elt Ideal)) : Valuation τ sig (Elt Ideal) := after opsS0 (val2 V)
/-- The buffer contents after the first 4 stretches. -/
def val4 (V : Valuation τ sig (Elt Ideal)) : Valuation τ sig (Elt Ideal) := after opsB (val3 V)
/-- The buffer contents after the first 5 stretches. -/
def val5 (V : Valuation τ sig (Elt Ideal)) : Valuation τ sig (Elt Ideal) := after opsS1 (val4 V)
/-- The buffer contents after the first 6 stretches. -/
def val6 (V : Valuation τ sig (Elt Ideal)) : Valuation τ sig (Elt Ideal) := after opsC (val5 V)
/-- The buffer contents after the first 7 stretches. -/
def val7 (V : Valuation τ sig (Elt Ideal)) : Valuation τ sig (Elt Ideal) := after opsN (val6 V)
/-- The buffer contents after the first 8 stretches. -/
def val8 (V : Valuation τ sig (Elt Ideal)) : Valuation τ sig (Elt Ideal) := after opsS2 (val7 V)
/-- The buffer contents after the first 9 stretches. -/
def val9 (V : Valuation τ sig (Elt Ideal)) : Valuation τ sig (Elt Ideal) := after opsD (val8 V)
/-- The buffer contents after the first 10 stretches. -/
def val10 (V : Valuation τ sig (Elt Ideal)) : Valuation τ sig (Elt Ideal) := after opsS3 (val9 V)
/-- The buffer contents after the first 11 stretches. -/
def val11 (V : Valuation τ sig (Elt Ideal)) : Valuation τ sig (Elt Ideal) := after opsE (val10 V)

/-- The whole line is its stretches in order. -/
theorem after_ops (V : Valuation τ sig (Elt Ideal)) : after (ops (F := Ideal)) V = val11 V := by
  simp only [ops, after_append]
  rfl

/-! ## A buffer no stretch so far writes keeps its launch contents -/

theorem val1_keep (V : Valuation τ sig (Elt Ideal)) (r : Ref sig .tc) (h1 : r ∉ opsA_W) :
    val1 V (Proc.devRef .tc r) = V (Proc.devRef .tc r) :=
  opsA_keep V r h1
theorem val2_keep (V : Valuation τ sig (Elt Ideal)) (r : Ref sig .tc) (h1 : r ∉ opsA_W) (h2 : r ∉ opsL_W) :
    val2 V (Proc.devRef .tc r) = V (Proc.devRef .tc r) :=
  (opsL_keep (val1 V) r h2).trans (val1_keep V r h1)
theorem val3_keep (V : Valuation τ sig (Elt Ideal)) (r : Ref sig .tc) (h1 : r ∉ opsA_W) (h2 : r ∉ opsL_W) (h3 : r ∉ opsS0_W) :
    val3 V (Proc.devRef .tc r) = V (Proc.devRef .tc r) :=
  (opsS0_keep (val2 V) r h3).trans (val2_keep V r h1 h2)
theorem val4_keep (V : Valuation τ sig (Elt Ideal)) (r : Ref sig .tc) (h1 : r ∉ opsA_W) (h2 : r ∉ opsL_W) (h3 : r ∉ opsS0_W) (h4 : r ∉ opsB_W) :
    val4 V (Proc.devRef .tc r) = V (Proc.devRef .tc r) :=
  (opsB_keep (val3 V) r h4).trans (val3_keep V r h1 h2 h3)
theorem val5_keep (V : Valuation τ sig (Elt Ideal)) (r : Ref sig .tc) (h1 : r ∉ opsA_W) (h2 : r ∉ opsL_W) (h3 : r ∉ opsS0_W) (h4 : r ∉ opsB_W) (h5 : r ∉ opsS1_W) :
    val5 V (Proc.devRef .tc r) = V (Proc.devRef .tc r) :=
  (opsS1_keep (val4 V) r h5).trans (val4_keep V r h1 h2 h3 h4)
theorem val6_keep (V : Valuation τ sig (Elt Ideal)) (r : Ref sig .tc) (h1 : r ∉ opsA_W) (h2 : r ∉ opsL_W) (h3 : r ∉ opsS0_W) (h4 : r ∉ opsB_W) (h5 : r ∉ opsS1_W) (h6 : r ∉ opsC_W) :
    val6 V (Proc.devRef .tc r) = V (Proc.devRef .tc r) :=
  (opsC_keep (val5 V) r h6).trans (val5_keep V r h1 h2 h3 h4 h5)
theorem val7_keep (V : Valuation τ sig (Elt Ideal)) (r : Ref sig .tc) (h1 : r ∉ opsA_W) (h2 : r ∉ opsL_W) (h3 : r ∉ opsS0_W) (h4 : r ∉ opsB_W) (h5 : r ∉ opsS1_W) (h6 : r ∉ opsC_W) (h7 : r ∉ opsN_W) :
    val7 V (Proc.devRef .tc r) = V (Proc.devRef .tc r) :=
  (opsN_keep (val6 V) r h7).trans (val6_keep V r h1 h2 h3 h4 h5 h6)
theorem val8_keep (V : Valuation τ sig (Elt Ideal)) (r : Ref sig .tc) (h1 : r ∉ opsA_W) (h2 : r ∉ opsL_W) (h3 : r ∉ opsS0_W) (h4 : r ∉ opsB_W) (h5 : r ∉ opsS1_W) (h6 : r ∉ opsC_W) (h7 : r ∉ opsN_W) (h8 : r ∉ opsS2_W) :
    val8 V (Proc.devRef .tc r) = V (Proc.devRef .tc r) :=
  (opsS2_keep (val7 V) r h8).trans (val7_keep V r h1 h2 h3 h4 h5 h6 h7)
theorem val9_keep (V : Valuation τ sig (Elt Ideal)) (r : Ref sig .tc) (h1 : r ∉ opsA_W) (h2 : r ∉ opsL_W) (h3 : r ∉ opsS0_W) (h4 : r ∉ opsB_W) (h5 : r ∉ opsS1_W) (h6 : r ∉ opsC_W) (h7 : r ∉ opsN_W) (h8 : r ∉ opsS2_W) (h9 : r ∉ opsD_W) :
    val9 V (Proc.devRef .tc r) = V (Proc.devRef .tc r) :=
  (opsD_keep (val8 V) r h9).trans (val8_keep V r h1 h2 h3 h4 h5 h6 h7 h8)
theorem val10_keep (V : Valuation τ sig (Elt Ideal)) (r : Ref sig .tc) (h1 : r ∉ opsA_W) (h2 : r ∉ opsL_W) (h3 : r ∉ opsS0_W) (h4 : r ∉ opsB_W) (h5 : r ∉ opsS1_W) (h6 : r ∉ opsC_W) (h7 : r ∉ opsN_W) (h8 : r ∉ opsS2_W) (h9 : r ∉ opsD_W) (h10 : r ∉ opsS3_W) :
    val10 V (Proc.devRef .tc r) = V (Proc.devRef .tc r) :=
  (opsS3_keep (val9 V) r h10).trans (val9_keep V r h1 h2 h3 h4 h5 h6 h7 h8 h9)
theorem val11_keep (V : Valuation τ sig (Elt Ideal)) (r : Ref sig .tc) (h1 : r ∉ opsA_W) (h2 : r ∉ opsL_W) (h3 : r ∉ opsS0_W) (h4 : r ∉ opsB_W) (h5 : r ∉ opsS1_W) (h6 : r ∉ opsC_W) (h7 : r ∉ opsN_W) (h8 : r ∉ opsS2_W) (h9 : r ∉ opsD_W) (h10 : r ∉ opsS3_W) (h11 : r ∉ opsE_W) :
    val11 V (Proc.devRef .tc r) = V (Proc.devRef .tc r) :=
  (opsE_keep (val10 V) r h11).trans (val10_keep V r h1 h2 h3 h4 h5 h6 h7 h8 h9 h10)

/-! ## The stages of the reference's value over the launch contents -/

/-- The edge network's first pre-activation. -/
def p0 (V : Valuation τ sig (Elt Ideal)) : FVec Ideal S400000x128 .f32 :=
  addf (Host.dotGeneral (φ₁ := .f32) (φ₂ := .f32) dot_S400000x264_S264x128_S400000x128_1_0_0_1_n_n none (concatenate S400000x264 1 [⟨S400000x8, (V (main_arg2 : DevRef τ sig) : FVec Ideal S400000x8 .f32)⟩,
      ⟨S400000x128, RefValue.e1g (V (main_arg0 : DevRef τ sig) : FVec Ideal S400000x128 .f32) (V (main_arg3 : DevRef τ sig) : IVec S2x400000 32)⟩,
      ⟨S400000x128, RefValue.e2g (V (main_arg1 : DevRef τ sig) : FVec Ideal S100000x128 .f32) (V (main_arg3 : DevRef τ sig) : IVec S2x400000 32)⟩]
    concatenates_S400000x8_S400000x128_S400000x128_S400000x264_d1) (V (main_arg4 : DevRef τ sig) : FVec Ideal S264x128 .f32)) (RefValue.biasA (V (main_arg5 : DevRef τ sig) : FVec Ideal S128 .f32))
/-- The edge network's second pre-activation. -/
def p1 (V : Valuation τ sig (Elt Ideal)) : FVec Ideal S400000x128 .f32 :=
  addf (Host.dotGeneral (φ₁ := .f32) (φ₂ := .f32) dot_S400000x128_S128x128_S400000x128_1_0_0_1_n_n none (RefValue.seluA (p0 V)) (V (main_arg6 : DevRef τ sig) : FVec Ideal S128x128 .f32)) (RefValue.biasA (V (main_arg7 : DevRef τ sig) : FVec Ideal S128 .f32))
/-- The scatter-mean of the edge network's output over the column index. -/
def g0 (V : Valuation τ sig (Elt Ideal)) : FVec Ideal S100000x128 .f32 :=
  RefValue.aggr (RefValue.idxRow1 (V (main_arg3 : DevRef τ sig) : IVec S2x400000 32))
    (addf (Host.dotGeneral (φ₁ := .f32) (φ₂ := .f32) dot_S400000x128_S128x128_S400000x128_1_0_0_1_n_n none (RefValue.seluA (p1 V)) (V (main_arg8 : DevRef τ sig) : FVec Ideal S128x128 .f32)) (RefValue.biasA (V (main_arg9 : DevRef τ sig) : FVec Ideal S128 .f32)))
/-- The node network's first pre-activation. -/
def q0 (V : Valuation τ sig (Elt Ideal)) : FVec Ideal S100000x128 .f32 :=
  addf (Host.dotGeneral (φ₁ := .f32) (φ₂ := .f32) dot_S100000x256_S256x128_S100000x128_1_0_0_1_n_n none (concatenate S100000x256 1 [⟨S100000x128, g0 V⟩, ⟨S100000x128, (V (main_arg1 : DevRef τ sig) : FVec Ideal S100000x128 .f32)⟩]
    concatenates_S100000x128_S100000x128_S100000x256_d1) (V (main_arg10 : DevRef τ sig) : FVec Ideal S256x128 .f32)) (RefValue.biasE (V (main_arg11 : DevRef τ sig) : FVec Ideal S128 .f32))
/-- The node network's second pre-activation. -/
def q1 (V : Valuation τ sig (Elt Ideal)) : FVec Ideal S100000x128 .f32 :=
  addf (Host.dotGeneral (φ₁ := .f32) (φ₂ := .f32) dot_S100000x128_S128x128_S100000x128_1_0_0_1_n_n none (RefValue.seluE (q0 V)) (V (main_arg12 : DevRef τ sig) : FVec Ideal S128x128 .f32)) (RefValue.biasE (V (main_arg13 : DevRef τ sig) : FVec Ideal S128 .f32))
/-- The node network's output. -/
def q2 (V : Valuation τ sig (Elt Ideal)) : FVec Ideal S100000x128 .f32 :=
  addf (Host.dotGeneral (φ₁ := .f32) (φ₂ := .f32) dot_S100000x128_S128x128_S100000x128_1_0_0_1_n_n none (RefValue.seluE (q1 V)) (V (main_arg14 : DevRef τ sig) : FVec Ideal S128x128 .f32)) (RefValue.biasE (V (main_arg15 : DevRef τ sig) : FVec Ideal S128 .f32))

/-- The last stage is the reference's result as a function of its sixteen arguments: the stages unfolded on both sides. -/
theorem q2_eq (V : Valuation τ sig (Elt Ideal)) :
    q2 V = RefValue.refOut (V (main_arg0 : DevRef τ sig) : FVec Ideal S400000x128 .f32)
      (V (main_arg1 : DevRef τ sig) : FVec Ideal S100000x128 .f32)
      (V (main_arg2 : DevRef τ sig) : FVec Ideal S400000x8 .f32)
      (V (main_arg3 : DevRef τ sig) : IVec S2x400000 32)
      (V (main_arg4 : DevRef τ sig) : FVec Ideal S264x128 .f32)
      (V (main_arg5 : DevRef τ sig) : FVec Ideal S128 .f32)
      (V (main_arg6 : DevRef τ sig) : FVec Ideal S128x128 .f32)
      (V (main_arg7 : DevRef τ sig) : FVec Ideal S128 .f32)
      (V (main_arg8 : DevRef τ sig) : FVec Ideal S128x128 .f32)
      (V (main_arg9 : DevRef τ sig) : FVec Ideal S128 .f32)
      (V (main_arg10 : DevRef τ sig) : FVec Ideal S256x128 .f32)
      (V (main_arg11 : DevRef τ sig) : FVec Ideal S128 .f32)
      (V (main_arg12 : DevRef τ sig) : FVec Ideal S128x128 .f32)
      (V (main_arg13 : DevRef τ sig) : FVec Ideal S128 .f32)
      (V (main_arg14 : DevRef τ sig) : FVec Ideal S128x128 .f32)
      (V (main_arg15 : DevRef τ sig) : FVec Ideal S128 .f32) := by
  unfold q2 q1 q0 g0 p1 p0 RefValue.refOut RefValue.nodeOut RefValue.edgeOut
  rfl

/-! ## The contents of the stage buffers after their stretches -/

theorem val1_v3 (V : Valuation τ sig (Elt Ideal)) : val1 V (main_v3 : DevRef τ sig) = RefValue.idxRow1 (V (main_arg3 : DevRef τ sig) : IVec S2x400000 32) :=
  opsA_v3 V rfl
theorem val1_v10 (V : Valuation τ sig (Elt Ideal)) : val1 V (main_v10 : DevRef τ sig) = RefValue.e1g (V (main_arg0 : DevRef τ sig) : FVec Ideal S400000x128 .f32) (V (main_arg3 : DevRef τ sig) : IVec S2x400000 32) :=
  opsA_v10 V rfl rfl
theorem val1_v17 (V : Valuation τ sig (Elt Ideal)) : val1 V (main_v17 : DevRef τ sig) = RefValue.e2g (V (main_arg1 : DevRef τ sig) : FVec Ideal S100000x128 .f32) (V (main_arg3 : DevRef τ sig) : IVec S2x400000 32) :=
  opsA_v17 V rfl rfl
theorem val2_v22 (V : Valuation τ sig (Elt Ideal)) : val2 V (main_v22 : DevRef τ sig) = p0 V :=
  opsL_v22 (val1 V) (val1_keep V main_arg2 (by decide)) (val1_v10 V) (val1_v17 V) (val1_keep V main_arg4 (by decide)) (val1_keep V main_arg5 (by decide))
theorem val3_v23 (V : Valuation τ sig (Elt Ideal)) : val3 V (main_v23 : DevRef τ sig) = RefValue.seluA (p0 V) :=
  opsS0_v23 (val2 V) (val2_v22 V)
theorem val4_v27 (V : Valuation τ sig (Elt Ideal)) : val4 V (main_v27 : DevRef τ sig) = p1 V :=
  opsB_v27 (val3 V) (val3_v23 V) (val3_keep V main_arg6 (by decide) (by decide) (by decide)) (val3_keep V main_arg7 (by decide) (by decide) (by decide))
theorem val5_v28 (V : Valuation τ sig (Elt Ideal)) : val5 V (main_v28 : DevRef τ sig) = RefValue.seluA (p1 V) :=
  opsS1_v28 (val4 V) (val4_v27 V)
/-- The column-index row, written by the first stretch, is left by the four after it. -/
theorem val5_v3 (V : Valuation τ sig (Elt Ideal)) : val5 V (main_v3 : DevRef τ sig) = RefValue.idxRow1 (V (main_arg3 : DevRef τ sig) : IVec S2x400000 32) :=
  (opsS1_keep (val4 V) main_v3 (by decide)).trans ((opsB_keep (val3 V) main_v3 (by decide)).trans
    ((opsS0_keep (val2 V) main_v3 (by decide)).trans ((opsL_keep (val1 V) main_v3 (by decide)).trans (val1_v3 V))))
theorem val6_v43 (V : Valuation τ sig (Elt Ideal)) : val6 V (main_v43 : DevRef τ sig) = g0 V :=
  opsC_v43 (val5 V) (val5_v3 V) (val5_v28 V) (val5_keep V main_arg8 (by decide) (by decide) (by decide) (by decide) (by decide)) (val5_keep V main_arg9 (by decide) (by decide) (by decide) (by decide) (by decide))
theorem val7_v48 (V : Valuation τ sig (Elt Ideal)) : val7 V (main_v48 : DevRef τ sig) = q0 V :=
  opsN_v48 (val6 V) (val6_v43 V) (val6_keep V main_arg1 (by decide) (by decide) (by decide) (by decide) (by decide) (by decide)) (val6_keep V main_arg10 (by decide) (by decide) (by decide) (by decide) (by decide) (by decide)) (val6_keep V main_arg11 (by decide) (by decide) (by decide) (by decide) (by decide) (by decide))
theorem val8_v49 (V : Valuation τ sig (Elt Ideal)) : val8 V (main_v49 : DevRef τ sig) = RefValue.seluE (q0 V) :=
  opsS2_v49 (val7 V) (val7_v48 V)
theorem val9_v53 (V : Valuation τ sig (Elt Ideal)) : val9 V (main_v53 : DevRef τ sig) = q1 V :=
  opsD_v53 (val8 V) (val8_v49 V) (val8_keep V main_arg12 (by decide) (by decide) (by decide) (by decide) (by decide) (by decide) (by decide) (by decide)) (val8_keep V main_arg13 (by decide) (by decide) (by decide) (by decide) (by decide) (by decide) (by decide) (by decide))
theorem val10_v54 (V : Valuation τ sig (Elt Ideal)) : val10 V (main_v54 : DevRef τ sig) = RefValue.seluE (q1 V) :=
  opsS3_v54 (val9 V) (val9_v53 V)
theorem val11_v58 (V : Valuation τ sig (Elt Ideal)) : val11 V (main_v58 : DevRef τ sig) = q2 V :=
  opsE_v58 (val10 V) (val10_v54 V) (val10_keep V main_arg14 (by decide) (by decide) (by decide) (by decide) (by decide) (by decide) (by decide) (by decide) (by decide) (by decide)) (val10_keep V main_arg15 (by decide) (by decide) (by decide) (by decide) (by decide) (by decide) (by decide) (by decide) (by decide) (by decide))

/-! ## The line's result and its arguments, from any contents -/

/-- The result buffer after the whole line: the reference's value of the arguments' contents. -/
theorem out_eq (V : Valuation τ sig (Elt Ideal)) :
    after (ops (F := Ideal)) V (main_v58 : DevRef τ sig)
      = RefValue.refOut (V (main_arg0 : DevRef τ sig) : FVec Ideal S400000x128 .f32)
      (V (main_arg1 : DevRef τ sig) : FVec Ideal S100000x128 .f32)
      (V (main_arg2 : DevRef τ sig) : FVec Ideal S400000x8 .f32)
      (V (main_arg3 : DevRef τ sig) : IVec S2x400000 32)
      (V (main_arg4 : DevRef τ sig) : FVec Ideal S264x128 .f32)
      (V (main_arg5 : DevRef τ sig) : FVec Ideal S128 .f32)
      (V (main_arg6 : DevRef τ sig) : FVec Ideal S128x128 .f32)
      (V (main_arg7 : DevRef τ sig) : FVec Ideal S128 .f32)
      (V (main_arg8 : DevRef τ sig) : FVec Ideal S128x128 .f32)
      (V (main_arg9 : DevRef τ sig) : FVec Ideal S128 .f32)
      (V (main_arg10 : DevRef τ sig) : FVec Ideal S256x128 .f32)
      (V (main_arg11 : DevRef τ sig) : FVec Ideal S128 .f32)
      (V (main_arg12 : DevRef τ sig) : FVec Ideal S128x128 .f32)
      (V (main_arg13 : DevRef τ sig) : FVec Ideal S128 .f32)
      (V (main_arg14 : DevRef τ sig) : FVec Ideal S128x128 .f32)
      (V (main_arg15 : DevRef τ sig) : FVec Ideal S128 .f32) :=
  (congrFun (after_ops V) _).trans ((val11_v58 V).trans (q2_eq V))

/-- An argument buffer after the whole line: its contents before it. -/
theorem arg_eq (V : Valuation τ sig (Elt Ideal)) (r : Ref sig .tc) (h1 : r ∉ opsA_W) (h2 : r ∉ opsL_W) (h3 : r ∉ opsS0_W) (h4 : r ∉ opsB_W) (h5 : r ∉ opsS1_W) (h6 : r ∉ opsC_W) (h7 : r ∉ opsN_W) (h8 : r ∉ opsS2_W) (h9 : r ∉ opsD_W) (h10 : r ∉ opsS3_W) (h11 : r ∉ opsE_W) :
    after (ops (F := Ideal)) V (Proc.devRef .tc r) = V (Proc.devRef .tc r) :=
  (congrFun (after_ops V) _).trans (val11_keep V r h1 h2 h3 h4 h5 h6 h7 h8 h9 h10 h11)

/-! ## The run -/

/-- From any memory with zero counters, every weakly fair execution of the reference terminates with the result
    buffer at the reference's value of the arguments' launch contents and the sixteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v58)
          = RefValue.refOut (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_v58).trans (out_eq (launchContents m c)),
      (h c main_arg0).trans (arg_eq (launchContents m c) main_arg0 (by decide) (by decide) (by decide) (by decide) (by decide) (by decide) (by decide) (by decide) (by decide) (by decide) (by decide)),
      (h c main_arg1).trans (arg_eq (launchContents m c) main_arg1 (by decide) (by decide) (by decide) (by decide) (by decide) (by decide) (by decide) (by decide) (by decide) (by decide) (by decide)),
      (h c main_arg2).trans (arg_eq (launchContents m c) main_arg2 (by decide) (by decide) (by decide) (by decide) (by decide) (by decide) (by decide) (by decide) (by decide) (by decide) (by decide)),
      (h c main_arg3).trans (arg_eq (launchContents m c) main_arg3 (by decide) (by decide) (by decide) (by decide) (by decide) (by decide) (by decide) (by decide) (by decide) (by decide) (by decide)),
      (h c main_arg4).trans (arg_eq (launchContents m c) main_arg4 (by decide) (by decide) (by decide) (by decide) (by decide) (by decide) (by decide) (by decide) (by decide) (by decide) (by decide)),
      (h c main_arg5).trans (arg_eq (launchContents m c) main_arg5 (by decide) (by decide) (by decide) (by decide) (by decide) (by decide) (by decide) (by decide) (by decide) (by decide) (by decide)),
      (h c main_arg6).trans (arg_eq (launchContents m c) main_arg6 (by decide) (by decide) (by decide) (by decide) (by decide) (by decide) (by decide) (by decide) (by decide) (by decide) (by decide)),
      (h c main_arg7).trans (arg_eq (launchContents m c) main_arg7 (by decide) (by decide) (by decide) (by decide) (by decide) (by decide) (by decide) (by decide) (by decide) (by decide) (by decide)),
      (h c main_arg8).trans (arg_eq (launchContents m c) main_arg8 (by decide) (by decide) (by decide) (by decide) (by decide) (by decide) (by decide) (by decide) (by decide) (by decide) (by decide)),
      (h c main_arg9).trans (arg_eq (launchContents m c) main_arg9 (by decide) (by decide) (by decide) (by decide) (by decide) (by decide) (by decide) (by decide) (by decide) (by decide) (by decide)),
      (h c main_arg10).trans (arg_eq (launchContents m c) main_arg10 (by decide) (by decide) (by decide) (by decide) (by decide) (by decide) (by decide) (by decide) (by decide) (by decide) (by decide)),
      (h c main_arg11).trans (arg_eq (launchContents m c) main_arg11 (by decide) (by decide) (by decide) (by decide) (by decide) (by decide) (by decide) (by decide) (by decide) (by decide) (by decide)),
      (h c main_arg12).trans (arg_eq (launchContents m c) main_arg12 (by decide) (by decide) (by decide) (by decide) (by decide) (by decide) (by decide) (by decide) (by decide) (by decide) (by decide)),
      (h c main_arg13).trans (arg_eq (launchContents m c) main_arg13 (by decide) (by decide) (by decide) (by decide) (by decide) (by decide) (by decide) (by decide) (by decide) (by decide) (by decide)),
      (h c main_arg14).trans (arg_eq (launchContents m c) main_arg14 (by decide) (by decide) (by decide) (by decide) (by decide) (by decide) (by decide) (by decide) (by decide) (by decide) (by decide)),
      (h c main_arg15).trans (arg_eq (launchContents m c) main_arg15 (by decide) (by decide) (by decide) (by decide) (by decide) (by decide) (by decide) (by decide) (by decide) (by decide) (by decide))⟩)
    (run_all m ρ)

end Cert.ReferenceIdeal.RefRun

end
-- ==== Proof.Bridge.lean ====
/-
  The two programs' host stages are the same functions: each pair below is one composition of the same host
  operations over the same literal shapes and dimension numbers, spelled once in each program's vocabulary.
-/
import proofs.«170768_j69415261438105_1_alg».proof.Proof.RefStages
import proofs.«170768_j69415261438105_1_alg».proof.Proof.KStages

noncomputable section

namespace Cert.Bridge

open Idealize.ShloMosaic

theorem idxRow0_eq (ai : IVec Cert.KernelIdeal.S2x400000 32) :
    Cert.ReferenceIdeal.RefValue.idxRow0 ai = Cert.KernelIdeal.KValue.idxRow0 ai := rfl

theorem idxRow1_eq (ai : IVec Cert.KernelIdeal.S2x400000 32) :
    Cert.ReferenceIdeal.RefValue.idxRow1 ai = Cert.KernelIdeal.KValue.idxRow1 ai := rfl

theorem wrapIdx_eq (n : BitVec 32) (r : IVec Cert.KernelIdeal.S400000 32) :
    Cert.ReferenceIdeal.RefValue.wrapIdx n r = Cert.KernelIdeal.KValue.wrapIdx n r := rfl

theorem colIdx_eq (r : IVec Cert.KernelIdeal.S400000 32) :
    Cert.ReferenceIdeal.RefValue.colIdx r = Cert.KernelIdeal.KValue.colIdx r := rfl

theorem e1g_eq (e1 : FVec Ideal Cert.KernelIdeal.S400000x128 .f32) (ai : IVec Cert.KernelIdeal.S2x400000 32) :
    Cert.ReferenceIdeal.RefValue.e1g e1 ai = Cert.KernelIdeal.KValue.e1g e1 ai := by
  unfold Cert.ReferenceIdeal.RefValue.e1g Cert.KernelIdeal.KValue.e1g
  rw [idxRow0_eq, wrapIdx_eq]
  rfl

theorem e2g_eq (e2 : FVec Ideal Cert.KernelIdeal.S100000x128 .f32) (ai : IVec Cert.KernelIdeal.S2x400000 32) :
    Cert.ReferenceIdeal.RefValue.e2g e2 ai = Cert.KernelIdeal.KValue.e2g e2 ai := by
  unfold Cert.ReferenceIdeal.RefValue.e2g Cert.KernelIdeal.KValue.e2g
  rw [idxRow1_eq, wrapIdx_eq]
  rfl

theorem aggr_eq (r : IVec Cert.KernelIdeal.S400000 32) (x : FVec Ideal Cert.KernelIdeal.S400000x128 .f32) :
    Cert.ReferenceIdeal.RefValue.aggr r x = Cert.KernelIdeal.KValue.aggr r x := by
  unfold Cert.ReferenceIdeal.RefValue.aggr Cert.KernelIdeal.KValue.aggr
  rw [colIdx_eq]
  rfl

end Cert.Bridge

end
-- ==== Proof.MlpAlgebra.lean ====
/-
  Facts about the extended reals that both readings of the network use, with no program in sight: the binary32
  words of one and zero as extended reals; SELU written with its guarded inner branch (the exponential is taken of
  "0 if x > 0 else x", and one is subtracted as the number 1) is the specification's SELU; and a sum over the 264
  (or 256) entries of a joined row is the sum of the partial sums over its blocks of 8, 128 and 128 (or 128 and 128)
  entries, which turns a linear layer over a joined row into the specification's first layer.
-/
import proofs.«170768_j69415261438105_1_alg».proof.Proof.MlpSpec
import Idealize.ShloMosaic.PureOps.Ideal.Laws
import Idealize.ShloMosaic.Lib.IdealHost
import Mathlib.Algebra.BigOperators.Fin

noncomputable section

open scoped BigOperators

namespace Cert.MlpSpec

open Idealize.ShloMosaic Idealize.ShloMosaic.ValueIdx

/-- The binary32 word 0x3F800000 is the extended real one. -/
theorem ofBits_one : Ideal.ofBits .f32 0x3F800000#32 = 1 := Ideal.ofBits_one_f32

/-- The binary32 word 0x00000000 is the extended real zero. -/
theorem ofBits_zero : Ideal.ofBits .f32 0x00000000#32 = 0 := Ideal.ofBits_zero_f32

theorem one_eq : one = 1 := Ideal.ofBits_one_f32
theorem zero_eq : zero = 0 := Ideal.ofBits_zero_f32

/-- The comparison "x > zero" as a bit is 1 or 0. -/
theorem cmp_ogt_cases (x y : EReal) : Ideal.cmp .ogt x y = 1#1 ∨ Ideal.cmp .ogt x y = 0#1 := by
  unfold Ideal.cmp
  by_cases h : y < x
  · left; simp [h]
  · right; simp [h]

/-- SELU with the guarded inner branch: where x > 0 both spellings return scale · x; elsewhere the inner
    "0 if x > 0 else x" is x itself, and subtracting the number 1 is subtracting the word of one. -/
theorem selu_guarded (x : EReal) :
    scale * Scalar.select (Ideal.cmp .ogt x zero) x
      (alpha * (Ideal.exp (Scalar.select (Ideal.cmp .ogt x zero) zero x) - 1)) = selu x := by
  unfold selu
  rcases cmp_ogt_cases x zero with h | h
  · rw [h, select_one, select_one]
  · rw [h, select_zero, select_zero, select_zero, one_eq]

/-- A sum over Fin 264 is the sum of its partial sums over the blocks 0–7, 8–135 and 136–263. -/
theorem sum_split3 (f : Fin 264 → EReal) :
    ∑ k, f k = (∑ k : Fin 8, f ⟨k.val, by omega⟩) + (∑ k : Fin 128, f ⟨8 + k.val, by omega⟩)
      + (∑ k : Fin 128, f ⟨136 + k.val, by omega⟩) := by
  refine (Fin.sum_univ_add (a := 136) (b := 128) (f : Fin (136 + 128) → EReal)).trans ?_
  refine congrArg (· + _) ?_
  exact Fin.sum_univ_add (a := 8) (b := 128) (fun k : Fin (8 + 128) => f (Fin.castAdd 128 k))

/-- A sum over Fin 256 is the sum of its partial sums over the blocks 0–127 and 128–255. -/
theorem sum_split2 (f : Fin 256 → EReal) :
    ∑ k, f k = (∑ k : Fin 128, f ⟨k.val, by omega⟩) + (∑ k : Fin 128, f ⟨128 + k.val, by omega⟩) :=
  Fin.sum_univ_add (a := 128) (b := 128) (f : Fin (128 + 128) → EReal)

/-- A linear layer over a row joined from blocks a (8 entries), u and v (128 entries each) is the edge network's
    first layer with the weight matrix's rows 0–7, 8–135 and 136–263 as its three blocks. -/
theorem lin_joined3 (row : Fin 264 → EReal) (a : Fin 8 → EReal) (u v : Fin 128 → EReal)
    (W : Fin 264 → Fin 128 → EReal) (b : Fin 128 → EReal) (q : Fin 128)
    (h0 : ∀ k : Fin 8, row ⟨k.val, by omega⟩ = a k)
    (h1 : ∀ k : Fin 128, row ⟨8 + k.val, by omega⟩ = u k)
    (h2 : ∀ k : Fin 128, row ⟨136 + k.val, by omega⟩ = v k) :
    lin row W b q = edgePre a u v (fun k j => W ⟨k.val, by omega⟩ j) (fun k j => W ⟨8 + k.val, by omega⟩ j)
      (fun k j => W ⟨136 + k.val, by omega⟩ j) b q := by
  unfold lin edgePre
  rw [sum_split3]
  simp only [h0, h1, h2]

/-- A linear layer over a row joined from blocks g and e (128 entries each) is the node network's first layer with
    the weight matrix's rows 0–127 and 128–255 as its two blocks. -/
theorem lin_joined2 (row : Fin 256 → EReal) (g e : Fin 128 → EReal)
    (W : Fin 256 → Fin 128 → EReal) (b : Fin 128 → EReal) (q : Fin 128)
    (h0 : ∀ k : Fin 128, row ⟨k.val, by omega⟩ = g k)
    (h1 : ∀ k : Fin 128, row ⟨128 + k.val, by omega⟩ = e k) :
    lin row W b q = nodePre g e (fun k j => W ⟨k.val, by omega⟩ j) (fun k j => W ⟨128 + k.val, by omega⟩ j) b q := by
  unfold lin nodePre
  rw [sum_split2]
  simp only [h0, h1]

end Cert.MlpSpec

end
-- ==== Proof.LibDotPlain.lean ====
/-
  A host matrix product read at an entry, on the extended reals.

  For the plain dimension numbers (contract the left operand's axis 1 with the right operand's axis 0, no batch
  axes: an M x K matrix times a K x N matrix), the entry (p, q) of the product is the sum over k of
  left (p, k) times right (k, q), whatever precision and schedule the operation names.  No program is imported:
  the dimension record is a variable, constrained only by its six lists.
-/
import Idealize.ShloMosaic.PureOps.Ideal.Laws
import Idealize.ShloMosaic.Lib.ValueIdx

noncomputable section

namespace Cert.LibDotPlain

open Idealize.ShloMosaic Idealize.ShloMosaic.ValueIdx

/-- Entry (p, q) of an M x K by K x N host product is the sum over the contracted axis. -/
theorem dotGeneral_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (prec : Option ContractPrecision)
    (l : FVec Ideal ⟨2, ![M, K]⟩ φ₁) (r : FVec Ideal ⟨2, ![K, N]⟩ φ₂) (p : Fin M) (q : Fin N) :
    Host.dotGeneral D prec l r (ix2 p q) = ∑ k : Fin K, l (ix2 p k) * r (ix2 k q) := by
  obtain ⟨lc, rc, ln, rn, lb, rb, wf⟩ := D
  dsimp only at h1 h2 h3 h4 h5 h6
  subst h1 h2 h3 h4 h5 h6
  refine (Ideal.dotGeneral_apply _ prec _ l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibDotPlain

end
-- ==== Proof.LibConcat3.lean ====
/-
  Three arrays joined along one axis, read at an index built from coordinates.

  Three matrices with the same number of rows laid side by side (joined along axis 1): column j' of the joined matrix
  falls in exactly one piece, and reads that piece at the same row and at the column j' less the widths of the pieces
  before it. Likewise three vectors laid end to end (joined along axis 0).
-/
import Idealize.ShloMosaic.Lib.Pipeline.Value
import Idealize.ShloMosaic.Lib.ValueIdx

namespace LibConcat3

open Idealize.ShloMosaic Idealize.ShloMosaic.ValueIdx

variable {α : Type}

/-- Column j' of the joined matrix in piece 0: it reads piece 0 at the same row and at column j' less the widths before it. -/
theorem concat3_cols_0 {a b0 b1 b2 c : ℕ} (x₀ : (⟨2, ![a, b0]⟩ : Shape).Idx → α) (x₁ : (⟨2, ![a, b1]⟩ : Shape).Idx → α)
    (x₂ : (⟨2, ![a, b2]⟩ : Shape).Idx → α)
    (h : Shape.Concatenates [⟨2, ![a, b0]⟩, ⟨2, ![a, b1]⟩, ⟨2, ![a, b2]⟩] ⟨2, ![a, c]⟩ (1 : Fin 2))
    (p : Fin a) (j : Fin b0) (j' : Fin c) (hj : j'.val = 0 + j.val) :
    concatenate ⟨2, ![a, c]⟩ (1 : Fin 2) [⟨⟨2, ![a, b0]⟩, x₀⟩, ⟨⟨2, ![a, b1]⟩, x₁⟩, ⟨⟨2, ![a, b2]⟩, x₂⟩] h (ix2 p j') = x₀ (ix2 p j) := by
  refine concatenate_apply_piece (t := ⟨2, ![a, c]⟩) (1 : Fin 2)
    [⟨⟨2, ![a, b0]⟩, x₀⟩, ⟨⟨2, ![a, b1]⟩, x₁⟩, ⟨⟨2, ![a, b2]⟩, x₂⟩]
    h (ix2 p j') 0 (by show 0 < 3; omega) ⟨2, ![a, b0]⟩ x₀ rfl rfl (0) rfl (ix2 p j)
    (fun bb hb => ?_) ?_
  · match bb with
    | ⟨0, _⟩ => rfl
    | ⟨1, _⟩ => exact absurd rfl hb
  · show 0 + j.val = j'.val
    omega

/-- Column j' of the joined matrix in piece 1: it reads piece 1 at the same row and at column j' less the widths before it. -/
theorem concat3_cols_1 {a b0 b1 b2 c : ℕ} (x₀ : (⟨2, ![a, b0]⟩ : Shape).Idx → α) (x₁ : (⟨2, ![a, b1]⟩ : Shape).Idx → α)
    (x₂ : (⟨2, ![a, b2]⟩ : Shape).Idx → α)
    (h : Shape.Concatenates [⟨2, ![a, b0]⟩, ⟨2, ![a, b1]⟩, ⟨2, ![a, b2]⟩] ⟨2, ![a, c]⟩ (1 : Fin 2))
    (p : Fin a) (j : Fin b1) (j' : Fin c) (hj : j'.val = b0 + j.val) :
    concatenate ⟨2, ![a, c]⟩ (1 : Fin 2) [⟨⟨2, ![a, b0]⟩, x₀⟩, ⟨⟨2, ![a, b1]⟩, x₁⟩, ⟨⟨2, ![a, b2]⟩, x₂⟩] h (ix2 p j') = x₁ (ix2 p j) := by
  refine concatenate_apply_piece (t := ⟨2, ![a, c]⟩) (1 : Fin 2)
    [⟨⟨2, ![a, b0]⟩, x₀⟩, ⟨⟨2, ![a, b1]⟩, x₁⟩, ⟨⟨2, ![a, b2]⟩, x₂⟩]
    h (ix2 p j') 1 (by show 1 < 3; omega) ⟨2, ![a, b1]⟩ x₁ rfl rfl (b0 + 0) rfl (ix2 p j)
    (fun bb hb => ?_) ?_
  · match bb with
    | ⟨0, _⟩ => rfl
    | ⟨1, _⟩ => exact absurd rfl hb
  · show b0 + 0 + j.val = j'.val
    omega

/-- Column j' of the joined matrix in piece 2: it reads piece 2 at the same row and at column j' less the widths before it. -/
theorem concat3_cols_2 {a b0 b1 b2 c : ℕ} (x₀ : (⟨2, ![a, b0]⟩ : Shape).Idx → α) (x₁ : (⟨2, ![a, b1]⟩ : Shape).Idx → α)
    (x₂ : (⟨2, ![a, b2]⟩ : Shape).Idx → α)
    (h : Shape.Concatenates [⟨2, ![a, b0]⟩, ⟨2, ![a, b1]⟩, ⟨2, ![a, b2]⟩] ⟨2, ![a, c]⟩ (1 : Fin 2))
    (p : Fin a) (j : Fin b2) (j' : Fin c) (hj : j'.val = b0 + b1 + j.val) :
    concatenate ⟨2, ![a, c]⟩ (1 : Fin 2) [⟨⟨2, ![a, b0]⟩, x₀⟩, ⟨⟨2, ![a, b1]⟩, x₁⟩, ⟨⟨2, ![a, b2]⟩, x₂⟩] h (ix2 p j') = x₂ (ix2 p j) := by
  refine concatenate_apply_piece (t := ⟨2, ![a, c]⟩) (1 : Fin 2)
    [⟨⟨2, ![a, b0]⟩, x₀⟩, ⟨⟨2, ![a, b1]⟩, x₁⟩, ⟨⟨2, ![a, b2]⟩, x₂⟩]
    h (ix2 p j') 2 (by show 2 < 3; omega) ⟨2, ![a, b2]⟩ x₂ rfl rfl (b0 + (b1 + 0)) rfl (ix2 p j)
    (fun bb hb => ?_) ?_
  · match bb with
    | ⟨0, _⟩ => rfl
    | ⟨1, _⟩ => exact absurd rfl hb
  · show b0 + (b1 + 0) + j.val = j'.val
    omega

/-- Entry j' of the joined vector in piece 0: it reads piece 0 at j' less the lengths before it. -/
theorem concat3_vec_0 {n0 n1 n2 c : ℕ} (x₀ : (⟨1, ![n0]⟩ : Shape).Idx → α) (x₁ : (⟨1, ![n1]⟩ : Shape).Idx → α)
    (x₂ : (⟨1, ![n2]⟩ : Shape).Idx → α)
    (h : Shape.Concatenates [⟨1, ![n0]⟩, ⟨1, ![n1]⟩, ⟨1, ![n2]⟩] ⟨1, ![c]⟩ (0 : Fin 1))
    (j : Fin n0) (j' : Fin c) (hj : j'.val = 0 + j.val) :
    concatenate ⟨1, ![c]⟩ (0 : Fin 1) [⟨⟨1, ![n0]⟩, x₀⟩, ⟨⟨1, ![n1]⟩, x₁⟩, ⟨⟨1, ![n2]⟩, x₂⟩] h (ix1 j') = x₀ (ix1 j) := by
  refine concatenate_apply_piece (t := ⟨1, ![c]⟩) (0 : Fin 1)
    [⟨⟨1, ![n0]⟩, x₀⟩, ⟨⟨1, ![n1]⟩, x₁⟩, ⟨⟨1, ![n2]⟩, x₂⟩]
    h (ix1 j') 0 (by show 0 < 3; omega) ⟨1, ![n0]⟩ x₀ rfl rfl (0) rfl (ix1 j)
    (fun bb hb => ?_) ?_
  · match bb with
    | ⟨0, _⟩ => exact absurd rfl hb
  · show 0 + j.val = j'.val
    omega

/-- Entry j' of the joined vector in piece 1: it reads piece 1 at j' less the lengths before it. -/
theorem concat3_vec_1 {n0 n1 n2 c : ℕ} (x₀ : (⟨1, ![n0]⟩ : Shape).Idx → α) (x₁ : (⟨1, ![n1]⟩ : Shape).Idx → α)
    (x₂ : (⟨1, ![n2]⟩ : Shape).Idx → α)
    (h : Shape.Concatenates [⟨1, ![n0]⟩, ⟨1, ![n1]⟩, ⟨1, ![n2]⟩] ⟨1, ![c]⟩ (0 : Fin 1))
    (j : Fin n1) (j' : Fin c) (hj : j'.val = n0 + j.val) :
    concatenate ⟨1, ![c]⟩ (0 : Fin 1) [⟨⟨1, ![n0]⟩, x₀⟩, ⟨⟨1, ![n1]⟩, x₁⟩, ⟨⟨1, ![n2]⟩, x₂⟩] h (ix1 j') = x₁ (ix1 j) := by
  refine concatenate_apply_piece (t := ⟨1, ![c]⟩) (0 : Fin 1)
    [⟨⟨1, ![n0]⟩, x₀⟩, ⟨⟨1, ![n1]⟩, x₁⟩, ⟨⟨1, ![n2]⟩, x₂⟩]
    h (ix1 j') 1 (by show 1 < 3; omega) ⟨1, ![n1]⟩ x₁ rfl rfl (n0 + 0) rfl (ix1 j)
    (fun bb hb => ?_) ?_
  · match bb with
    | ⟨0, _⟩ => exact absurd rfl hb
  · show n0 + 0 + j.val = j'.val
    omega

/-- Entry j' of the joined vector in piece 2: it reads piece 2 at j' less the lengths before it. -/
theorem concat3_vec_2 {n0 n1 n2 c : ℕ} (x₀ : (⟨1, ![n0]⟩ : Shape).Idx → α) (x₁ : (⟨1, ![n1]⟩ : Shape).Idx → α)
    (x₂ : (⟨1, ![n2]⟩ : Shape).Idx → α)
    (h : Shape.Concatenates [⟨1, ![n0]⟩, ⟨1, ![n1]⟩, ⟨1, ![n2]⟩] ⟨1, ![c]⟩ (0 : Fin 1))
    (j : Fin n2) (j' : Fin c) (hj : j'.val = n0 + n1 + j.val) :
    concatenate ⟨1, ![c]⟩ (0 : Fin 1) [⟨⟨1, ![n0]⟩, x₀⟩, ⟨⟨1, ![n1]⟩, x₁⟩, ⟨⟨1, ![n2]⟩, x₂⟩] h (ix1 j') = x₂ (ix1 j) := by
  refine concatenate_apply_piece (t := ⟨1, ![c]⟩) (0 : Fin 1)
    [⟨⟨1, ![n0]⟩, x₀⟩, ⟨⟨1, ![n1]⟩, x₁⟩, ⟨⟨1, ![n2]⟩, x₂⟩]
    h (ix1 j') 2 (by show 2 < 3; omega) ⟨1, ![n2]⟩ x₂ rfl rfl (n0 + (n1 + 0)) rfl (ix1 j)
    (fun bb hb => ?_) ?_
  · match bb with
    | ⟨0, _⟩ => exact absurd rfl hb
  · show n0 + (n1 + 0) + j.val = j'.val
    omega

end LibConcat3
-- ==== Proof.RefRead.lean ====
/-
  The reference's two networks read at an index.

  Each of the reference's whole-array stages is read at an entry (p, q): SELU acts entry by entry and is the
  specification's SELU there; a bias laid along every row reads the bias vector at the column; a matrix product with
  plain dimension numbers reads the sum over the contracted axis; and the joined input of the first layer reads, at
  column k, the block that column falls in.  A product over the joined row then splits into the partial products over
  its blocks, which is the specification's first layer.  Composing the three layers gives the specification's
  function at every entry.
-/
import proofs.«170768_j69415261438105_1_alg».proof.Proof.RefStages
import proofs.«170768_j69415261438105_1_alg».proof.Proof.MlpSpec
import proofs.«170768_j69415261438105_1_alg».proof.Proof.MlpAlgebra
import proofs.«170768_j69415261438105_1_alg».proof.Proof.LibDotPlain
import proofs.«170768_j69415261438105_1_alg».proof.Proof.LibConcat3
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen

/-! ## SELU and the bias at an entry -/

/-- The reference's SELU on a 400000 x 128 array acts entry by entry, and is the specification's SELU there: the
    broadcast constants read their words, the comparison is the comparison of extended reals, and expm1 y is
    exp y − 1. -/
theorem seluA_apply (x : FVec Ideal S400000x128 .f32) (i : S400000x128.Idx) :
    seluA x i = Cert.MlpSpec.selu (x i) :=
  Eq.trans rfl (Cert.MlpSpec.selu_guarded (x i))

/-- The same on a 100000 x 128 array. -/
theorem seluE_apply (x : FVec Ideal S100000x128 .f32) (i : S100000x128.Idx) :
    seluE x i = Cert.MlpSpec.selu (x i) :=
  Eq.trans rfl (Cert.MlpSpec.selu_guarded (x i))

/-- The bias laid along every row reads the bias vector at the column. -/
theorem biasA_apply (b : FVec Ideal S128 .f32) (p : Fin 400000) (q : Fin 128) : biasA b (ix2 p q) = b (ix1 q) := by
  unfold biasA
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

theorem biasE_apply (b : FVec Ideal S128 .f32) (p : Fin 100000) (q : Fin 128) : biasE b (ix2 p q) = b (ix1 q) := by
  unfold biasE
  refine (broadcastInDim_apply _ _ _ (ix2 p q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-! ## A linear layer at an entry -/

/-- A product with a 128 x 128 weight matrix plus the bias, at entry (p, q), is the specification's linear layer
    on row p. -/
theorem layerA_apply (x : FVec Ideal S400000x128 .f32) (W : FVec Ideal S128x128 .f32) (b : FVec Ideal S128 .f32)
    (p : Fin 400000) (q : Fin 128) :
    addf (Host.dotGeneral dot_S400000x128_S128x128_S400000x128_1_0_0_1_n_n none x W) (biasA b) (ix2 p q)
      = Cert.MlpSpec.lin (fun k => x (ix2 p k)) (fun k j => W (ix2 k j)) (fun j => b (ix1 j)) q := by
  rw [addf_apply, biasA_apply]
  unfold Cert.MlpSpec.lin
  refine congrArg (· + b (ix1 q)) ?_
  exact Cert.LibDotPlain.dotGeneral_apply _ rfl rfl rfl rfl rfl rfl none x W p q

theorem layerE_apply (x : FVec Ideal S100000x128 .f32) (W : FVec Ideal S128x128 .f32) (b : FVec Ideal S128 .f32)
    (p : Fin 100000) (q : Fin 128) :
    addf (Host.dotGeneral dot_S100000x128_S128x128_S100000x128_1_0_0_1_n_n none x W) (biasE b) (ix2 p q)
      = Cert.MlpSpec.lin (fun k => x (ix2 p k)) (fun k j => W (ix2 k j)) (fun j => b (ix1 j)) q := by
  rw [addf_apply, biasE_apply]
  unfold Cert.MlpSpec.lin
  refine congrArg (· + b (ix1 q)) ?_
  exact Cert.LibDotPlain.dotGeneral_apply _ rfl rfl rfl rfl rfl rfl none x W p q

/-- The edge network's first layer at entry (p, q): the product of the joined row with the 264 x 128 weight matrix
    splits into the partial products over the row's three blocks. -/
theorem layer0A_apply (a12 : FVec Ideal S400000x8 .f32) (u v : FVec Ideal S400000x128 .f32) (aW0 : FVec Ideal S264x128 .f32)
    (ab0 : FVec Ideal S128 .f32) (p : Fin 400000) (q : Fin 128) :
    addf (Host.dotGeneral dot_S400000x264_S264x128_S400000x128_1_0_0_1_n_n none
        (concatenate S400000x264 1 [⟨S400000x8, a12⟩, ⟨S400000x128, u⟩, ⟨S400000x128, v⟩]
          concatenates_S400000x8_S400000x128_S400000x128_S400000x264_d1) aW0) (biasA ab0) (ix2 p q)
      = Cert.MlpSpec.edgePre (fun k => a12 (ix2 p k)) (fun k => u (ix2 p k)) (fun k => v (ix2 p k))
          (fun k j => aW0 (ix2 (⟨k.val, by omega⟩ : Fin 264) j))
          (fun k j => aW0 (ix2 (⟨8 + k.val, by omega⟩ : Fin 264) j))
          (fun k j => aW0 (ix2 (⟨136 + k.val, by omega⟩ : Fin 264) j))
          (fun j => ab0 (ix1 j)) q := by
  rw [addf_apply, biasA_apply]
  refine Eq.trans ?_ (Cert.MlpSpec.lin_joined3
    (fun k => concatenate S400000x264 1 [⟨S400000x8, a12⟩, ⟨S400000x128, u⟩, ⟨S400000x128, v⟩]
      concatenates_S400000x8_S400000x128_S400000x128_S400000x264_d1 (ix2 p k))
    (fun k => a12 (ix2 p k)) (fun k => u (ix2 p k)) (fun k => v (ix2 p k))
    (fun k j => aW0 (ix2 k j)) (fun j => ab0 (ix1 j)) q (fun k => ?_) (fun k => ?_) (fun k => ?_))
  · unfold Cert.MlpSpec.lin
    refine congrArg (· + ab0 (ix1 q)) ?_
    exact Cert.LibDotPlain.dotGeneral_apply _ rfl rfl rfl rfl rfl rfl none _ aW0 p q
  · exact LibConcat3.concat3_cols_0 a12 u v _ p k _ (by simp)
  · exact LibConcat3.concat3_cols_1 a12 u v _ p k _ rfl
  · exact LibConcat3.concat3_cols_2 a12 u v _ p k _ rfl

/-- The node network's first layer at entry (p, q): the product of the joined row with the 256 x 128 weight matrix
    splits into the partial products over the row's two blocks. -/
theorem layer0E_apply (g e2 : FVec Ideal S100000x128 .f32) (eW0 : FVec Ideal S256x128 .f32)
    (eb0 : FVec Ideal S128 .f32) (p : Fin 100000) (q : Fin 128) :
    addf (Host.dotGeneral dot_S100000x256_S256x128_S100000x128_1_0_0_1_n_n none
        (concatenate S100000x256 1 [⟨S100000x128, g⟩, ⟨S100000x128, e2⟩]
          concatenates_S100000x128_S100000x128_S100000x256_d1) eW0) (biasE eb0) (ix2 p q)
      = Cert.MlpSpec.nodePre (fun k => g (ix2 p k)) (fun k => e2 (ix2 p k))
          (fun k j => eW0 (ix2 (⟨k.val, by omega⟩ : Fin 256) j))
          (fun k j => eW0 (ix2 (⟨128 + k.val, by omega⟩ : Fin 256) j))
          (fun j => eb0 (ix1 j)) q := by
  rw [addf_apply, biasE_apply]
  refine Eq.trans ?_ (Cert.MlpSpec.lin_joined2
    (fun k => concatenate S100000x256 1 [⟨S100000x128, g⟩, ⟨S100000x128, e2⟩]
      concatenates_S100000x128_S100000x128_S100000x256_d1 (ix2 p k))
    (fun k => g (ix2 p k)) (fun k => e2 (ix2 p k))
    (fun k j => eW0 (ix2 k j)) (fun j => eb0 (ix1 j)) q (fun k => ?_) (fun k => ?_))
  · unfold Cert.MlpSpec.lin
    refine congrArg (· + eb0 (ix1 q)) ?_
    exact Cert.LibDotPlain.dotGeneral_apply _ rfl rfl rfl rfl rfl rfl none _ eW0 p q
  · -- column k of the joined row, k < 128, falls in the first block
    refine concatenate_apply_piece (t := S100000x256) (1 : Fin 2) [⟨S100000x128, g⟩, ⟨S100000x128, e2⟩]
      concatenates_S100000x128_S100000x128_S100000x256_d1 (ix2 p (⟨k.val, by omega⟩ : Fin 256)) 0 (by show 0 < 2; omega)
      S100000x128 g rfl rfl 0 rfl (ix2 p k) (fun bb hb => ?_) ?_
    · match bb with
      | ⟨0, _⟩ => rfl
      | ⟨1, _⟩ => exact absurd rfl hb
    · show 0 + k.val = k.val
      omega
  · -- column 128 + k falls in the second block, at its column k
    refine concatenate_apply_piece (t := S100000x256) (1 : Fin 2) [⟨S100000x128, g⟩, ⟨S100000x128, e2⟩]
      concatenates_S100000x128_S100000x128_S100000x256_d1 (ix2 p (⟨128 + k.val, by omega⟩ : Fin 256)) 1 (by show 1 < 2; omega)
      S100000x128 e2 rfl rfl (128 + 0) rfl (ix2 p k) (fun bb hb => ?_) ?_
    · match bb with
      | ⟨0, _⟩ => rfl
      | ⟨1, _⟩ => exact absurd rfl hb
    · show 128 + 0 + k.val = 128 + k.val
      omega

/-! ## The two networks -/

/-- The reference's edge network is the specification's, at every entry. -/
theorem edgeOut_eq (a12 : FVec Ideal S400000x8 .f32) (u v : FVec Ideal S400000x128 .f32) (aW0 : FVec Ideal S264x128 .f32)
    (ab0 : FVec Ideal S128 .f32) (aW1 : FVec Ideal S128x128 .f32) (ab1 : FVec Ideal S128 .f32)
    (aW2 : FVec Ideal S128x128 .f32) (ab2 : FVec Ideal S128 .f32) :
    edgeOut a12 u v aW0 ab0 aW1 ab1 aW2 ab2 = Cert.MlpSpec.edgeFn a12 u v aW0 ab0 aW1 ab1 aW2 ab2 := by
  funext i
  obtain ⟨p, q, rfl⟩ : ∃ (p : Fin 400000) (q : Fin 128), i = ix2 p q := ⟨i 0, i 1, eq_ix2 i⟩
  rw [Cert.MlpSpec.edgeFn_apply]
  unfold edgeOut Cert.MlpSpec.edgeAt Cert.MlpSpec.tail
  refine (layerA_apply _ aW2 ab2 p q).trans ?_
  refine congrArg (fun x => Cert.MlpSpec.lin x _ _ q) (funext fun j => ?_)
  refine (seluA_apply _ (ix2 p j)).trans (congrArg Cert.MlpSpec.selu ?_)
  refine (layerA_apply _ aW1 ab1 p j).trans ?_
  refine congrArg (fun x => Cert.MlpSpec.lin x _ _ j) (funext fun i => ?_)
  refine (seluA_apply _ (ix2 p i)).trans (congrArg Cert.MlpSpec.selu ?_)
  exact layer0A_apply a12 u v aW0 ab0 p i

/-- The reference's node network is the specification's, at every entry. -/
theorem nodeOut_eq (g e2 : FVec Ideal S100000x128 .f32) (eW0 : FVec Ideal S256x128 .f32)
    (eb0 : FVec Ideal S128 .f32) (eW1 : FVec Ideal S128x128 .f32) (eb1 : FVec Ideal S128 .f32)
    (eW2 : FVec Ideal S128x128 .f32) (eb2 : FVec Ideal S128 .f32) :
    nodeOut g e2 eW0 eb0 eW1 eb1 eW2 eb2 = Cert.MlpSpec.nodeFn g e2 eW0 eb0 eW1 eb1 eW2 eb2 := by
  funext i
  obtain ⟨p, q, rfl⟩ : ∃ (p : Fin 100000) (q : Fin 128), i = ix2 p q := ⟨i 0, i 1, eq_ix2 i⟩
  rw [Cert.MlpSpec.nodeFn_apply]
  unfold nodeOut Cert.MlpSpec.nodeAt Cert.MlpSpec.tail
  refine (layerE_apply _ eW2 eb2 p q).trans ?_
  refine congrArg (fun x => Cert.MlpSpec.lin x _ _ q) (funext fun j => ?_)
  refine (seluE_apply _ (ix2 p j)).trans (congrArg Cert.MlpSpec.selu ?_)
  refine (layerE_apply _ eW1 eb1 p j).trans ?_
  refine congrArg (fun x => Cert.MlpSpec.lin x _ _ j) (funext fun i => ?_)
  refine (seluE_apply _ (ix2 p i)).trans (congrArg Cert.MlpSpec.selu ?_)
  exact layer0E_apply g e2 eW0 eb0 p i

end Cert.ReferenceIdeal.RefValue

end
-- ==== Proof.BridgeOut.lean ====
/-
  The two programs' results are one function of the arguments.  The reference's edge and node networks are the
  specification's (a sum over the concatenated row split into its pieces; jax's guarded SELU is SELU), the kernel's
  result is stated over the specification already, and the host stages between them are the same compositions.
-/
import proofs.«170768_j69415261438105_1_alg».proof.Proof.Bridge
import proofs.«170768_j69415261438105_1_alg».proof.Proof.RefRead
import proofs.«170768_j69415261438105_1_alg».proof.Proof.KOut

noncomputable section

namespace Cert.Bridge

open Idealize.ShloMosaic Cert.KernelIdeal

theorem out_eq (e1 : FVec Ideal S400000x128 .f32) (e2 : FVec Ideal S100000x128 .f32) (a12 : FVec Ideal S400000x8 .f32)
    (ai : IVec S2x400000 32) (aW0 : FVec Ideal S264x128 .f32) (ab0 : FVec Ideal S128 .f32)
    (aW1 : FVec Ideal S128x128 .f32) (ab1 : FVec Ideal S128 .f32) (aW2 : FVec Ideal S128x128 .f32) (ab2 : FVec Ideal S128 .f32)
    (eW0 : FVec Ideal S256x128 .f32) (eb0 : FVec Ideal S128 .f32) (eW1 : FVec Ideal S128x128 .f32) (eb1 : FVec Ideal S128 .f32)
    (eW2 : FVec Ideal S128x128 .f32) (eb2 : FVec Ideal S128 .f32) :
    Cert.ReferenceIdeal.RefValue.refOut e1 e2 a12 ai aW0 ab0 aW1 ab1 aW2 ab2 eW0 eb0 eW1 eb1 eW2 eb2 = Cert.KernelIdeal.KValue.kOut e1 e2 a12 ai aW0 ab0 aW1 ab1 aW2 ab2 eW0 eb0 eW1 eb1 eW2 eb2 := by
  unfold Cert.ReferenceIdeal.RefValue.refOut Cert.KernelIdeal.KValue.kOut
  rw [Cert.ReferenceIdeal.RefValue.nodeOut_eq, Cert.ReferenceIdeal.RefValue.edgeOut_eq, e1g_eq, e2g_eq, idxRow1_eq, aggr_eq]

end Cert.Bridge

end
-- ==== Proof.lean ====
/-
  The certificate's five claims.

  Both programs compute, for a graph with 400000 edges and 100000 nodes: per edge a three-layer network with SELU
  of (angle features, the gathered row of e1, the gathered row of e2); per node the mean of the edge outputs whose
  column index is that node; per node a second three-layer network of (that mean, the node's row of e2).
  The kernel runs the two networks as two pipelined regions over blocks of 4000 rows, multiplies its first layers
  block by block of the weight matrix, and writes SELU with exp x - 1; the reference concatenates the features,
  multiplies once, and uses jax's guarded SELU with expm1.  On the extended reals these agree entry by entry: a sum
  over the concatenated row is the sum of its pieces' sums, exp x - 1 is expm1 x, and the guard only changes the
  argument of expm1 where its value is discarded.  The gathers, the scatter-adds and the division are the same host
  operations in both programs.  No finiteness of the inputs is used.

  The three frames: the two kernels' are the generated frame certificates; the reference's is its run with the
  result dropped.  The idealization rewrote nothing, so that claim is trivial.
-/
import proofs.«170768_j69415261438105_1_alg».proof.Defs
import proofs.«170768_j69415261438105_1_alg».proof.Proof.Gen.Kernel
import proofs.«170768_j69415261438105_1_alg».proof.Proof.Gen.Kernel.Frame
import proofs.«170768_j69415261438105_1_alg».proof.Proof.Gen.KernelIdeal
import proofs.«170768_j69415261438105_1_alg».proof.Proof.Gen.KernelIdeal.Frame
import proofs.«170768_j69415261438105_1_alg».proof.Proof.Gen.ReferenceIdeal
import proofs.«170768_j69415261438105_1_alg».proof.Proof.Gen.Pre_finite_inputs
import proofs.«170768_j69415261438105_1_alg».proof.Proof.KValueRun
import proofs.«170768_j69415261438105_1_alg».proof.Proof.RefRun
import proofs.«170768_j69415261438105_1_alg».proof.Proof.BridgeOut
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run (Cert.ReferenceIdeal.defs (F := Ideal)) _ _).mono (fun _ h c => (h c).2) (Cert.ReferenceIdeal.RefRun.run m ρ)

theorem preserves : Cert.preserves_Kernel_KernelIdeal := trivial

/-- From memories agreeing on the arguments both programs end with the same result array: the kernel's run ends
    at its result function of the arguments, the reference's at its own, and the two functions are one. -/
theorem algebraic : Cert.algebraic_KernelIdeal_ReferenceIdeal := by
  intro m ρ m' ρ' _ hagree
  refine ⟨fun c => Cert.KernelIdeal.KValue.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.KValue.run m ρ, ?_⟩
  refine (θ_run (Cert.ReferenceIdeal.defs (F := Ideal)) _ _).mono (fun _ h c => ⟨(h c).1.trans ?_, (h c).2⟩)
    (Cert.ReferenceIdeal.RefRun.run m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact Cert.Bridge.out_eq _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
